-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192x512 : Shape := ⟨2, ![8192, 512]⟩
abbrev S8192 : Shape := ⟨1, ![8192]⟩
abbrev S8192x1 : Shape := ⟨2, ![8192, 1]⟩
abbrev S8x1x1 : Shape := ⟨3, ![8, 1, 1]⟩
abbrev S1024x512 : Shape := ⟨2, ![1024, 512]⟩
abbrev S1024x1 : Shape := ⟨2, ![1024, 1]⟩
abbrev S1x1x1 : Shape := ⟨3, ![1, 1, 1]⟩
abbrev S1x1 : Shape := ⟨2, ![1, 1]⟩
abbrev S512x1024 : Shape := ⟨2, ![512, 1024]⟩
abbrev S1024x1024 : Shape := ⟨2, ![1024, 1024]⟩
abbrev S1024 : Shape := ⟨1, ![1024]⟩
abbrev S1x1024x1024 : Shape := ⟨3, ![1, 1024, 1024]⟩
abbrev S1 : Shape := ⟨1, ![1]⟩
abbrev S8192x2 : Shape := ⟨2, ![8192, 2]⟩

abbrev nBuf : Space → Nat
  | .hbm => 70
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S8192x512, .f32⟩
  | .hbm, ⟨23, _⟩ => ⟨S8192x512, .bf16⟩
  | .hbm, ⟨24, _⟩ => ⟨S4096x512, .f32⟩
  | .hbm, ⟨25, _⟩ => ⟨S_, .f32⟩
  | .hbm, ⟨26, _⟩ => ⟨S4096, .f32⟩
  | .hbm, ⟨27, _⟩ => ⟨S8192, .f32⟩
  | .hbm, ⟨28, _⟩ => ⟨S8192x1, .f32⟩
  | .hbm, ⟨29, _⟩ => ⟨S8x1x1, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192x1, .f32⟩
  | .hbm, ⟨43, _⟩ => ⟨S8192x1, .f32⟩
  | .hbm, ⟨44, _⟩ => ⟨S8192x2, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1, .f32⟩
  | .hbm, ⟨51, _⟩ => ⟨S8192x2, .f32⟩
  | .hbm, ⟨52, _⟩ => ⟨S8192x2, .f32⟩
  | .hbm, ⟨53, _⟩ => ⟨S8192x2, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1, .f32⟩
  | .hbm, ⟨58, _⟩ => ⟨S8192x2, .f32⟩
  | .hbm, ⟨59, _⟩ => ⟨S8192x2, .f32⟩
  | .hbm, ⟨60, _⟩ => ⟨S8192x1, .f32⟩
  | .hbm, ⟨61, _⟩ => ⟨S8192, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1x1, .f32⟩
  | .local _ .vmem, ⟨7, _⟩ => ⟨S1x1x1, .f32⟩
  | .local _ .vmem, ⟨8, _⟩ => ⟨S1024x1, .f32⟩
  | .local _ .vmem, ⟨9, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call2_cst : Ref sig .tc := ⟨.hbm, 45, rfl⟩
abbrev main_call2_v0 : Ref sig .tc := ⟨.hbm, 46, rfl⟩
abbrev main_call2_cst_0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_cst_1 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_6 : Ref sig .tc := ⟨.hbm, 62, rfl⟩
abbrev main_v30 : Ref sig .tc := ⟨.hbm, 63, rfl⟩
abbrev main_cst_7 : Ref sig .tc := ⟨.hbm, 64, rfl⟩
abbrev main_v31 : Ref sig .tc := ⟨.hbm, 65, rfl⟩
abbrev main_v32 : Ref sig .tc := ⟨.hbm, 66, rfl⟩
abbrev main_cst_8 : Ref sig .tc := ⟨.hbm, 67, rfl⟩
abbrev main_v33 : Ref sig .tc := ⟨.hbm, 68, rfl⟩
abbrev main_v34 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_20 : BitVec 32 := 0#32
  let v49 : BitVec 1 := Scalar.cmpi .ne v48 c0_i32_20
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  bitsLt_bf16_f32 : FTy.bits .bf16 < FTy.bits .f32
  concatenates_S4096_S4096_S8192_d0 : Shape.Concatenates [S4096, S4096] S8192 0
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S8192x1_S8192 : S8192x1.ShapeCasts S8192
  reducesTo_S8x1x1_S_d0_1_2 : S8x1x1.ReducesTo [0, 1, 2] S_
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x2_S8192_d1 : S8192x2.ReducesTo [1] S8192
  bcast_S8192x1_S8192x2_0_1 : S8192x1.BroadcastsInDim S8192x2 (![0, 1] : Fin 2 → Fin S8192x2.rank)
  slices_S8192x2_S8192x1_0_0 : S8192x2.Slices ![0, 0] S8192x1
  reducesTo_S8192_S_d0 : S8192.ReducesTo [0] S_
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S8x1x1.size a
  hwx0_3 : ∀ i : grid0.Coords, EltTy.bits .f32 = 32 ∨ (Rect.block (s := S8x1x1) S1x1x1.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v11) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192x512 : Shape := ⟨2, ![8192, 512]⟩
abbrev S512x8192 : Shape := ⟨2, ![512, 8192]⟩
abbrev S8192x8192 : Shape := ⟨2, ![8192, 8192]⟩
abbrev S4096x2 : Shape := ⟨2, ![4096, 2]⟩
abbrev S8192 : Shape := ⟨1, ![8192]⟩
abbrev S8192x1 : Shape := ⟨2, ![8192, 1]⟩
abbrev S8192x2 : Shape := ⟨2, ![8192, 2]⟩

abbrev nBuf : Space → Nat
  | .hbm => 145
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S_, .f32⟩
  | 4 => ⟨S4096, .f32⟩
  | 5 => ⟨S4096x1, .f32⟩
  | 6 => ⟨S4096x1, .f32⟩
  | 7 => ⟨S_, .f32⟩
  | 8 => ⟨S4096x1, .f32⟩
  | 9 => ⟨S4096x1, .f32⟩
  | 10 => ⟨S4096x512, .f32⟩
  | 11 => ⟨S4096x512, .f32⟩
  | 12 => ⟨S4096x512, .f32⟩
  | 13 => ⟨S_, .f32⟩
  | 14 => ⟨S4096, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x512, .f32⟩
  | 21 => ⟨S4096x512, .f32⟩
  | 22 => ⟨S8192x512, .f32⟩
  | 23 => ⟨S512x8192, .f32⟩
  | 24 => ⟨S8192x8192, .f32⟩
  | 25 => ⟨S4096, .i32⟩
  | 26 => ⟨S4096, .i32⟩
  | 27 => ⟨S_, .i32⟩
  | 28 => ⟨S4096, .i32⟩
  | 29 => ⟨S4096, .i32⟩
  | 30 => ⟨S_, .i32⟩
  | 31 => ⟨S4096, .i32⟩
  | 32 => ⟨S4096, .i1⟩
  | 33 => ⟨S_, .i32⟩
  | 34 => ⟨S4096, .i32⟩
  | 35 => ⟨S4096, .i32⟩
  | 36 => ⟨S4096, .i32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S4096x1, .i32⟩
  | 46 => ⟨S4096x2, .i32⟩
  | 47 => ⟨S4096, .f32⟩
  | 48 => ⟨S4096, .i32⟩
  | 49 => ⟨S4096, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S_, .i32⟩
  | 61 => ⟨S4096, .i32⟩
  | 62 => ⟨S4096, .i1⟩
  | 63 => ⟨S_, .i32⟩
  | 64 => ⟨S4096, .i32⟩
  | 65 => ⟨S4096, .i32⟩
  | 66 => ⟨S4096, .i32⟩
  | 67 => ⟨S4096x1, .i32⟩
  | 68 => ⟨S4096x1, .i32⟩
  | 69 => ⟨S4096x2, .i32⟩
  | 70 => ⟨S4096, .f32⟩
  | 71 => ⟨S8192, .f32⟩
  | 72 => ⟨S8192x8192, .i32⟩
  | 73 => ⟨S8192x8192, .i32⟩
  | 74 => ⟨S_, .i32⟩
  | 75 => ⟨S8192x8192, .i32⟩
  | 76 => ⟨S8192x8192, .i32⟩
  | 77 => ⟨S8192x8192, .i1⟩
  | 78 => ⟨S_, .f32⟩
  | 79 => ⟨S_, .f32⟩
  | 80 => ⟨S8192x8192, .f32⟩
  | 81 => ⟨S8192x8192, .f32⟩
  | 82 => ⟨S_, .f32⟩
  | 83 => ⟨S8192, .f32⟩
  | 84 => ⟨S_, .f32⟩
  | 85 => ⟨S8192, .f32⟩
  | 86 => ⟨S8192, .f32⟩
  | 87 => ⟨S_, .f32⟩
  | 88 => ⟨S8192, .f32⟩
  | 89 => ⟨S8192, .f32⟩
  | 90 => ⟨S8192x1, .f32⟩
  | 91 => ⟨S8192x1, .f32⟩
  | 92 => ⟨S8192x2, .f32⟩
  | 93 => ⟨S_, .f32⟩
  | 94 => ⟨S8192, .f32⟩
  | 95 => ⟨S_, .f32⟩
  | 96 => ⟨S8192, .f32⟩
  | 97 => ⟨S8192, .f32⟩
  | 98 => ⟨S8192x1, .f32⟩
  | 99 => ⟨S8192x2, .f32⟩
  | 100 => ⟨S8192x2, .f32⟩
  | 101 => ⟨S8192x2, .f32⟩
  | 102 => ⟨S_, .f32⟩
  | 103 => ⟨S8192, .f32⟩
  | 104 => ⟨S8192x1, .f32⟩
  | 105 => ⟨S8192x1, .f32⟩
  | 106 => ⟨S8192x2, .f32⟩
  | 107 => ⟨S8192x2, .f32⟩
  | 108 => ⟨S8192x1, .f32⟩
  | 109 => ⟨S8192, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S8192x8192, .f32⟩
  | 117 => ⟨S8192x8192, .f32⟩
  | 118 => ⟨S_, .f32⟩
  | 119 => ⟨S8192x8192, .f32⟩
  | 120 => ⟨S8192x8192, .f32⟩
  | 121 => ⟨S_, .f32⟩
  | 122 => ⟨S8192x8192, .f32⟩
  | 123 => ⟨S8192x8192, .i32⟩
  | 124 => ⟨S_, .i32⟩
  | 125 => ⟨S8192x8192, .i32⟩
  | 126 => ⟨S8192x8192, .i32⟩
  | 127 => ⟨S8192x8192, .i32⟩
  | _ => ⟨S4096x512, .f32⟩

abbrev hbmTy0_1 (i : Nat) : BufTy := match i % 128 with
  | 0 => ⟨S8192x8192, .i1⟩
  | 1 => ⟨S_, .f32⟩
  | 2 => ⟨S8192x8192, .f32⟩
  | 3 => ⟨S8192x8192, .f32⟩
  | 4 => ⟨S_, .f32⟩
  | 5 => ⟨S8192x8192, .f32⟩
  | 6 => ⟨S8192x8192, .f32⟩
  | 7 => ⟨S8192x8192, .f32⟩
  | 8 => ⟨S8192x8192, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call2_v0 : Ref sig .tc := ⟨.hbm, 25, rfl⟩
abbrev main_call2_v1 : Ref sig .tc := ⟨.hbm, 26, rfl⟩
abbrev main_call2_c : Ref sig .tc := ⟨.hbm, 27, rfl⟩
abbrev main_call2_v2 : Ref sig .tc := ⟨.hbm, 28, rfl⟩
abbrev main_call2_v3 : Ref sig .tc := ⟨.hbm, 29, rfl⟩
abbrev main_call2_c_0 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c_2 : Ref sig .tc := ⟨.hbm, 37, rfl⟩
abbrev main_call2_v9 : Ref sig .tc := ⟨.hbm, 38, rfl⟩
abbrev main_call2_v10 : Ref sig .tc := ⟨.hbm, 39, rfl⟩
abbrev main_call2_c_3 : Ref sig .tc := ⟨.hbm, 40, rfl⟩
abbrev main_call2_v11 : Ref sig .tc := ⟨.hbm, 41, rfl⟩
abbrev main_call2_v12 : Ref sig .tc := ⟨.hbm, 42, rfl⟩
abbrev main_call2_v13 : Ref sig .tc := ⟨.hbm, 43, rfl⟩
abbrev main_call2_v14 : Ref sig .tc := ⟨.hbm, 44, rfl⟩
abbrev main_call2_v15 : Ref sig .tc := ⟨.hbm, 45, rfl⟩
abbrev main_call2_v16 : Ref sig .tc := ⟨.hbm, 46, rfl⟩
abbrev main_v13 : Ref sig .tc := ⟨.hbm, 47, rfl⟩
abbrev main_call3_v0 : Ref sig .tc := ⟨.hbm, 48, rfl⟩
abbrev main_call3_v1 : Ref sig .tc := ⟨.hbm, 49, rfl⟩
abbrev main_call3_c : Ref sig .tc := ⟨.hbm, 50, rfl⟩
abbrev main_call3_v2 : Ref sig .tc := ⟨.hbm, 51, rfl⟩
abbrev main_call3_v3 : Ref sig .tc := ⟨.hbm, 52, rfl⟩
abbrev main_call3_c_0 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_c_2 : Ref sig .tc := ⟨.hbm, 60, rfl⟩
abbrev main_call3_v9 : Ref sig .tc := ⟨.hbm, 61, rfl⟩
abbrev main_call3_v10 : Ref sig .tc := ⟨.hbm, 62, rfl⟩
abbrev main_call3_c_3 : Ref sig .tc := ⟨.hbm, 63, rfl⟩
abbrev main_call3_v11 : Ref sig .tc := ⟨.hbm, 64, rfl⟩
abbrev main_call3_v12 : Ref sig .tc := ⟨.hbm, 65, rfl⟩
abbrev main_call3_v13 : Ref sig .tc := ⟨.hbm, 66, rfl⟩
abbrev main_call3_v14 : Ref sig .tc := ⟨.hbm, 67, rfl⟩
abbrev main_call3_v15 : Ref sig .tc := ⟨.hbm, 68, rfl⟩
abbrev main_call3_v16 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_c : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_cst_1 : Ref sig .tc := ⟨.hbm, 78, rfl⟩
abbrev main_call4_v0 : Ref sig .tc := ⟨.hbm, 79, rfl⟩
abbrev main_call4_v1 : Ref sig .tc := ⟨.hbm, 80, rfl⟩
abbrev main_v21 : Ref sig .tc := ⟨.hbm, 81, rfl⟩
abbrev main_cst_2 : Ref sig .tc := ⟨.hbm, 82, rfl⟩
abbrev main_v22 : Ref sig .tc := ⟨.hbm, 83, rfl⟩
abbrev main_cst_3 : Ref sig .tc := ⟨.hbm, 84, rfl⟩
abbrev main_v23 : Ref sig .tc := ⟨.hbm, 85, rfl⟩
abbrev main_v24 : Ref sig .tc := ⟨.hbm, 86, rfl⟩
abbrev main_cst_4 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_call5_cst : Ref sig .tc := ⟨.hbm, 93, rfl⟩
abbrev main_call5_v0 : Ref sig .tc := ⟨.hbm, 94, rfl⟩
abbrev main_call5_cst_0 : Ref sig .tc := ⟨.hbm, 95, rfl⟩
abbrev main_call5_v1 : Ref sig .tc := ⟨.hbm, 96, rfl⟩
abbrev main_call5_v2 : Ref sig .tc := ⟨.hbm, 97, rfl⟩
abbrev main_call5_v3 : Ref sig .tc := ⟨.hbm, 98, rfl⟩
abbrev main_call5_v4 : Ref sig .tc := ⟨.hbm, 99, rfl⟩
abbrev main_call5_v5 : Ref sig .tc := ⟨.hbm, 100, rfl⟩
abbrev main_call5_v6 : Ref sig .tc := ⟨.hbm, 101, rfl⟩
abbrev main_call5_cst_1 : Ref sig .tc := ⟨.hbm, 102, rfl⟩
abbrev main_call5_v7 : Ref sig .tc := ⟨.hbm, 103, rfl⟩
abbrev main_call5_v8 : Ref sig .tc := ⟨.hbm, 104, rfl⟩
abbrev main_call5_v9 : Ref sig .tc := ⟨.hbm, 105, rfl⟩
abbrev main_call5_v10 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_cst_5 : Ref sig .tc := ⟨.hbm, 110, rfl⟩
abbrev main_v33 : Ref sig .tc := ⟨.hbm, 111, rfl⟩
abbrev main_cst_6 : Ref sig .tc := ⟨.hbm, 112, rfl⟩
abbrev main_v34 : Ref sig .tc := ⟨.hbm, 113, rfl⟩
abbrev main_v35 : Ref sig .tc := ⟨.hbm, 114, rfl⟩
abbrev main_cst_7 : Ref sig .tc := ⟨.hbm, 115, rfl⟩
abbrev main_v36 : Ref sig .tc := ⟨.hbm, 116, rfl⟩
abbrev main_v37 : Ref sig .tc := ⟨.hbm, 117, rfl⟩
abbrev main_cst_8 : Ref sig .tc := ⟨.hbm, 118, rfl⟩
abbrev main_v38 : Ref sig .tc := ⟨.hbm, 119, rfl⟩
abbrev main_v39 : Ref sig .tc := ⟨.hbm, 120, rfl⟩
abbrev main_cst_9 : Ref sig .tc := ⟨.hbm, 121, rfl⟩
abbrev main_v40 : Ref sig .tc := ⟨.hbm, 122, rfl⟩
abbrev main_call6_v0 : Ref sig .tc := ⟨.hbm, 123, rfl⟩
abbrev main_call6_c : Ref sig .tc := ⟨.hbm, 124, rfl⟩
abbrev main_call6_v1 : Ref sig .tc := ⟨.hbm, 125, rfl⟩
abbrev main_call6_v2 : Ref sig .tc := ⟨.hbm, 126, rfl⟩
abbrev main_call6_v3 : Ref sig .tc := ⟨.hbm, 127, rfl⟩
abbrev main_call6_v4 : Ref sig .tc := ⟨.hbm, 128, rfl⟩
abbrev main_call6_cst : Ref sig .tc := ⟨.hbm, 129, rfl⟩
abbrev main_call6_v5 : Ref sig .tc := ⟨.hbm, 130, rfl⟩
abbrev main_v41 : Ref sig .tc := ⟨.hbm, 131, rfl⟩
abbrev main_cst_10 : Ref sig .tc := ⟨.hbm, 132, rfl⟩
abbrev main_v42 : Ref sig .tc := ⟨.hbm, 133, rfl⟩
abbrev main_v43 : Ref sig .tc := ⟨.hbm, 134, rfl⟩
abbrev main_v44 : Ref sig .tc := ⟨.hbm, 135, rfl⟩
abbrev main_v45 : Ref sig .tc := ⟨.hbm, 136, rfl⟩
abbrev main_cst_11 : Ref sig .tc := ⟨.hbm, 137, rfl⟩
abbrev main_v46 : Ref sig .tc := ⟨.hbm, 138, rfl⟩
abbrev main_cst_12 : Ref sig .tc := ⟨.hbm, 139, rfl⟩
abbrev main_v47 : Ref sig .tc := ⟨.hbm, 140, rfl⟩
abbrev main_v48 : Ref sig .tc := ⟨.hbm, 141, rfl⟩
abbrev main_cst_13 : Ref sig .tc := ⟨.hbm, 142, rfl⟩
abbrev main_v49 : Ref sig .tc := ⟨.hbm, 143, rfl⟩
abbrev main_v50 : Ref sig .tc := ⟨.hbm, 144, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  transposes_S8192x512_S512x8192_1_0 : S8192x512.Transposes [1, 0] S512x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x2_S8192_d1 : S8192x2.ReducesTo [1] S8192
  bcast_S8192x1_S8192x2_0_1 : S8192x1.BroadcastsInDim S8192x2 (![0, 1] : Fin 2 → Fin S8192x2.rank)
  slices_S8192x2_S8192x1_0_0 : S8192x2.Slices ![0, 0] S8192x1
  shapeCasts_S8192x1_S8192 : S8192x1.ShapeCasts S8192
  reducesTo_S8192_S_d0 : S8192.ReducesTo [0] S_
  reducesTo_S8192x8192_S_d0_1 : S8192x8192.ReducesTo [0, 1] S_
  dot_S8192x512_S512x8192_S8192x8192_1_0_0_1_n_n_wf : DotDims.WF S8192x512 S512x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.KSetup.lean ====
/-
  Where the kernel region starts, and the bookkeeping of its grid. The host lines before the region leave every buffer
  at a fixed function `V` of the launch memory (the program is those lines, the region, and the lines after it, so its
  run reduces to the region's run from `V`), and a window's block at a grid point is read off its array there. Grid
  point t = 8·i + j has row tile i and column tile j; the body initialises its two accumulators where j = 0 and writes
  them out where j = 7, which splits the 64 points into three cases. The two input windows are never idle, the two
  outputs are idle except where j = 7, and the row window, fetched only where j = 0, still holds the row block at every
  point of its row tile.
-/
import proofs.«154950_j89077621719714_1_alg».proof.Proof.Gen.Kernel.Launch
import proofs.«154950_j89077621719714_1_alg».proof.Proof.Gen.Kernel.Skeleton
import proofs.«154950_j89077621719714_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the kernel region -/

/-- What each TensorCore buffer of core `c` holds when the kernel region is entered: the memory `m` after the
    host operations that precede the region (the two row normalisations, the stacking and the conversion). -/
abbrev V0 (c : Dev nD) : Valuation τ sig (Elt F) :=
  StableHlo.after (List.flatten [hostOps0, hostOps0_1, hostOps0_2, hostOps0_3]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- The host program is: the operations before the region, the region, the operations after it; so running it
    reduces to running the region from `V`, continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2, hostOps0_3] [hostOps1, hostOps1_1, hostOps1_2]
    ⟨hostOps0_sub, hostOps0_1_sub, hostOps0_2_sub, hostOps0_3_sub⟩
    ⟨hostOps0_fresh, hostOps0_1_fresh, hostOps0_2_fresh, hostOps0_3_fresh⟩ main_chain

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row window (window 0) is fetched only when the column coordinate is 0, yet its staging buffer holds the
    row block at every point: between fetches the block index does not move and the body leaves the buffer as it
    found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column window (window 1) is fetched at every point: its staging buffer holds the column block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first conditional of the body (initialise the accumulators): the column coordinate is 0. -/
abbrev cond0_0 (i : grid0.Coords) : Prop := (Scalar.cmpi .ne (Scalar.extui (Scalar.cmpi .eq (BitVec.ofNat 32 (i 1).val) 0#32)) 0#32) = 1#1
/-- With point `t = 8·i + j` it holds exactly when `t % 8 = 0`. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional of the body (write the accumulators out): the column coordinate is 7. -/
abbrev cond0_1 (i : grid0.Coords) : Prop := k0_cond2 i = 1#1
/-- It holds exactly when `t % 8 = 7`. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Case A (column coordinate 0): both outputs are idle and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- Case B (column coordinate 1…6): both outputs are idle and not written back. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- Case C (column coordinate 7): both outputs are live (the body stores into them). -/
theorem liveAt0_2_C : ∀ t : Fin cfg0.N, ¬cond0_0 (grid0.coords t) → cond0_1 (grid0.coords t) → cfg0.idle 2 (grid0.coords t) = false := by decide +kernel
theorem liveAt0_3_C : ∀ t : Fin cfg0.N, ¬cond0_0 (grid0.coords t) → cond0_1 (grid0.coords t) → cfg0.idle 3 (grid0.coords t) = false := by decide +kernel

/-! ## The memrefs the body is called with -/

/-- One staging buffer of each output window, through which its contents are stated (any would do). -/
abbrev VO0_2 : View sig .tc .vmem S1024x1 .f32 := (Memref.whole cc0_stg2_0 : Memref sig .tc .vmem S1024x1 .f32).view
abbrev VO0_3 : View sig .tc .vmem S1x1x1 .f32 := (Memref.whole cc0_stg3_0 : Memref sig .tc .vmem S1x1x1 .f32).view
/-- Each window's current staging memref at point `t`, and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)
/-- The two scratch operands: the running row maximum and the running sum. -/
abbrev scM0_0 : Memref sig .tc .vmem S1024x1 .f32 := Memref.whole cc0_scratch0
abbrev scM0_1 : Memref sig .tc .vmem S1x1 .f32 := Memref.whole cc0_scratch1
/-- The same as views: what they hold is stated through them. -/
abbrev VS0_0 : View sig .tc .vmem S1024x1 .f32 := scM0_0.view
abbrev VS0_1 : View sig .tc .vmem S1x1 .f32 := scM0_1.view

/-- The region's base invariant, spelled out: both scratch buffers owned at some contents, and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KRunA.lean ====
/-
  The body at a grid point whose column coordinate is 0, the first column tile of a row tile: it resets the two
  accumulators and folds the tile into them, and touches neither output. The run is stated as the lists of pieces it
  writes into the accumulators, over the values the body computes from the two input blocks.
-/
import proofs.«154950_j89077621719714_1_alg».proof.Proof.KSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point whose column coordinate is 0 (first conditional taken, second not). On whole memrefs — the
    two inputs at contents `x0`, `x1`; the two outputs at contents `xi2`, `xi3`, which it does not touch; the two
    accumulators at anything — it runs to a continuation that is handed the inputs and outputs as they were and each
    accumulator with the pieces `LS0`, `LS1` written: the initial value first, then the fold of this tile. The
    piece lists are the witness. -/
noncomputable def kernelRun0_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : cond0_0 i) (hc1 : ¬cond0_1 i)
    (x0 : Vec F S1024x512 .bf16) (x1 : Vec F S1024x512 .bf16) :
    Σ' (L2 : List (View.Piece (Elt F) S1024x1 .f32)) (L3 : List (View.Piece (Elt F) S1x1x1 .f32)) (LS0 : List (View.Piece (Elt F) S1024x1 .f32)), { LS1 : List (View.Piece (Elt F) S1x1 .f32) //
      ∀ (xi2 : Vec F S1024x1 .f32) (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__ntxent_kernel i arg2 harg2 arg3 harg3 arg4 harg4 arg5 harg5 arg6 harg6 arg7 harg7) K } := by
  refine ⟨[], [], ?_, ?_, fun xi2 xi3 E K => ?run⟩
  case run =>
    simp only [cc0__ntxent_kernel_eq_skeleton]; unfold cc0__ntxent_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KRunB.lean ====
/-
  The body at a grid point whose column coordinate is 1 … 6: it folds the tile into what the point before left in the
  two accumulators, and touches neither output. The run is stated as the lists of pieces it writes into the
  accumulators, over the values the body computes from the two input blocks and from the accumulators' contents.
-/
import proofs.«154950_j89077621719714_1_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point whose column coordinate is 1…6 (neither conditional taken). On whole memrefs — the inputs at
    `x0`, `x1`; the outputs at `xi2`, `xi3`, untouched; the accumulators at what the point before left, `xs0`,
    `xs1` — it runs to a continuation handed the inputs and outputs as they were and each accumulator with the
    pieces `LS0`, `LS1` written: the fold of this tile into `xs0`, `xs1`. -/
noncomputable def kernelRun0_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : ¬cond0_1 i)
    (x0 : Vec F S1024x512 .bf16) (x1 : Vec F S1024x512 .bf16) (xs0 : Vec F S1024x1 .f32) (xs1 : Vec F S1x1 .f32) :
    Σ' (L2 : List (View.Piece (Elt F) S1024x1 .f32)) (L3 : List (View.Piece (Elt F) S1x1x1 .f32)) (LS0 : List (View.Piece (Elt F) S1024x1 .f32)), { LS1 : List (View.Piece (Elt F) S1x1 .f32) //
      ∀ (xi2 : Vec F S1024x1 .f32) (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__ntxent_kernel i arg2 harg2 arg3 harg3 arg4 harg4 arg5 harg5 arg6 harg6 arg7 harg7) K } := by
  refine ⟨[], [], ?_, ?_, fun xi2 xi3 E K => ?run⟩
  case run =>
    simp only [cc0__ntxent_kernel_eq_skeleton]; unfold cc0__ntxent_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KRunC.lean ====
/-
  The body at a grid point whose column coordinate is 7, the last column tile of a row tile: it folds the tile into the
  two accumulators and then copies the finished accumulators into the two outputs. The run is stated as the lists of
  pieces it writes into the accumulators and into the outputs.
-/
import proofs.«154950_j89077621719714_1_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point whose column coordinate is 7 (first conditional not taken, second taken). On whole memrefs —
    the inputs at `x0`, `x1`; the outputs at anything; the accumulators at what the point before left, `xs0`,
    `xs1` — it runs to a continuation handed the inputs as they were, each accumulator with the pieces `LS0`,
    `LS1` written (the fold of this tile) and each output with the pieces `L2`, `L3` written: the finished
    accumulators. -/
noncomputable def kernelRun0_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) :
    Σ' (L2 : List (View.Piece (Elt F) S1024x1 .f32)) (L3 : List (View.Piece (Elt F) S1x1x1 .f32)) (LS0 : List (View.Piece (Elt F) S1024x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__ntxent_kernel i arg2 harg2 arg3 harg3 arg4 harg4 arg5 harg5 arg6 harg6 arg7 harg7) K } := by
  refine ⟨?_, ?_, ?_, ?_, fun E K => ?run⟩
  case run =>
    simp only [cc0__ntxent_kernel_eq_skeleton]; unfold cc0__ntxent_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Hand

end
-- ==== Proof.KBody.lean ====
/-
  What every grid point leaves behind, and the body obligation. From the three cases' runs: what the outputs' buffers
  and the two accumulators hold after each point (the accumulators carried from point to point and reset at the first
  column tile of each row tile); the invariant that hands the accumulators from one point to the next; the pipeline's
  proof data, in which both input windows read ONE array, each holding half of it; and the obligation itself: run at
  any point from the invariant, the body re-establishes it and hands every window's buffer back as the data say.
-/
import proofs.«154950_j89077621719714_1_alg».proof.Proof.KRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the outputs and in the accumulators -/

/-- Case A (the column coordinate is 0) stores nothing into output 2: a placeholder nothing consults (the window is idle there:
    neither written back nor read at the next point). -/
def out0_A_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : cond0_0 i) (hc1 : ¬cond0_1 i)
    (x0 : Vec F S1024x512 .bf16) (x1 : Vec F S1024x512 .bf16) : Vec F S1024x1 .f32 :=
  VO0_2.read (Elt F) (VO0_2.writes (Elt F) VO0_2.junk (kernelRun0_A c i arg2 harg2 arg3 harg3 arg4 harg4 arg5 harg5 arg6 harg6 arg7 harg7 hc0 hc1 x0 x1).1)

/-- Case A (the column coordinate is 0) stores nothing into output 3: a placeholder nothing consults (the window is idle there:
    neither written back nor read at the next point). -/
def out0_A_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : cond0_0 i) (hc1 : ¬cond0_1 i)
    (x0 : Vec F S1024x512 .bf16) (x1 : Vec F S1024x512 .bf16) : Vec F S1x1x1 .f32 :=
  VO0_3.read (Elt F) (VO0_3.writes (Elt F) VO0_3.junk (kernelRun0_A c i arg2 harg2 arg3 harg3 arg4 harg4 arg5 harg5 arg6 harg6 arg7 harg7 hc0 hc1 x0 x1).2.1)

/-- In case A the stores into accumulator 0 cover it. -/
theorem scover0_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : cond0_0 i) (hc1 : ¬cond0_1 i)
    (x0 : Vec F S1024x512 .bf16) (x1 : Vec F S1024x512 .bf16) (y : S1024x1.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S1024x1.size (by sl_kernel_rfl) y

/-- What case A leaves in accumulator 0: the stored pieces read back. -/
def sout0_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : cond0_0 i) (hc1 : ¬cond0_1 i)
    (x0 : Vec F S1024x512 .bf16) (x1 : Vec F S1024x512 .bf16) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1).2.2.1)

/-- In case A the stores into accumulator 1 cover it. -/
theorem scover0_A_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : cond0_0 i) (hc1 : ¬cond0_1 i)
    (x0 : Vec F S1024x512 .bf16) (x1 : Vec F S1024x512 .bf16) (y : S1x1.Idx) :
    ∃ pc ∈ (kernelRun0_A c i arg2 harg2 arg3 harg3 arg4 harg4 arg5 harg5 arg6 harg6 arg7 harg7 hc0 hc1 x0 x1).2.2.2.1, y ∈ pc.1.set :=
  View.cover_of_tiledL (kernelRun0_A c i arg2 harg2 arg3 harg3 arg4 harg4 arg5 harg5 arg6 harg6 arg7 harg7 hc0 hc1 x0 x1).2.2.2.1 S1x1.size (by sl_kernel_rfl) y

/-- What case A leaves in accumulator 1: the stored pieces read back. -/
def sout0_A_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : cond0_0 i) (hc1 : ¬cond0_1 i)
    (x0 : Vec F S1024x512 .bf16) (x1 : Vec F S1024x512 .bf16) : Vec F S1x1 .f32 :=
  VS0_1.read (Elt F) (VS0_1.writes (Elt F) VS0_1.junk (kernelRun0_A c i arg2 harg2 arg3 harg3 arg4 harg4 arg5 harg5 arg6 harg6 arg7 harg7 hc0 hc1 x0 x1).2.2.2.1)

/-- Case B (the column coordinate is 1…6) stores nothing into output 2: a placeholder nothing consults (the window is idle there:
    neither written back nor read at the next point). -/
def out0_B_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : ¬cond0_1 i)
    (x0 : Vec F S1024x512 .bf16) (x1 : Vec F S1024x512 .bf16) (xs0 : Vec F S1024x1 .f32) (xs1 : Vec F S1x1 .f32) : Vec F S1024x1 .f32 :=
  VO0_2.read (Elt F) (VO0_2.writes (Elt F) VO0_2.junk (kernelRun0_B c i arg2 harg2 arg3 harg3 arg4 harg4 arg5 harg5 arg6 harg6 arg7 harg7 hc0 hc1 x0 x1 xs0 xs1).1)

/-- Case B (the column coordinate is 1…6) stores nothing into output 3: a placeholder nothing consults (the window is idle there:
    neither written back nor read at the next point). -/
def out0_B_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : ¬cond0_1 i)
    (x0 : Vec F S1024x512 .bf16) (x1 : Vec F S1024x512 .bf16) (xs0 : Vec F S1024x1 .f32) (xs1 : Vec F S1x1 .f32) : Vec F S1x1x1 .f32 :=
  VO0_3.read (Elt F) (VO0_3.writes (Elt F) VO0_3.junk (kernelRun0_B c i arg2 harg2 arg3 harg3 arg4 harg4 arg5 harg5 arg6 harg6 arg7 harg7 hc0 hc1 x0 x1 xs0 xs1).2.1)

/-- In case B the stores into accumulator 0 cover it. -/
theorem scover0_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : ¬cond0_1 i)
    (x0 : Vec F S1024x512 .bf16) (x1 : Vec F S1024x512 .bf16) (xs0 : Vec F S1024x1 .f32) (xs1 : Vec F S1x1 .f32) (y : S1024x1.Idx) :
    ∃ pc ∈ (kernelRun0_B c i arg2 harg2 arg3 harg3 arg4 harg4 arg5 harg5 arg6 harg6 arg7 harg7 hc0 hc1 x0 x1 xs0 xs1).2.2.1, y ∈ pc.1.set :=
  View.cover_of_tiledL (kernelRun0_B c i arg2 harg2 arg3 harg3 arg4 harg4 arg5 harg5 arg6 harg6 arg7 harg7 hc0 hc1 x0 x1 xs0 xs1).2.2.1 S1024x1.size (by sl_kernel_rfl) y

/-- What case B leaves in accumulator 0: the stored pieces read back. -/
def sout0_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : ¬cond0_1 i)
    (x0 : Vec F S1024x512 .bf16) (x1 : Vec F S1024x512 .bf16) (xs0 : Vec F S1024x1 .f32) (xs1 : Vec F S1x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).2.2.1)

/-- In case B the stores into accumulator 1 cover it. -/
theorem scover0_B_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : ¬cond0_1 i)
    (x0 : Vec F S1024x512 .bf16) (x1 : Vec F S1024x512 .bf16) (xs0 : Vec F S1024x1 .f32) (xs1 : Vec F S1x1 .f32) (y : S1x1.Idx) :
    ∃ pc ∈ (kernelRun0_B c i arg2 harg2 arg3 harg3 arg4 harg4 arg5 harg5 arg6 harg6 arg7 harg7 hc0 hc1 x0 x1 xs0 xs1).2.2.2.1, y ∈ pc.1.set :=
  View.cover_of_tiledL (kernelRun0_B c i arg2 harg2 arg3 harg3 arg4 harg4 arg5 harg5 arg6 harg6 arg7 harg7 hc0 hc1 x0 x1 xs0 xs1).2.2.2.1 S1x1.size (by sl_kernel_rfl) y

/-- What case B leaves in accumulator 1: the stored pieces read back. -/
def sout0_B_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : ¬cond0_1 i)
    (x0 : Vec F S1024x512 .bf16) (x1 : Vec F S1024x512 .bf16) (xs0 : Vec F S1024x1 .f32) (xs1 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.2.2.1)

/-- In case C (the column coordinate is 7) the store into output 2 covers its block. -/
theorem cover0_C_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) (y : S1024x1.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1024x1.size (by sl_kernel_rfl) y

/-- What case C leaves in output 2's staging buffer: the stored pieces read back. -/
def out0_C_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) : Vec F S1024x1 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)

/-- In case C (the column coordinate is 7) the store into output 3 covers its block. -/
theorem cover0_C_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) (y : S1x1x1.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1x1x1.size (by sl_kernel_rfl) y

/-- What case C leaves in output 3's staging buffer: the stored pieces read back. -/
def out0_C_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) : Vec F S1x1x1 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)

/-- In case C the stores into accumulator 0 cover it. -/
theorem scover0_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) (y : S1024x1.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S1024x1.size (by sl_kernel_rfl) y

/-- What case C leaves in accumulator 0: the stored pieces read back. -/
def sout0_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)

/-- In case C the stores into accumulator 1 cover it. -/
theorem scover0_C_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) (y : S1x1.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S1x1.size (by sl_kernel_rfl) y

/-- What case C leaves in accumulator 1: the stored pieces read back. -/
def sout0_C_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-! ## What the outputs and the accumulators hold after each point -/

/-- After the body at position `n`: output 2's and output 3's staging buffers, then the two accumulators. The
    point's case is selected by `n % 8` (the column coordinate); cases B and C fold this tile into what the point
    before left in the accumulators, case A starts from the initial values. -/
def outsAt0 (c : Dev nD) : (n : ℕ) → n < cfg0.N → Vec F S1024x1 .f32 × Vec F S1x1x1 .f32 × Vec F S1024x1 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
         out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
         sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
         sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
         out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
         sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.1 (outsAt0 c n (Nat.lt_of_succ_lt hn)).2.2.2,
         out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.1 (outsAt0 c n (Nat.lt_of_succ_lt hn)).2.2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.1 (outsAt0 c n (Nat.lt_of_succ_lt hn)).2.2.2,
         sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.1 (outsAt0 c n (Nat.lt_of_succ_lt hn)).2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2,
         out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2,
         sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2)

/-- `outsAt0` at a point of case A. -/
theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t),
         out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t),
         sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t),
         sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- `outsAt0` at a point of case B: over what the point before left. -/
theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
         out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
         sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
         sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: over what the point before left. -/
theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
         out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
         sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
         sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the very first point the region's base invariant (both accumulators at anything);
    afterwards both accumulators at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`. The arrays are as the region finds them (`V`); after the body
    each input's buffer still holds its block and the outputs' hold `outsAt0`'s components; the invariant is
    `PhiS`; nothing is owed. Windows 0 and 1 read the SAME array (the stacked rows), so each holds one half of it;
    the outputs' arrays are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; `t % 8` says which case the point is in; the
    invariant hands the body the accumulators (at anything at the first point, else at what the point before left)
    and takes them back at this point's contents; idle outputs are handed back untouched, live ones at the finished
    accumulators; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · -- case A
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t)).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t)).2.2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3
  · by_cases h1 : t.val % 8 = 7
    · -- case C
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_2 out0_C_3 sout0_C_0 sout0_C_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk m c 0 t) (iblk m c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · -- case B
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0 sout0_B_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the base invariant back: the accumulators' named contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.KShare.lean ====
/-
  The similarity kernel reads ONE array — the stacked, normalised embeddings — through two windows: its row block and its
  column block. The proof data therefore hold that array in two halves, one per window, and the two output arrays whole.
  Here: the four windows' arrays, the shared one at the two halves of the full share, ARE the three distinct buffers
  behind them, each whole — provided the two windows on the shared array are stated at the same contents.
-/
import proofs.«154950_j89077621719714_1_alg».proof.Proof.Gen.Kernel.Launch
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The distinct buffers behind the four windows: the stacked embeddings (twice) and the two results. -/
theorem arrRefs_eq : Finset.univ.image (Pipeline.arrRef spec0) = {Pipeline.arrRef spec0 0, Pipeline.arrRef spec0 2, Pipeline.arrRef spec0 3} := by decide
/-- The row window and the column window stage the same array. -/
theorem arrRef_shared : Pipeline.arrRef spec0 1 = Pipeline.arrRef spec0 0 := by decide

/-- One window's array as a whole buffer: the window's view of its array is the whole of it. -/
theorem arr_pointsTo (c : Dev nD) (w : Fin cfg0.W) (q : PosShare TreeShare)
    (X : Buf (Elt F) ((cfg0.win w).arr.view.loc (c.tc : Thread nD τ))) :
    ((cfg0.win w).arr.view.loc (c.tc : Thread nD τ) ↦[(cfg0.win w).arr.view.set]{q} X : sProp 𝕄)
      = (((c.tc : Thread nD τ).loc (Pipeline.arrRef spec0 w)) ↦{q} X) := by
  rw [(arr_whole0 w).set_eq_univ]

/-- The windows' arrays at contents `G`, the shared array in halves, are the three buffers whole at `W` when `G` is
    `W` window by window. -/
theorem arrays_iff_bufs (c : Dev nD) (dat : Dat τ (Elt F) Unit ℕ (UR sig nD τ) ℕ cfg0 c)
    (hq0 : dat.q 0 = fullShare.left) (hq1 : dat.q 1 = fullShare.right)
    (G : (w : Fin cfg0.W) → Buf (Elt F) ((cfg0.win w).arr.view.loc (c.tc : Thread nD τ)))
    (W : (b : Ref sig .tc) → Buf (Elt F) ((c.tc : Thread nD τ).loc b))
    (hG : ∀ w, G w = W (Pipeline.arrRef spec0 w)) :
    (dat.arrays G : sProp 𝕄) ⊣⊢ Pipeline.arrBufs spec0 c W := by
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_pos (by decide)]
  have s3 : dat.share 3 = fullShare := by unfold Dat.share; rw [if_pos (by decide)]
  unfold Dat.arrays Pipeline.arrBufs
  rw [bigSep_W0, arrRefs_eq, BI.bigSep_insert (by decide), BI.bigSep_insert (by decide), BI.bigSep_singleton,
    arr_pointsTo, arr_pointsTo, arr_pointsTo, arr_pointsTo, s0, s1, s2, s3, hG 0, hG 1, hG 2, hG 3]
  rw [arrRef_shared]
  show _ ⊣⊢ iprop(_ ∗ _ ∗ _)
  constructor
  · iintro ⟨Hl, Hr, H0, H1⟩
    isplitl [Hl Hr]
    · iapply (pointsTo_share (PosShare.mem_left_op_right fullShare)).2
      isplitl [Hl]; · iexact Hl
      iexact Hr
    isplitl [H0]; · iexact H0
    iexact H1
  · iintro ⟨H, H0, H1⟩
    ihave ⟨Hl, Hr⟩ := (pointsTo_share (PosShare.mem_left_op_right fullShare)).1 $$ H
    isplitl [Hl]; · iexact Hl
    isplitl [Hr]; · iexact Hr
    isplitl [H0]; · iexact H0
    iexact H1

end Cert.Kernel.Hand

end
-- ==== Proof.LibSharedArrayFrame.lean ====
/-
  A pipeline whose windows SHARE an array — one array handed to the kernel through several input windows — run between
  host lines: the frame run with a tracking invariant, for proof data that deal the shared array's full share among the
  windows on it.

  With distinct arrays the region holds each array whole, and the lines after the region find them so. With a shared
  array the proof data hold it in parts (one share per window), so two facts replace the arrays' distinctness:
  * `hsplit`: the buffers behind the arrays, each whole at its region-entry contents, make the proof data's arrays at entry
    (the shared array split among its windows);
  * `hjoin`: the proof data's arrays after the last point ARE those buffers, each whole again, at contents `Vx` — an
    input array at what it held at entry (its parts rejoined: they agree), an output array at what the write-backs left.
  The lines after the region then run holding every unscoped buffer — the buffers behind the arrays at `Vx`, the others
  at their region-entry contents — exactly as the lines before it did, provided they write no array (`hkeep`).
  The conclusion reads every array at the proof data's final contents and every other unscoped buffer at what the lines
  after the region computed from `Vx`.
-/
import Idealize.ShloMosaic.Lib.Pipeline.FrameSuffix

noncomputable section

namespace Cert.SharedArrays

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀
local notation "𝕍" => Variants.lift 𝒱₀

/-- The lines after the region, from the proof data's final arrays and the bypassing buffers at their region-entry
    contents: the arrays rejoin into whole buffers (`hjoin`), the lines run holding every unscoped buffer, and the arrays
    are dealt back as they were (`hkeep`: no line writes one). -/
theorem tail_lines (c : Dev nD) (V₀ Vx : Valuation τ sig Val) (opss : List (List (HloOp τ sig Val)))
    (hunscoped : ∀ w, (arrRef (cfg).spec w).isScoped = false)
    (hsub : ∀ ops ∈ opss, ∀ op ∈ ops, op.bufs ⊆ StableHlo.tcRefs τ sig)
    (hfresh : ∀ ops ∈ opss, ∀ op ∈ ops, op.fresh = ∅)
    (hVx : ∀ b : Ref sig .tc, b ∉ Finset.univ.image (arrRef (cfg).spec) → Vx (Proc.devRef .tc b) = V₀ (Proc.devRef .tc b))
    (hjoin : ((dats p c).arrays ((dats p c).arrAt · (cfg).N) : sProp 𝕄)
      ⊣⊢ arrBufs (cfg).spec c (fun b => Vx (Proc.devRef .tc b)))
    (hkeep : ∀ b : Ref sig .tc, b ∈ Finset.univ.image (arrRef (cfg).spec) →
      StableHlo.after opss.flatten Vx (Proc.devRef .tc b) = Vx (Proc.devRef .tc b))
    (Q' : PUnit → sProp 𝕄) :
    iprop((iprop((dats p c).arrays ((dats p c).arrAt · (cfg).N)
              ∗ unscopedRest (cfg).spec c (fun b => StableHlo.after opss.flatten Vx (Proc.devRef .tc b))) -∗ Q' ⟨⟩)
        ∗ boundary (c.tc : Thread nD τ) ∗ (dats p c).arrays ((dats p c).arrAt · (cfg).N)
        ∗ unscopedRest (cfg).spec c (fun b => V₀ (Proc.devRef .tc b)))
      ⊢ wp frame (wpE 𝔻 𝕍 (c.tc : Thread nD τ) none) Set.univ (chain (opss.map StableHlo.seq)) Q' := by
  classical
  -- off the arrays `Vx` is `V₀`
  have hrest : (unscopedRest (cfg).spec c (fun b => V₀ (Proc.devRef .tc b)) : sProp 𝕄)
      = unscopedRest (cfg).spec c (fun b => Vx (Proc.devRef .tc b)) := by
    unfold unscopedRest
    exact bigSep_congr fun b hb => by dsimp only; rw [hVx b (Finset.mem_sdiff.mp hb).2]
  -- the lines write no array
  have harrs : (arrBufs (cfg).spec c (fun b => StableHlo.after opss.flatten Vx (Proc.devRef .tc b)) : sProp 𝕄)
      = arrBufs (cfg).spec c (fun b => Vx (Proc.devRef .tc b)) := by
    unfold arrBufs
    exact bigSep_congr fun b hb => by dsimp only; rw [hkeep b hb]
  have hW : (StableHlo.held (c.tc : Thread nD τ) (ucRefs τ sig) Vx : sProp 𝕄)
      = iprop(arrBufs (cfg).spec c (fun b => Vx (Proc.devRef .tc b)) ∗ unscopedRest (cfg).spec c (fun b => Vx (Proc.devRef .tc b))) := by
    rw [← unscopedBufs_held (Ix := Unit) (Name := ℕ) (U := UR sig nD τ) (Lvl := ℕ) c Vx]
    exact unscopedBufs_split₀ cfgs p hunscoped c _
  have hW' : (StableHlo.held (c.tc : Thread nD τ) (ucRefs τ sig) (StableHlo.after opss.flatten Vx) : sProp 𝕄)
      = iprop(arrBufs (cfg).spec c (fun b => Vx (Proc.devRef .tc b))
          ∗ unscopedRest (cfg).spec c (fun b => StableHlo.after opss.flatten Vx (Proc.devRef .tc b))) := by
    rw [← unscopedBufs_held (Ix := Unit) (Name := ℕ) (U := UR sig nD τ) (Lvl := ℕ) c (StableHlo.after opss.flatten Vx),
      unscopedBufs_split₀ cfgs p hunscoped c _, harrs]
  rw [← List.append_nil (opss.map StableHlo.seq), hrest]
  iintro ⟨Hk, Hb, HA, HZ⟩
  ihave HA' := hjoin.1 $$ HA
  iapply (wp_seqs_then (fun q => Cfg.toPCfg (Val := Val) (cfgs q)) defs₀ 𝒱₀ c (ucRefs τ sig) [] opss
    (fun ops ho op h => sub_ucRefs op (hsub ops ho op h)) hfresh Vx) $$ [Hb HA' HZ]
  · rw [hW]
    isplitl [Hb]; · iexact Hb
    isplitl [HA']; · iexact HA'
    iexact HZ
  iintro Hb
  rw [chain_nil, wp_pure, hW']
  imodintro
  iapply Hk
  icases Hb with ⟨-, HA, HZ⟩
  isplitl [HA]
  · iapply hjoin.2; iexact HA
  iexact HZ

/-- THE FRAME RUN with a tracking invariant for a pipeline whose windows may share arrays, @main continuing after the
    region with the host lines `opss`: as the library's frame run around a region, with the arrays' distinctness replaced
    by `hsplit` (entry) and `hjoin` (exit). Every array ends at the proof data's final contents, every other unscoped
    buffer at what the lines after the region compute from the exit contents `Vx`. -/
theorem frame_run_around_shared
    (hcell : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Vx : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hVx : ∀ c (b : Ref sig .tc), b ∉ Finset.univ.image (arrRef (cfg).spec) → Vx c (Proc.devRef .tc b) = V₀ c (Proc.devRef .tc b))
    (hsplit : ∀ c, (arrBufs (cfg).spec c (fun b => V₀ c (Proc.devRef .tc b)) : sProp 𝕄) ⊢ (dats p c).arrays ((dats p c).arrAt · 0))
    (hjoin : ∀ c, ((dats p c).arrays ((dats p c).arrAt · (cfg).N) : sProp 𝕄)
      ⊣⊢ arrBufs (cfg).spec c (fun b => Vx c (Proc.devRef .tc b)))
    (hkeep : ∀ c (b : Ref sig .tc), b ∈ Finset.univ.image (arrRef (cfg).spec) →
      StableHlo.after opss.flatten (Vx c) (Proc.devRef .tc b) = Vx c (Proc.devRef .tc b))
    (hin : ∀ c, ΦA (cfg).spec c ⊢ (dats p c).Φ 0) (hout : ∀ c, (dats p c).Φ (Fin.last (cfg).N) ⊢ ΦA (cfg).spec c) :
    θ_run 𝔻 (onTc main) (s₀ m g) (fun r => ∀ c : Dev nD,
      (∀ w, r.2.mem (((cfg).spec w).arr.view.loc (c.tc : Thread nD τ)) = (dats p c).arrAt w (cfg).N)
      ∧ ∀ b ∈ restRefs sig (cfg).spec, r.2.mem ((c.tc : Thread nD τ).loc b) = StableHlo.after opss.flatten (Vx c) (Proc.devRef .tc b)) := by
  classical
  have hcell' : Function.Injective (cellOf (nD := nD) (τ := τ) (pin (fun q => (cfgs q).toPCfg (Val := Val)) (fun q => (cfgs q).toPCfg_adm))) := hcell
  exact θ_run_region_pf_tail (fun q => (cfgs q).toPCfg (Val := Val)) (fun q => (cfgs q).toPCfg_adm) dats () hcell' p hw
    (OwnSemFacts.none (cfg).spec) (PreFacts.none _) emb₁ defs₀ 𝒱₀ m g main
    (fun _ => chain (opss.map StableHlo.seq)) hbody hne harr hstage howed
    (G := fun _ => iprop(emp)) (u₀ := initOf (cells _ hcell') (launchToks _ hcell'))
    (hu₀ := by
      iintro Hu; imodintro
      isplitl [Hu]; · iapply (show (ownU _ : sProp 𝕄) ⊢ BI.own (emb₁ (initOf (cells _ hcell') (launchToks _ hcell'))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c
      (fun b => StableHlo.after opss.flatten (Vx c) (Proc.devRef .tc b)))
    (hX := fun c => by
      rw [unscopedRestP_none]
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => tail_lines cfgs dats p defs₀ 𝒱₀ c (V₀ c) (Vx c) opss hw.arr_unscoped hsub hfresh (hVx c) (hjoin c) (hkeep c) Q')
    (QY := fun c s => ∀ b ∈ restRefs sig (cfg).spec, s.mem ((c.tc : Thread nD τ).loc b) = StableHlo.after opss.flatten (Vx c) (Proc.devRef .tc b))
    (hY := fun c s' => by
      iintro ⟨-, HU, HSI⟩
      unfold unscopedRest
      imodintro
      iapply (pointsTo_read_all (restRefs sig (cfg).spec) (fun b => (c.tc : Thread nD τ).loc b)
        (fun b => StableHlo.after opss.flatten (Vx c) (Proc.devRef .tc b)) s')
      isplitl [HU] <;> iassumption)
    (hQ := fun s h c => ⟨(h c).1, (h c).2.2⟩)

/-- info: 'Cert.SharedArrays.frame_run_around_shared' depends on axioms: [propext, Classical.choice, Quot.sound] -/
#guard_msgs in #print axioms frame_run_around_shared

end Cert.SharedArrays

end
-- ==== Proof.KRun.lean ====
/-
  The similarity kernel's program, run: the host lines that normalise and stack the embeddings, the region over the
  8 × 8 grid of tiles, the host lines that turn the two reduced arrays into the loss.

  The region's two input windows read one array, so the run goes through the frame run for shared arrays: at entry the
  array is dealt to the two windows in halves, at exit the halves rejoin (an input array is never written, so both halves
  still hold the entry contents). `Vexit` names what every buffer holds when the region is left: the two result arrays at
  what the write-backs left in them, everything else as the host lines before the region left it.
-/
import proofs.«154950_j89077621719714_1_alg».proof.Proof.KBody
import proofs.«154950_j89077621719714_1_alg».proof.Proof.KShare
import proofs.«154950_j89077621719714_1_alg».proof.Proof.LibSharedArrayFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines after the region, stretch by stretch. -/
abbrev tailOps : List (List (HloOp τ sig (Elt F))) := [hostOps1, hostOps1_1, hostOps1_2]

/-- What the core's buffers hold when the region is left: the two result arrays at what the write-backs left, every
    other buffer at what the host lines before the region left. -/
def Vexit (c : Dev nD) : Valuation τ sig (Elt F) := by
  classical
  exact Function.update
    (Function.update (V0 m c) (Proc.devRef .tc (Pipeline.arrRef spec0 2)) ((dats m 0 c).arrAt 2 cfg0.N))
    (Proc.devRef .tc (Pipeline.arrRef spec0 3)) ((dats m 0 c).arrAt 3 cfg0.N)

theorem Vexit_out3 (c : Dev nD) : Vexit m c (Proc.devRef .tc (Pipeline.arrRef spec0 3)) = (dats m 0 c).arrAt 3 cfg0.N := by
  unfold Vexit; exact Function.update_self ..

theorem Vexit_out2 (c : Dev nD) : Vexit m c (Proc.devRef .tc (Pipeline.arrRef spec0 2)) = (dats m 0 c).arrAt 2 cfg0.N := by
  unfold Vexit
  rw [Function.update_of_ne (StableHlo.devRef_ne_of_ne (by decide))]
  exact Function.update_self ..

theorem Vexit_of_ne (c : Dev nD) (b : Ref sig .tc) (h2 : b ≠ Pipeline.arrRef spec0 2) (h3 : b ≠ Pipeline.arrRef spec0 3) :
    Vexit m c (Proc.devRef .tc b) = V0 m c (Proc.devRef .tc b) := by
  unfold Vexit
  rw [Function.update_of_ne (StableHlo.devRef_ne_of_ne h3), Function.update_of_ne (StableHlo.devRef_ne_of_ne h2)]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem tail_sub : ∀ ops ∈ (tailOps : List (List (HloOp τ sig (Elt F)))), ∀ op ∈ ops, op.bufs ⊆ StableHlo.tcRefs τ sig := by
  intro ops hops op hop
  simp only [List.mem_cons, List.mem_nil_iff, or_false] at hops
  rcases hops with rfl | rfl | rfl
  · exact (List.forall_iff_forall_mem.mp hostOps1_sub) op hop
  · exact (List.forall_iff_forall_mem.mp hostOps1_1_sub) op hop
  · exact (List.forall_iff_forall_mem.mp hostOps1_2_sub) op hop

theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Off the arrays the exit contents are the entry contents. -/
theorem Vexit_rest (c : Dev nD) (b : Ref sig .tc) (hb : b ∉ Finset.univ.image (Pipeline.arrRef spec0)) :
    Vexit m c (Proc.devRef .tc b) = V0 m c (Proc.devRef .tc b) :=
  Vexit_of_ne m c b (fun e => hb (e ▸ Finset.mem_image_of_mem _ (Finset.mem_univ _)))
    (fun e => hb (e ▸ Finset.mem_image_of_mem _ (Finset.mem_univ _)))

/-- At entry the buffers behind the arrays are dealt to the windows: the shared array in halves. -/
theorem arrays_entry (c : Dev nD) :
    (Pipeline.arrBufs spec0 c (fun b => V0 m c (Proc.devRef .tc b)) : sProp 𝕄) ⊢ (dats m 0 c).arrays ((dats m 0 c).arrAt · 0) :=
  (arrays_iff_bufs c (dats m 0 c) rfl rfl ((dats m 0 c).arrAt · 0) (fun b => V0 m c (Proc.devRef .tc b)) (fun w => A_eq m c w)).2

/-- At exit the halves rejoin: an input array still holds its entry contents, an output array what the write-backs left. -/
theorem arrays_exit (c : Dev nD) :
    ((dats m 0 c).arrays ((dats m 0 c).arrAt · cfg0.N) : sProp 𝕄) ⊣⊢ Pipeline.arrBufs spec0 c (fun b => Vexit m c (Proc.devRef .tc b)) :=
  arrays_iff_bufs c (dats m 0 c) rfl rfl ((dats m 0 c).arrAt · cfg0.N) (fun b => Vexit m c (Proc.devRef .tc b)) (fun w => by
    fin_cases w
    · exact ((dats m 0 c).arrAt_in 0 rfl _).trans ((A_eq m c 0).trans (Vexit_of_ne m c _ (by decide) (by decide)).symm)
    · exact ((dats m 0 c).arrAt_in 1 rfl _).trans ((A_eq m c 1).trans (Vexit_of_ne m c _ (by decide) (by decide)).symm)
    · exact (Vexit_out2 m c).symm
    · exact (Vexit_out3 m c).symm)

/-- The buffers behind the four windows, by name: the stacked embeddings and the two results. -/
theorem arrRefs_lit : Finset.univ.image (Pipeline.arrRef spec0) = {main_v11, main_v15_0, main_v15_1} := by decide

/-- No host line after the region writes an array of the region. -/
theorem tail_keeps (c : Dev nD) (b : Ref sig .tc) (hb : b ∈ Finset.univ.image (Pipeline.arrRef spec0)) :
    StableHlo.after (tailOps (F := F)).flatten (Vexit m c) (Proc.devRef .tc b) = Vexit m c (Proc.devRef .tc b) := by
  rw [arrRefs_lit] at hb
  simp only [Finset.mem_insert, Finset.mem_singleton] at hb
  generalize Vexit m c = W
  rcases hb with rfl | rfl | rfl <;>
  · simp only [tailOps, hostOps1, hostOps1_1, hostOps1_2, List.flatten_cons, List.flatten_nil, List.append_nil, List.cons_append, List.nil_append]
    after_results_simp

-- the frame run's implicit arguments are found by unifying its conclusion with this one, which takes unfolding plain
-- definitions in a metavariable's type
set_option backward.isDefEq.respectTransparency.types false in
/-- THE RUN: every weakly fair execution of @main terminates; every array of the region ends at the proof data's final
    contents and every other unscoped buffer at what the host lines after the region compute from the exit contents. -/
theorem run_main : θ_run defs (onTc (τ := τ) (main (F := F))) ⟨m, fun _ => 0, ρ⟩ (fun r => ∀ c : Dev nD,
      (∀ w, r.2.mem (((cfg0).spec w).arr.view.loc (c.tc : Thread nD τ)) = (dats m 0 c).arrAt w cfg0.N)
      ∧ ∀ b ∈ Pipeline.restRefs sig (cfg0).spec, r.2.mem ((c.tc : Thread nD τ).loc b)
          = StableHlo.after (tailOps (F := F)).flatten (Vexit m c) (Proc.devRef .tc b)) :=
  Cert.SharedArrays.frame_run_around_shared cfgs (dats m) (0 : Fin 1) defs₀ Variants.none
    cellOf_inj winFacts₀0 block_pos0 arr_whole0 stage_whole0 m ρ main
    (fun c => (body_obligation m c).loose) (fun _ _ => rfl) (V0 m) (Vexit m) tailOps tail_sub tail_fresh
    (hmain m Variants.none) (Vexit_rest m) (arrays_entry m) (arrays_exit m) (tail_keeps m) (hin m) (hout m)

/-- info: 'Cert.Kernel.Hand.run_main' depends on axioms: [propext, Classical.choice, Quot.sound] -/
#guard_msgs in #print axioms run_main

/-- The two argument arrays are no array of the region and no host line writes them: they end as they began. -/
theorem arg_kept (c : Dev nD) (b : Ref sig .tc) (hb : b = main_arg0 ∨ b = main_arg1) :
    StableHlo.after (tailOps (F := F)).flatten (Vexit m c) (Proc.devRef .tc b) = m ((c.tc : Thread nD τ).loc b) := by
  have h1 : StableHlo.after (tailOps (F := F)).flatten (Vexit m c) (Proc.devRef .tc b) = Vexit m c (Proc.devRef .tc b) := by
    generalize Vexit m c = W
    rcases hb with rfl | rfl <;>
    · simp only [tailOps, hostOps1, hostOps1_1, hostOps1_2, List.flatten_cons, List.flatten_nil, List.append_nil, List.cons_append, List.nil_append]
      after_results_simp
  have h2 : Vexit m c (Proc.devRef .tc b) = V0 m c (Proc.devRef .tc b) := by
    rcases hb with rfl | rfl
    · exact Vexit_of_ne m c _ (by decide) (by decide)
    · exact Vexit_of_ne m c _ (by decide) (by decide)
  have h3 : V0 m c (Proc.devRef .tc b) = m ((c.tc : Thread nD τ).loc b) := by
    rcases hb with rfl | rfl <;>
    · dsimp only [V0]
      simp only [hostOps0, hostOps0_1, hostOps0_2, hostOps0_3, List.flatten_cons, List.flatten_nil, List.append_nil, List.cons_append, List.nil_append]
      after_results_simp
  exact h1.trans (h2.trans h3)

theorem mem_rest_arg0 : main_arg0 ∈ Pipeline.restRefs sig (cfg0).spec := Pipeline.mem_restRefs_of main_arg0 rfl (by decide)
theorem mem_rest_arg1 : main_arg1 ∈ Pipeline.restRefs sig (cfg0).spec := Pipeline.mem_restRefs_of main_arg1 rfl (by decide)
theorem mem_rest_result : main_v34 ∈ Pipeline.restRefs sig (cfg0).spec := Pipeline.mem_restRefs_of main_v34 rfl (by decide)

/-- THE FRAME: the program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 mem_rest_arg0).trans (arg_kept m c main_arg0 (Or.inl rfl)),
     ((h c).2 main_arg1 mem_rest_arg1).trans (arg_kept m c main_arg1 (Or.inr rfl))⟩) (run_main m ρ)

/-- The run with the result named: the loss buffer ends at what the host lines after the region compute from the exit
    contents, the arguments unchanged. -/
theorem run_result : θ_run defs (onTc (τ := τ) (main (F := F))) ⟨m, fun _ => 0, ρ⟩ (fun r => ∀ c : Dev nD,
      r.2.mem ((c.tc : Thread nD τ).loc main_v34) = StableHlo.after (tailOps (F := F)).flatten (Vexit m c) (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v34 mem_rest_result,
     ((h c).2 main_arg0 mem_rest_arg0).trans (arg_kept m c main_arg0 (Or.inl rfl)),
     ((h c).2 main_arg1 mem_rest_arg1).trans (arg_kept m c main_arg1 (Or.inr rfl))⟩) (run_main m ρ)

end Cert.Kernel.Hand

end
-- ==== Proof.KISetup.lean ====
/-
  Where the kernel region starts, and the bookkeeping of its grid. The host lines before the region leave every buffer
  at a fixed function `V` of the launch memory (the program is those lines, the region, and the lines after it, so its
  run reduces to the region's run from `V`), and a window's block at a grid point is read off its array there. Grid
  point t = 8·i + j has row tile i and column tile j; the body initialises its two accumulators where j = 0 and writes
  them out where j = 7, which splits the 64 points into three cases. The two input windows are never idle, the two
  outputs are idle except where j = 7, and the row window, fetched only where j = 0, still holds the row block at every
  point of its row tile.
-/
import proofs.«154950_j89077621719714_1_alg».proof.Proof.Gen.KernelIdeal.Launch
import proofs.«154950_j89077621719714_1_alg».proof.Proof.Gen.KernelIdeal.Skeleton
import proofs.«154950_j89077621719714_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the kernel region -/

/-- What each TensorCore buffer of core `c` holds when the kernel region is entered: the memory `m` after the
    host operations that precede the region (the two row normalisations, the stacking and the conversion). -/
abbrev V0 (c : Dev nD) : Valuation τ sig (Elt F) :=
  StableHlo.after (List.flatten [hostOps0, hostOps0_1, hostOps0_2, hostOps0_3]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- The host program is: the operations before the region, the region, the operations after it; so running it
    reduces to running the region from `V`, continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2, hostOps0_3] [hostOps1, hostOps1_1, hostOps1_2]
    ⟨hostOps0_sub, hostOps0_1_sub, hostOps0_2_sub, hostOps0_3_sub⟩
    ⟨hostOps0_fresh, hostOps0_1_fresh, hostOps0_2_fresh, hostOps0_3_fresh⟩ main_chain

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row window (window 0) is fetched only when the column coordinate is 0, yet its staging buffer holds the
    row block at every point: between fetches the block index does not move and the body leaves the buffer as it
    found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column window (window 1) is fetched at every point: its staging buffer holds the column block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first conditional of the body (initialise the accumulators): the column coordinate is 0. -/
abbrev cond0_0 (i : grid0.Coords) : Prop := (Scalar.cmpi .ne (Scalar.extui (Scalar.cmpi .eq (BitVec.ofNat 32 (i 1).val) 0#32)) 0#32) = 1#1
/-- With point `t = 8·i + j` it holds exactly when `t % 8 = 0`. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional of the body (write the accumulators out): the column coordinate is 7. -/
abbrev cond0_1 (i : grid0.Coords) : Prop := k0_cond2 i = 1#1
/-- It holds exactly when `t % 8 = 7`. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Case A (column coordinate 0): both outputs are idle and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- Case B (column coordinate 1…6): both outputs are idle and not written back. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- Case C (column coordinate 7): both outputs are live (the body stores into them). -/
theorem liveAt0_2_C : ∀ t : Fin cfg0.N, ¬cond0_0 (grid0.coords t) → cond0_1 (grid0.coords t) → cfg0.idle 2 (grid0.coords t) = false := by decide +kernel
theorem liveAt0_3_C : ∀ t : Fin cfg0.N, ¬cond0_0 (grid0.coords t) → cond0_1 (grid0.coords t) → cfg0.idle 3 (grid0.coords t) = false := by decide +kernel

/-! ## The memrefs the body is called with -/

/-- One staging buffer of each output window, through which its contents are stated (any would do). -/
abbrev VO0_2 : View sig .tc .vmem S1024x1 .f32 := (Memref.whole cc0_stg2_0 : Memref sig .tc .vmem S1024x1 .f32).view
abbrev VO0_3 : View sig .tc .vmem S1x1x1 .f32 := (Memref.whole cc0_stg3_0 : Memref sig .tc .vmem S1x1x1 .f32).view
/-- Each window's current staging memref at point `t`, and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)
/-- The two scratch operands: the running row maximum and the running sum. -/
abbrev scM0_0 : Memref sig .tc .vmem S1024x1 .f32 := Memref.whole cc0_scratch0
abbrev scM0_1 : Memref sig .tc .vmem S1x1 .f32 := Memref.whole cc0_scratch1
/-- The same as views: what they hold is stated through them. -/
abbrev VS0_0 : View sig .tc .vmem S1024x1 .f32 := scM0_0.view
abbrev VS0_1 : View sig .tc .vmem S1x1 .f32 := scM0_1.view

/-- The region's base invariant, spelled out: both scratch buffers owned at some contents, and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KIRunA.lean ====
/-
  The body at a grid point whose column coordinate is 0, the first column tile of a row tile: it resets the two
  accumulators and folds the tile into them, and touches neither output. The run is stated as the lists of pieces it
  writes into the accumulators, over the values the body computes from the two input blocks.
-/
import proofs.«154950_j89077621719714_1_alg».proof.Proof.KISetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point whose column coordinate is 0 (first conditional taken, second not). On whole memrefs — the
    two inputs at contents `x0`, `x1`; the two outputs at contents `xi2`, `xi3`, which it does not touch; the two
    accumulators at anything — it runs to a continuation that is handed the inputs and outputs as they were and each
    accumulator with the pieces `LS0`, `LS1` written: the initial value first, then the fold of this tile. The
    piece lists are the witness. -/
noncomputable def kernelRun0_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : cond0_0 i) (hc1 : ¬cond0_1 i)
    (x0 : Vec F S1024x512 .bf16) (x1 : Vec F S1024x512 .bf16) :
    Σ' (L2 : List (View.Piece (Elt F) S1024x1 .f32)) (L3 : List (View.Piece (Elt F) S1x1x1 .f32)) (LS0 : List (View.Piece (Elt F) S1024x1 .f32)), { LS1 : List (View.Piece (Elt F) S1x1 .f32) //
      ∀ (xi2 : Vec F S1024x1 .f32) (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__ntxent_kernel i arg2 harg2 arg3 harg3 arg4 harg4 arg5 harg5 arg6 harg6 arg7 harg7) K } := by
  refine ⟨[], [], ?_, ?_, fun xi2 xi3 E K => ?run⟩
  case run =>
    simp only [cc0__ntxent_kernel_eq_skeleton]; unfold cc0__ntxent_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KIRunB.lean ====
/-
  The body at a grid point whose column coordinate is 1 … 6: it folds the tile into what the point before left in the
  two accumulators, and touches neither output. The run is stated as the lists of pieces it writes into the
  accumulators, over the values the body computes from the two input blocks and from the accumulators' contents.
-/
import proofs.«154950_j89077621719714_1_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point whose column coordinate is 1…6 (neither conditional taken). On whole memrefs — the inputs at
    `x0`, `x1`; the outputs at `xi2`, `xi3`, untouched; the accumulators at what the point before left, `xs0`,
    `xs1` — it runs to a continuation handed the inputs and outputs as they were and each accumulator with the
    pieces `LS0`, `LS1` written: the fold of this tile into `xs0`, `xs1`. -/
noncomputable def kernelRun0_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : ¬cond0_1 i)
    (x0 : Vec F S1024x512 .bf16) (x1 : Vec F S1024x512 .bf16) (xs0 : Vec F S1024x1 .f32) (xs1 : Vec F S1x1 .f32) :
    Σ' (L2 : List (View.Piece (Elt F) S1024x1 .f32)) (L3 : List (View.Piece (Elt F) S1x1x1 .f32)) (LS0 : List (View.Piece (Elt F) S1024x1 .f32)), { LS1 : List (View.Piece (Elt F) S1x1 .f32) //
      ∀ (xi2 : Vec F S1024x1 .f32) (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__ntxent_kernel i arg2 harg2 arg3 harg3 arg4 harg4 arg5 harg5 arg6 harg6 arg7 harg7) K } := by
  refine ⟨[], [], ?_, ?_, fun xi2 xi3 E K => ?run⟩
  case run =>
    simp only [cc0__ntxent_kernel_eq_skeleton]; unfold cc0__ntxent_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KIRunC.lean ====
/-
  The body at a grid point whose column coordinate is 7, the last column tile of a row tile: it folds the tile into the
  two accumulators and then copies the finished accumulators into the two outputs. The run is stated as the lists of
  pieces it writes into the accumulators and into the outputs.
-/
import proofs.«154950_j89077621719714_1_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point whose column coordinate is 7 (first conditional not taken, second taken). On whole memrefs —
    the inputs at `x0`, `x1`; the outputs at anything; the accumulators at what the point before left, `xs0`,
    `xs1` — it runs to a continuation handed the inputs as they were, each accumulator with the pieces `LS0`,
    `LS1` written (the fold of this tile) and each output with the pieces `L2`, `L3` written: the finished
    accumulators. -/
noncomputable def kernelRun0_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) :
    Σ' (L2 : List (View.Piece (Elt F) S1024x1 .f32)) (L3 : List (View.Piece (Elt F) S1x1x1 .f32)) (LS0 : List (View.Piece (Elt F) S1024x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__ntxent_kernel i arg2 harg2 arg3 harg3 arg4 harg4 arg5 harg5 arg6 harg6 arg7 harg7) K } := by
  refine ⟨?_, ?_, ?_, ?_, fun E K => ?run⟩
  case run =>
    simp only [cc0__ntxent_kernel_eq_skeleton]; unfold cc0__ntxent_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Hand

end
-- ==== Proof.KIBody.lean ====
/-
  What every grid point leaves behind, and the body obligation. From the three cases' runs: what the outputs' buffers
  and the two accumulators hold after each point (the accumulators carried from point to point and reset at the first
  column tile of each row tile); the invariant that hands the accumulators from one point to the next; the pipeline's
  proof data, in which both input windows read ONE array, each holding half of it; and the obligation itself: run at
  any point from the invariant, the body re-establishes it and hands every window's buffer back as the data say.
-/
import proofs.«154950_j89077621719714_1_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the outputs and in the accumulators -/

/-- Case A (the column coordinate is 0) stores nothing into output 2: a placeholder nothing consults (the window is idle there:
    neither written back nor read at the next point). -/
def out0_A_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : cond0_0 i) (hc1 : ¬cond0_1 i)
    (x0 : Vec F S1024x512 .bf16) (x1 : Vec F S1024x512 .bf16) : Vec F S1024x1 .f32 :=
  VO0_2.read (Elt F) (VO0_2.writes (Elt F) VO0_2.junk (kernelRun0_A c i arg2 harg2 arg3 harg3 arg4 harg4 arg5 harg5 arg6 harg6 arg7 harg7 hc0 hc1 x0 x1).1)

/-- Case A (the column coordinate is 0) stores nothing into output 3: a placeholder nothing consults (the window is idle there:
    neither written back nor read at the next point). -/
def out0_A_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : cond0_0 i) (hc1 : ¬cond0_1 i)
    (x0 : Vec F S1024x512 .bf16) (x1 : Vec F S1024x512 .bf16) : Vec F S1x1x1 .f32 :=
  VO0_3.read (Elt F) (VO0_3.writes (Elt F) VO0_3.junk (kernelRun0_A c i arg2 harg2 arg3 harg3 arg4 harg4 arg5 harg5 arg6 harg6 arg7 harg7 hc0 hc1 x0 x1).2.1)

/-- In case A the stores into accumulator 0 cover it. -/
theorem scover0_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : cond0_0 i) (hc1 : ¬cond0_1 i)
    (x0 : Vec F S1024x512 .bf16) (x1 : Vec F S1024x512 .bf16) (y : S1024x1.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S1024x1.size (by sl_kernel_rfl) y

/-- What case A leaves in accumulator 0: the stored pieces read back. -/
def sout0_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : cond0_0 i) (hc1 : ¬cond0_1 i)
    (x0 : Vec F S1024x512 .bf16) (x1 : Vec F S1024x512 .bf16) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1).2.2.1)

/-- In case A the stores into accumulator 1 cover it. -/
theorem scover0_A_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : cond0_0 i) (hc1 : ¬cond0_1 i)
    (x0 : Vec F S1024x512 .bf16) (x1 : Vec F S1024x512 .bf16) (y : S1x1.Idx) :
    ∃ pc ∈ (kernelRun0_A c i arg2 harg2 arg3 harg3 arg4 harg4 arg5 harg5 arg6 harg6 arg7 harg7 hc0 hc1 x0 x1).2.2.2.1, y ∈ pc.1.set :=
  View.cover_of_tiledL (kernelRun0_A c i arg2 harg2 arg3 harg3 arg4 harg4 arg5 harg5 arg6 harg6 arg7 harg7 hc0 hc1 x0 x1).2.2.2.1 S1x1.size (by sl_kernel_rfl) y

/-- What case A leaves in accumulator 1: the stored pieces read back. -/
def sout0_A_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : cond0_0 i) (hc1 : ¬cond0_1 i)
    (x0 : Vec F S1024x512 .bf16) (x1 : Vec F S1024x512 .bf16) : Vec F S1x1 .f32 :=
  VS0_1.read (Elt F) (VS0_1.writes (Elt F) VS0_1.junk (kernelRun0_A c i arg2 harg2 arg3 harg3 arg4 harg4 arg5 harg5 arg6 harg6 arg7 harg7 hc0 hc1 x0 x1).2.2.2.1)

/-- Case B (the column coordinate is 1…6) stores nothing into output 2: a placeholder nothing consults (the window is idle there:
    neither written back nor read at the next point). -/
def out0_B_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : ¬cond0_1 i)
    (x0 : Vec F S1024x512 .bf16) (x1 : Vec F S1024x512 .bf16) (xs0 : Vec F S1024x1 .f32) (xs1 : Vec F S1x1 .f32) : Vec F S1024x1 .f32 :=
  VO0_2.read (Elt F) (VO0_2.writes (Elt F) VO0_2.junk (kernelRun0_B c i arg2 harg2 arg3 harg3 arg4 harg4 arg5 harg5 arg6 harg6 arg7 harg7 hc0 hc1 x0 x1 xs0 xs1).1)

/-- Case B (the column coordinate is 1…6) stores nothing into output 3: a placeholder nothing consults (the window is idle there:
    neither written back nor read at the next point). -/
def out0_B_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : ¬cond0_1 i)
    (x0 : Vec F S1024x512 .bf16) (x1 : Vec F S1024x512 .bf16) (xs0 : Vec F S1024x1 .f32) (xs1 : Vec F S1x1 .f32) : Vec F S1x1x1 .f32 :=
  VO0_3.read (Elt F) (VO0_3.writes (Elt F) VO0_3.junk (kernelRun0_B c i arg2 harg2 arg3 harg3 arg4 harg4 arg5 harg5 arg6 harg6 arg7 harg7 hc0 hc1 x0 x1 xs0 xs1).2.1)

/-- In case B the stores into accumulator 0 cover it. -/
theorem scover0_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : ¬cond0_1 i)
    (x0 : Vec F S1024x512 .bf16) (x1 : Vec F S1024x512 .bf16) (xs0 : Vec F S1024x1 .f32) (xs1 : Vec F S1x1 .f32) (y : S1024x1.Idx) :
    ∃ pc ∈ (kernelRun0_B c i arg2 harg2 arg3 harg3 arg4 harg4 arg5 harg5 arg6 harg6 arg7 harg7 hc0 hc1 x0 x1 xs0 xs1).2.2.1, y ∈ pc.1.set :=
  View.cover_of_tiledL (kernelRun0_B c i arg2 harg2 arg3 harg3 arg4 harg4 arg5 harg5 arg6 harg6 arg7 harg7 hc0 hc1 x0 x1 xs0 xs1).2.2.1 S1024x1.size (by sl_kernel_rfl) y

/-- What case B leaves in accumulator 0: the stored pieces read back. -/
def sout0_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : ¬cond0_1 i)
    (x0 : Vec F S1024x512 .bf16) (x1 : Vec F S1024x512 .bf16) (xs0 : Vec F S1024x1 .f32) (xs1 : Vec F S1x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).2.2.1)

/-- In case B the stores into accumulator 1 cover it. -/
theorem scover0_B_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : ¬cond0_1 i)
    (x0 : Vec F S1024x512 .bf16) (x1 : Vec F S1024x512 .bf16) (xs0 : Vec F S1024x1 .f32) (xs1 : Vec F S1x1 .f32) (y : S1x1.Idx) :
    ∃ pc ∈ (kernelRun0_B c i arg2 harg2 arg3 harg3 arg4 harg4 arg5 harg5 arg6 harg6 arg7 harg7 hc0 hc1 x0 x1 xs0 xs1).2.2.2.1, y ∈ pc.1.set :=
  View.cover_of_tiledL (kernelRun0_B c i arg2 harg2 arg3 harg3 arg4 harg4 arg5 harg5 arg6 harg6 arg7 harg7 hc0 hc1 x0 x1 xs0 xs1).2.2.2.1 S1x1.size (by sl_kernel_rfl) y

/-- What case B leaves in accumulator 1: the stored pieces read back. -/
def sout0_B_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : ¬cond0_1 i)
    (x0 : Vec F S1024x512 .bf16) (x1 : Vec F S1024x512 .bf16) (xs0 : Vec F S1024x1 .f32) (xs1 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.2.2.1)

/-- In case C (the column coordinate is 7) the store into output 2 covers its block. -/
theorem cover0_C_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) (y : S1024x1.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1024x1.size (by sl_kernel_rfl) y

/-- What case C leaves in output 2's staging buffer: the stored pieces read back. -/
def out0_C_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) : Vec F S1024x1 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)

/-- In case C (the column coordinate is 7) the store into output 3 covers its block. -/
theorem cover0_C_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) (y : S1x1x1.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1x1x1.size (by sl_kernel_rfl) y

/-- What case C leaves in output 3's staging buffer: the stored pieces read back. -/
def out0_C_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) : Vec F S1x1x1 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)

/-- In case C the stores into accumulator 0 cover it. -/
theorem scover0_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) (y : S1024x1.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S1024x1.size (by sl_kernel_rfl) y

/-- What case C leaves in accumulator 0: the stored pieces read back. -/
def sout0_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)

/-- In case C the stores into accumulator 1 cover it. -/
theorem scover0_C_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) (y : S1x1.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S1x1.size (by sl_kernel_rfl) y

/-- What case C leaves in accumulator 1: the stored pieces read back. -/
def sout0_C_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S1024x512 .bf16) (xs0 : Vec F S1024x1 .f32) (xs1 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-! ## What the outputs and the accumulators hold after each point -/

/-- After the body at position `n`: output 2's and output 3's staging buffers, then the two accumulators. The
    point's case is selected by `n % 8` (the column coordinate); cases B and C fold this tile into what the point
    before left in the accumulators, case A starts from the initial values. -/
def outsAt0 (c : Dev nD) : (n : ℕ) → n < cfg0.N → Vec F S1024x1 .f32 × Vec F S1x1x1 .f32 × Vec F S1024x1 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
         out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
         sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
         sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
         out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
         sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.1 (outsAt0 c n (Nat.lt_of_succ_lt hn)).2.2.2,
         out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.1 (outsAt0 c n (Nat.lt_of_succ_lt hn)).2.2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.1 (outsAt0 c n (Nat.lt_of_succ_lt hn)).2.2.2,
         sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.1 (outsAt0 c n (Nat.lt_of_succ_lt hn)).2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2,
         out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2,
         sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.1 (outsAt0 c n (Nat.lt_of_succ_lt hn)).2.2.2)

/-- `outsAt0` at a point of case A. -/
theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t),
         out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t),
         sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t),
         sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- `outsAt0` at a point of case B: over what the point before left. -/
theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
         out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
         sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
         sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: over what the point before left. -/
theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
         out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
         sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
         sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the very first point the region's base invariant (both accumulators at anything);
    afterwards both accumulators at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`. The arrays are as the region finds them (`V`); after the body
    each input's buffer still holds its block and the outputs' hold `outsAt0`'s components; the invariant is
    `PhiS`; nothing is owed. Windows 0 and 1 read the SAME array (the stacked rows), so each holds one half of it;
    the outputs' arrays are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; `t % 8` says which case the point is in; the
    invariant hands the body the accumulators (at anything at the first point, else at what the point before left)
    and takes them back at this point's contents; idle outputs are handed back untouched, live ones at the finished
    accumulators; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · -- case A
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t)).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t)).2.2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3
  · by_cases h1 : t.val % 8 = 7
    · -- case C
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_2 out0_C_3 sout0_C_0 sout0_C_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk m c 0 t) (iblk m c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · -- case B
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0 sout0_B_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _)
        iexact Hg
      isplitl [Ho]; · iexact Ho
      isplitl [H0]; · iexact H0
      isplitl [H1]; · iexact H1
      isplitl [H2]; · iexists _; iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the base invariant back: the accumulators' named contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.KIShare.lean ====
/-
  The similarity kernel reads ONE array — the stacked, normalised embeddings — through two windows: its row block and its
  column block. The proof data therefore hold that array in two halves, one per window, and the two output arrays whole.
  Here: the four windows' arrays, the shared one at the two halves of the full share, ARE the three distinct buffers
  behind them, each whole — provided the two windows on the shared array are stated at the same contents.
-/
import proofs.«154950_j89077621719714_1_alg».proof.Proof.Gen.KernelIdeal.Launch
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The distinct buffers behind the four windows: the stacked embeddings (twice) and the two results. -/
theorem arrRefs_eq : Finset.univ.image (Pipeline.arrRef spec0) = {Pipeline.arrRef spec0 0, Pipeline.arrRef spec0 2, Pipeline.arrRef spec0 3} := by decide
/-- The row window and the column window stage the same array. -/
theorem arrRef_shared : Pipeline.arrRef spec0 1 = Pipeline.arrRef spec0 0 := by decide

/-- One window's array as a whole buffer: the window's view of its array is the whole of it. -/
theorem arr_pointsTo (c : Dev nD) (w : Fin cfg0.W) (q : PosShare TreeShare)
    (X : Buf (Elt F) ((cfg0.win w).arr.view.loc (c.tc : Thread nD τ))) :
    ((cfg0.win w).arr.view.loc (c.tc : Thread nD τ) ↦[(cfg0.win w).arr.view.set]{q} X : sProp 𝕄)
      = (((c.tc : Thread nD τ).loc (Pipeline.arrRef spec0 w)) ↦{q} X) := by
  rw [(arr_whole0 w).set_eq_univ]

/-- The windows' arrays at contents `G`, the shared array in halves, are the three buffers whole at `W` when `G` is
    `W` window by window. -/
theorem arrays_iff_bufs (c : Dev nD) (dat : Dat τ (Elt F) Unit ℕ (UR sig nD τ) ℕ cfg0 c)
    (hq0 : dat.q 0 = fullShare.left) (hq1 : dat.q 1 = fullShare.right)
    (G : (w : Fin cfg0.W) → Buf (Elt F) ((cfg0.win w).arr.view.loc (c.tc : Thread nD τ)))
    (W : (b : Ref sig .tc) → Buf (Elt F) ((c.tc : Thread nD τ).loc b))
    (hG : ∀ w, G w = W (Pipeline.arrRef spec0 w)) :
    (dat.arrays G : sProp 𝕄) ⊣⊢ Pipeline.arrBufs spec0 c W := by
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_pos (by decide)]
  have s3 : dat.share 3 = fullShare := by unfold Dat.share; rw [if_pos (by decide)]
  unfold Dat.arrays Pipeline.arrBufs
  rw [bigSep_W0, arrRefs_eq, BI.bigSep_insert (by decide), BI.bigSep_insert (by decide), BI.bigSep_singleton,
    arr_pointsTo, arr_pointsTo, arr_pointsTo, arr_pointsTo, s0, s1, s2, s3, hG 0, hG 1, hG 2, hG 3]
  rw [arrRef_shared]
  show _ ⊣⊢ iprop(_ ∗ _ ∗ _)
  constructor
  · iintro ⟨Hl, Hr, H0, H1⟩
    isplitl [Hl Hr]
    · iapply (pointsTo_share (PosShare.mem_left_op_right fullShare)).2
      isplitl [Hl]; · iexact Hl
      iexact Hr
    isplitl [H0]; · iexact H0
    iexact H1
  · iintro ⟨H, H0, H1⟩
    ihave ⟨Hl, Hr⟩ := (pointsTo_share (PosShare.mem_left_op_right fullShare)).1 $$ H
    isplitl [Hl]; · iexact Hl
    isplitl [Hr]; · iexact Hr
    isplitl [H0]; · iexact H0
    iexact H1

end Cert.KernelIdeal.Hand

end
-- ==== Proof.KIRun.lean ====
/-
  The similarity kernel's program, run: the host lines that normalise and stack the embeddings, the region over the
  8 × 8 grid of tiles, the host lines that turn the two reduced arrays into the loss.

  The region's two input windows read one array, so the run goes through the frame run for shared arrays: at entry the
  array is dealt to the two windows in halves, at exit the halves rejoin (an input array is never written, so both halves
  still hold the entry contents). `Vexit` names what every buffer holds when the region is left: the two result arrays at
  what the write-backs left in them, everything else as the host lines before the region left it.
-/
import proofs.«154950_j89077621719714_1_alg».proof.Proof.KIBody
import proofs.«154950_j89077621719714_1_alg».proof.Proof.KIShare
import proofs.«154950_j89077621719714_1_alg».proof.Proof.LibSharedArrayFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines after the region, stretch by stretch. -/
abbrev tailOps : List (List (HloOp τ sig (Elt F))) := [hostOps1, hostOps1_1, hostOps1_2]

/-- What the core's buffers hold when the region is left: the two result arrays at what the write-backs left, every
    other buffer at what the host lines before the region left. -/
def Vexit (c : Dev nD) : Valuation τ sig (Elt F) := by
  classical
  exact Function.update
    (Function.update (V0 m c) (Proc.devRef .tc (Pipeline.arrRef spec0 2)) ((dats m 0 c).arrAt 2 cfg0.N))
    (Proc.devRef .tc (Pipeline.arrRef spec0 3)) ((dats m 0 c).arrAt 3 cfg0.N)

theorem Vexit_out3 (c : Dev nD) : Vexit m c (Proc.devRef .tc (Pipeline.arrRef spec0 3)) = (dats m 0 c).arrAt 3 cfg0.N := by
  unfold Vexit; exact Function.update_self ..

theorem Vexit_out2 (c : Dev nD) : Vexit m c (Proc.devRef .tc (Pipeline.arrRef spec0 2)) = (dats m 0 c).arrAt 2 cfg0.N := by
  unfold Vexit
  rw [Function.update_of_ne (StableHlo.devRef_ne_of_ne (by decide))]
  exact Function.update_self ..

theorem Vexit_of_ne (c : Dev nD) (b : Ref sig .tc) (h2 : b ≠ Pipeline.arrRef spec0 2) (h3 : b ≠ Pipeline.arrRef spec0 3) :
    Vexit m c (Proc.devRef .tc b) = V0 m c (Proc.devRef .tc b) := by
  unfold Vexit
  rw [Function.update_of_ne (StableHlo.devRef_ne_of_ne h3), Function.update_of_ne (StableHlo.devRef_ne_of_ne h2)]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

theorem tail_sub : ∀ ops ∈ (tailOps : List (List (HloOp τ sig (Elt F)))), ∀ op ∈ ops, op.bufs ⊆ StableHlo.tcRefs τ sig := by
  intro ops hops op hop
  simp only [List.mem_cons, List.mem_nil_iff, or_false] at hops
  rcases hops with rfl | rfl | rfl
  · exact (List.forall_iff_forall_mem.mp hostOps1_sub) op hop
  · exact (List.forall_iff_forall_mem.mp hostOps1_1_sub) op hop
  · exact (List.forall_iff_forall_mem.mp hostOps1_2_sub) op hop

theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Off the arrays the exit contents are the entry contents. -/
theorem Vexit_rest (c : Dev nD) (b : Ref sig .tc) (hb : b ∉ Finset.univ.image (Pipeline.arrRef spec0)) :
    Vexit m c (Proc.devRef .tc b) = V0 m c (Proc.devRef .tc b) :=
  Vexit_of_ne m c b (fun e => hb (e ▸ Finset.mem_image_of_mem _ (Finset.mem_univ _)))
    (fun e => hb (e ▸ Finset.mem_image_of_mem _ (Finset.mem_univ _)))

/-- At entry the buffers behind the arrays are dealt to the windows: the shared array in halves. -/
theorem arrays_entry (c : Dev nD) :
    (Pipeline.arrBufs spec0 c (fun b => V0 m c (Proc.devRef .tc b)) : sProp 𝕄) ⊢ (dats m 0 c).arrays ((dats m 0 c).arrAt · 0) :=
  (arrays_iff_bufs c (dats m 0 c) rfl rfl ((dats m 0 c).arrAt · 0) (fun b => V0 m c (Proc.devRef .tc b)) (fun w => A_eq m c w)).2

/-- At exit the halves rejoin: an input array still holds its entry contents, an output array what the write-backs left. -/
theorem arrays_exit (c : Dev nD) :
    ((dats m 0 c).arrays ((dats m 0 c).arrAt · cfg0.N) : sProp 𝕄) ⊣⊢ Pipeline.arrBufs spec0 c (fun b => Vexit m c (Proc.devRef .tc b)) :=
  arrays_iff_bufs c (dats m 0 c) rfl rfl ((dats m 0 c).arrAt · cfg0.N) (fun b => Vexit m c (Proc.devRef .tc b)) (fun w => by
    fin_cases w
    · exact ((dats m 0 c).arrAt_in 0 rfl _).trans ((A_eq m c 0).trans (Vexit_of_ne m c _ (by decide) (by decide)).symm)
    · exact ((dats m 0 c).arrAt_in 1 rfl _).trans ((A_eq m c 1).trans (Vexit_of_ne m c _ (by decide) (by decide)).symm)
    · exact (Vexit_out2 m c).symm
    · exact (Vexit_out3 m c).symm)

/-- The buffers behind the four windows, by name: the stacked embeddings and the two results. -/
theorem arrRefs_lit : Finset.univ.image (Pipeline.arrRef spec0) = {main_v11, main_v15_0, main_v15_1} := by decide

/-- No host line after the region writes an array of the region. -/
theorem tail_keeps (c : Dev nD) (b : Ref sig .tc) (hb : b ∈ Finset.univ.image (Pipeline.arrRef spec0)) :
    StableHlo.after (tailOps (F := F)).flatten (Vexit m c) (Proc.devRef .tc b) = Vexit m c (Proc.devRef .tc b) := by
  rw [arrRefs_lit] at hb
  simp only [Finset.mem_insert, Finset.mem_singleton] at hb
  generalize Vexit m c = W
  rcases hb with rfl | rfl | rfl <;>
  · simp only [tailOps, hostOps1, hostOps1_1, hostOps1_2, List.flatten_cons, List.flatten_nil, List.append_nil, List.cons_append, List.nil_append]
    after_results_simp

-- the frame run's implicit arguments are found by unifying its conclusion with this one, which takes unfolding plain
-- definitions in a metavariable's type
set_option backward.isDefEq.respectTransparency.types false in
/-- THE RUN: every weakly fair execution of @main terminates; every array of the region ends at the proof data's final
    contents and every other unscoped buffer at what the host lines after the region compute from the exit contents. -/
theorem run_main : θ_run defs (onTc (τ := τ) (main (F := F))) ⟨m, fun _ => 0, ρ⟩ (fun r => ∀ c : Dev nD,
      (∀ w, r.2.mem (((cfg0).spec w).arr.view.loc (c.tc : Thread nD τ)) = (dats m 0 c).arrAt w cfg0.N)
      ∧ ∀ b ∈ Pipeline.restRefs sig (cfg0).spec, r.2.mem ((c.tc : Thread nD τ).loc b)
          = StableHlo.after (tailOps (F := F)).flatten (Vexit m c) (Proc.devRef .tc b)) :=
  Cert.SharedArrays.frame_run_around_shared cfgs (dats m) (0 : Fin 1) defs₀ Variants.none
    cellOf_inj winFacts₀0 block_pos0 arr_whole0 stage_whole0 m ρ main
    (fun c => (body_obligation m c).loose) (fun _ _ => rfl) (V0 m) (Vexit m) tailOps tail_sub tail_fresh
    (hmain m Variants.none) (Vexit_rest m) (arrays_entry m) (arrays_exit m) (tail_keeps m) (hin m) (hout m)

/-- info: 'Cert.KernelIdeal.Hand.run_main' depends on axioms: [propext, Classical.choice, Quot.sound] -/
#guard_msgs in #print axioms run_main

/-- The two argument arrays are no array of the region and no host line writes them: they end as they began. -/
theorem arg_kept (c : Dev nD) (b : Ref sig .tc) (hb : b = main_arg0 ∨ b = main_arg1) :
    StableHlo.after (tailOps (F := F)).flatten (Vexit m c) (Proc.devRef .tc b) = m ((c.tc : Thread nD τ).loc b) := by
  have h1 : StableHlo.after (tailOps (F := F)).flatten (Vexit m c) (Proc.devRef .tc b) = Vexit m c (Proc.devRef .tc b) := by
    generalize Vexit m c = W
    rcases hb with rfl | rfl <;>
    · simp only [tailOps, hostOps1, hostOps1_1, hostOps1_2, List.flatten_cons, List.flatten_nil, List.append_nil, List.cons_append, List.nil_append]
      after_results_simp
  have h2 : Vexit m c (Proc.devRef .tc b) = V0 m c (Proc.devRef .tc b) := by
    rcases hb with rfl | rfl
    · exact Vexit_of_ne m c _ (by decide) (by decide)
    · exact Vexit_of_ne m c _ (by decide) (by decide)
  have h3 : V0 m c (Proc.devRef .tc b) = m ((c.tc : Thread nD τ).loc b) := by
    rcases hb with rfl | rfl <;>
    · dsimp only [V0]
      simp only [hostOps0, hostOps0_1, hostOps0_2, hostOps0_3, List.flatten_cons, List.flatten_nil, List.append_nil, List.cons_append, List.nil_append]
      after_results_simp
  exact h1.trans (h2.trans h3)

theorem mem_rest_arg0 : main_arg0 ∈ Pipeline.restRefs sig (cfg0).spec := Pipeline.mem_restRefs_of main_arg0 rfl (by decide)
theorem mem_rest_arg1 : main_arg1 ∈ Pipeline.restRefs sig (cfg0).spec := Pipeline.mem_restRefs_of main_arg1 rfl (by decide)
theorem mem_rest_result : main_v34 ∈ Pipeline.restRefs sig (cfg0).spec := Pipeline.mem_restRefs_of main_v34 rfl (by decide)

/-- THE FRAME: the program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 mem_rest_arg0).trans (arg_kept m c main_arg0 (Or.inl rfl)),
     ((h c).2 main_arg1 mem_rest_arg1).trans (arg_kept m c main_arg1 (Or.inr rfl))⟩) (run_main m ρ)

/-- The run with the result named: the loss buffer ends at what the host lines after the region compute from the exit
    contents, the arguments unchanged. -/
theorem run_result : θ_run defs (onTc (τ := τ) (main (F := F))) ⟨m, fun _ => 0, ρ⟩ (fun r => ∀ c : Dev nD,
      r.2.mem ((c.tc : Thread nD τ).loc main_v34) = StableHlo.after (tailOps (F := F)).flatten (Vexit m c) (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v34 mem_rest_result,
     ((h c).2 main_arg0 mem_rest_arg0).trans (arg_kept m c main_arg0 (Or.inl rfl)),
     ((h c).2 main_arg1 mem_rest_arg1).trans (arg_kept m c main_arg1 (Or.inr rfl))⟩) (run_main m ρ)

end Cert.KernelIdeal.Hand

end
-- ==== Proof.KIExit.lean ====
/-
  The exit contents of the similarity kernel's region at the three buffers the host lines after it read: the positives,
  which the region never touches, and the two reduced arrays, by their names.
-/
import proofs.«154950_j89077621719714_1_alg».proof.Proof.KIRun

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

theorem Vexit_positives (c : Dev nD) : Vexit m c (Proc.devRef .tc main_v14) = V m c main_v14 :=
  Vexit_of_ne m c main_v14 (by decide) (by decide)

theorem Vexit_hardNeg (c : Dev nD) : Vexit m c (Proc.devRef .tc main_v15_0) = (dats m 0 c).arrAt 2 cfg0.N :=
  Vexit_out2 m c

theorem Vexit_partials (c : Dev nD) : Vexit m c (Proc.devRef .tc main_v15_1) = (dats m 0 c).arrAt 3 cfg0.N :=
  Vexit_out3 m c

end Cert.KernelIdeal.Hand

end
-- ==== Proof.KIPieces.lean ====
/-
  The stored pieces read back as values. What each case leaves in the accumulators and in the outputs is the body's
  arithmetic applied to the two input blocks and to what the accumulators held before. Within a row tile the
  accumulators are therefore a fold over its eight points — reset at the first, stepped by each later one — and at the
  row tile's last point the two outputs hold the finished folds.
-/
import proofs.«154950_j89077621719714_1_alg».proof.Proof.KIBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values the runs found

Each case's stores, read back as values of the body's arithmetic: the named values `k0_pay1` … `k0_pay9` of the
generated skeleton applied to the input blocks and to what the accumulators held. -/

theorem hz2 : (![0, 0] : Fin 2 → Nat) = fun _ => 0 := funext fun a => by fin_cases a <;> rfl
theorem hz3 : (![0, 0, 0] : Fin 3 → Nat) = fun _ => 0 := funext fun a => by fin_cases a <;> rfl

/-- Case B leaves in the maximum accumulator the fold of this tile's row maxima (diagonal masked) into what it held. -/
theorem sout_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : ¬cond0_1 i) (x0 x1 : Vec F S1024x512 .bf16) (xs0 : Vec F S1024x1 .f32) (xs1 : Vec F S1x1 .f32) :
    sout0_B_0 c i arg2 harg2 arg3 harg3 arg4 harg4 arg5 harg5 arg6 harg6 arg7 harg7 hc0 hc1 x0 x1 xs0 xs1 = k0_pay8 i x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  rw [View.canon_unit_zero hz2]
  simp only [View.readAt_eq_ld, harg2.read_unread, harg3.read_unread, harg6.read_unread, View.ld_unit_zero (S := S1024x512) hz2, View.ld_unit_zero (S := S1024x1) hz2]

/-- Case B leaves in the sum accumulator what it held plus this tile's strict-upper-triangle sum. -/
theorem sout_B_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : ¬cond0_1 i) (x0 x1 : Vec F S1024x512 .bf16) (xs0 : Vec F S1024x1 .f32) (xs1 : Vec F S1x1 .f32) :
    sout0_B_1 c i arg2 harg2 arg3 harg3 arg4 harg4 arg5 harg5 arg6 harg6 arg7 harg7 hc0 hc1 x0 x1 xs0 xs1 = k0_pay1 (k0_pay9 i x0 x1) xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg7.read_unread, View.ld_unit_zero (S := S1024x512) hz2, View.ld_unit_zero (S := S1x1) hz2]

/-- Case C leaves the same in the accumulators as case B. -/
theorem sout_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i) (x0 x1 : Vec F S1024x512 .bf16) (xs0 : Vec F S1024x1 .f32) (xs1 : Vec F S1x1 .f32) :
    sout0_C_0 c i arg2 harg2 arg3 harg3 arg4 harg4 arg5 harg5 arg6 harg6 arg7 harg7 hc0 hc1 x0 x1 xs0 xs1 = k0_pay8 i x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, View.ld_unit_zero (S := S1024x512) hz2, View.ld_unit_zero (S := S1024x1) hz2]

theorem sout_C_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i) (x0 x1 : Vec F S1024x512 .bf16) (xs0 : Vec F S1024x1 .f32) (xs1 : Vec F S1x1 .f32) :
    sout0_C_1 c i arg2 harg2 arg3 harg3 arg4 harg4 arg5 harg5 arg6 harg6 arg7 harg7 hc0 hc1 x0 x1 xs0 xs1 = k0_pay1 (k0_pay9 i x0 x1) xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg7.read_unread, View.ld_unit_zero (S := S1024x512) hz2, View.ld_unit_zero (S := S1x1) hz2]

/-- Case A stores the initial value -∞, reads it back and folds this tile into it. -/
theorem sout_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : cond0_0 i) (hc1 : ¬cond0_1 i) (x0 x1 : Vec F S1024x512 .bf16) :
    sout0_A_0 c i arg2 harg2 arg3 harg3 arg4 harg4 arg5 harg5 arg6 harg6 arg7 harg7 hc0 hc1 x0 x1 = k0_pay8 i x0 x1 (k0_pay3 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1024x1) hz2, View.readCov_unit_zero (S := S1024x1) _ hz2]
  simp only [View.readAt_eq_ld, harg2.read_unread, harg3.read_unread, View.ld_unit_zero (S := S1024x512) hz2]

/-- Case A stores the initial value 0, reads it back and adds this tile's sum. -/
theorem sout_A_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : cond0_0 i) (hc1 : ¬cond0_1 i) (x0 x1 : Vec F S1024x512 .bf16) :
    sout0_A_1 c i arg2 harg2 arg3 harg3 arg4 harg4 arg5 harg5 arg6 harg6 arg7 harg7 hc0 hc1 x0 x1 = k0_pay1 (k0_pay9 i x0 x1) (k0_pay4 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, View.ld_unit_zero (S := S1024x512) hz2]

/-- Case C stores into output 2 the maximum accumulator as just updated. -/
theorem out_C_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i) (x0 x1 : Vec F S1024x512 .bf16) (xs0 : Vec F S1024x1 .f32) (xs1 : Vec F S1x1 .f32) :
    out0_C_2 c i arg2 harg2 arg3 harg3 arg4 harg4 arg5 harg5 arg6 harg6 arg7 harg7 hc0 hc1 x0 x1 xs0 xs1 = k0_pay8 i x0 x1 xs0 := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz2, View.readCov_unit_zero (S := S1024x1) _ hz2]
  simp only [View.readAt_eq_ld, harg2.read_unread, harg3.read_unread, harg6.read_unread, View.ld_unit_zero (S := S1024x512) hz2, View.ld_unit_zero (S := S1024x1) hz2]

/-- Case C stores into output 3 the sum accumulator as just updated, reshaped. -/
theorem out_C_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x1 .f32) (harg7 : arg7.IsWhole) (hc0 : ¬cond0_0 i) (hc1 : cond0_1 i) (x0 x1 : Vec F S1024x512 .bf16) (xs0 : Vec F S1024x1 .f32) (xs1 : Vec F S1x1 .f32) :
    out0_C_3 c i arg2 harg2 arg3 harg3 arg4 harg4 arg5 harg5 arg6 harg6 arg7 harg7 hc0 hc1 x0 x1 xs0 xs1 = k0_pay2 (k0_pay1 (k0_pay9 i x0 x1) xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3, View.readCov_unit_zero (S := S1x1) _ hz2]
  simp only [View.readAt_eq_ld, harg2.read_unread, harg3.read_unread, harg7.read_unread, View.ld_unit_zero (S := S1024x512) hz2, View.ld_unit_zero (S := S1x1) hz2]

/-! ## The fold over a row of tiles

Within row tile `q` (points `8·q … 8·q + 7`) the accumulators are a fold: started from the initial values at the
first point, stepped by each later point's tile. -/

/-- The maximum accumulator after the first point of a row: this tile folded into -∞. -/
def aM (c : Dev nD) (n : ℕ) (h : n < cfg0.N) : Vec F S1024x1 .f32 :=
  k0_pay8 (grid0.coords ⟨n, h⟩) (iblk m c 0 ⟨n, h⟩) (iblk m c 1 ⟨n, h⟩) (k0_pay3 (F := F))
/-- The step at a later point: this tile folded into what the point before left. -/
def gM (c : Dev nD) (n : ℕ) (h : n < cfg0.N) (acc : Vec F S1024x1 .f32) : Vec F S1024x1 .f32 :=
  k0_pay8 (grid0.coords ⟨n, h⟩) (iblk m c 0 ⟨n, h⟩) (iblk m c 1 ⟨n, h⟩) acc
/-- The sum accumulator after the first point of a row: this tile's sum added to 0. -/
def aU (c : Dev nD) (n : ℕ) (h : n < cfg0.N) : Vec F S1x1 .f32 :=
  k0_pay1 (k0_pay9 (grid0.coords ⟨n, h⟩) (iblk m c 0 ⟨n, h⟩) (iblk m c 1 ⟨n, h⟩)) (k0_pay4 (F := F))
/-- The step at a later point: this tile's sum added to what the point before left. -/
def gU (c : Dev nD) (n : ℕ) (h : n < cfg0.N) (acc : Vec F S1x1 .f32) : Vec F S1x1 .f32 :=
  k0_pay1 (k0_pay9 (grid0.coords ⟨n, h⟩) (iblk m c 0 ⟨n, h⟩) (iblk m c 1 ⟨n, h⟩)) acc

/-- At the first point of a row the maximum accumulator is reset. -/
theorem sM_reset (c : Dev nD) (n : ℕ) (h : n < cfg0.N) (h0 : n % 8 = 0) : (outsAt0 m c n h).2.2.1 = aM m c n h := by
  have h1 : ¬(⟨n, h⟩ : Fin cfg0.N).val % 8 = 7 := by dsimp only; omega
  rw [outsAt0_A m c ⟨n, h⟩ h0 h1]
  dsimp only
  exact sout_A_0 (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk m c 0 ⟨n, h⟩) (iblk m c 1 ⟨n, h⟩)

/-- At every other point it is stepped from the point before. -/
theorem sM_step (c : Dev nD) (n : ℕ) (h : n + 1 < cfg0.N) (h0 : ¬(n + 1) % 8 = 0) :
    (outsAt0 m c (n + 1) h).2.2.1 = gM m c (n + 1) h (outsAt0 m c n (Nat.lt_of_succ_lt h)).2.2.1 := by
  by_cases h1 : (n + 1) % 8 = 7
  · rw [outsAt0_C m c ⟨n + 1, h⟩ h0 h1]
    dsimp only
    exact sout_C_0 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) _ _
  · rw [outsAt0_B m c ⟨n + 1, h⟩ h0 h1]
    dsimp only
    exact sout_B_0 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) _ _

theorem sU_reset (c : Dev nD) (n : ℕ) (h : n < cfg0.N) (h0 : n % 8 = 0) : (outsAt0 m c n h).2.2.2 = aU m c n h := by
  have h1 : ¬(⟨n, h⟩ : Fin cfg0.N).val % 8 = 7 := by dsimp only; omega
  rw [outsAt0_A m c ⟨n, h⟩ h0 h1]
  dsimp only
  exact sout_A_1 (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) _ _ (iblk m c 0 ⟨n, h⟩) (iblk m c 1 ⟨n, h⟩)

theorem sU_step (c : Dev nD) (n : ℕ) (h : n + 1 < cfg0.N) (h0 : ¬(n + 1) % 8 = 0) :
    (outsAt0 m c (n + 1) h).2.2.2 = gU m c (n + 1) h (outsAt0 m c n (Nat.lt_of_succ_lt h)).2.2.2 := by
  by_cases h1 : (n + 1) % 8 = 7
  · rw [outsAt0_C m c ⟨n + 1, h⟩ h0 h1]
    dsimp only
    exact sout_C_1 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) _ _
  · rw [outsAt0_B m c ⟨n + 1, h⟩ h0 h1]
    dsimp only
    exact sout_B_1 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) _ _

/-- THE FOLD of the maximum: at point `8·q + j` (`j < 8`) the accumulator is the reset at `8·q` stepped through
    the points `8·q + 1 … 8·q + j`. -/
theorem sM_eq (c : Dev nD) (q j : ℕ) (hj : j < 8) (h : 8 * q + j < cfg0.N) :
    (outsAt0 m c (8 * q + j) h).2.2.1 = Pipeline.accAt (aM m c) (gM m c) (8 * q) j h :=
  Pipeline.eq_accAt (fun n h => (outsAt0 m c n h).2.2.1) 8 (aM m c) (gM m c) (sM_reset m c) (sM_step m c) q j hj h

/-- THE FOLD of the sum. -/
theorem sU_eq (c : Dev nD) (q j : ℕ) (hj : j < 8) (h : 8 * q + j < cfg0.N) :
    (outsAt0 m c (8 * q + j) h).2.2.2 = Pipeline.accAt (aU m c) (gU m c) (8 * q) j h :=
  Pipeline.eq_accAt (fun n h => (outsAt0 m c n h).2.2.2) 8 (aU m c) (gU m c) (sU_reset m c) (sU_step m c) q j hj h

/-- At the last point of a row output 2's buffer holds the maximum accumulator as just updated, -/
theorem out2_eq (c : Dev nD) (t : Fin cfg0.N) (h7 : t.val % 8 = 7) :
    (outsAt0 m c t.val t.isLt).1 = (outsAt0 m c t.val t.isLt).2.2.1 := by
  have h0 : ¬t.val % 8 = 0 := by omega
  rw [outsAt0_C m c t h0 h7]
  dsimp only
  exact (out_C_2 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) _ _).trans
    (sout_C_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) _ _).symm

/-- and output 3's the sum accumulator as just updated, reshaped to [1,1,1]. -/
theorem out3_eq (c : Dev nD) (t : Fin cfg0.N) (h7 : t.val % 8 = 7) :
    (outsAt0 m c t.val t.isLt).2.1 = k0_pay2 (outsAt0 m c t.val t.isLt).2.2.2 := by
  have h0 : ¬t.val % 8 = 0 := by omega
  rw [outsAt0_C m c t h0 h7]
  dsimp only
  exact (out_C_3 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) _ _).trans
    (congrArg k0_pay2 (sout_C_1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) _ _).symm)

/-- So at the last point of row `q` the two outputs hold the whole row's folds. -/
theorem out2_fold (c : Dev nD) (q : ℕ) (h : 8 * q + 7 < cfg0.N) :
    (outsAt0 m c (8 * q + 7) h).1 = Pipeline.accAt (aM m c) (gM m c) (8 * q) 7 h :=
  (out2_eq m c ⟨8 * q + 7, h⟩ (by dsimp only; omega)).trans (sM_eq m c q 7 (by omega) h)

theorem out3_fold (c : Dev nD) (q : ℕ) (h : 8 * q + 7 < cfg0.N) :
    (outsAt0 m c (8 * q + 7) h).2.1 = k0_pay2 (Pipeline.accAt (aU m c) (gU m c) (8 * q) 7 h) :=
  (out3_eq m c ⟨8 * q + 7, h⟩ (by dsimp only; omega)).trans (congrArg k0_pay2 (sU_eq m c q 7 (by omega) h))

end Cert.KernelIdeal.Hand

end
-- ==== Proof.TileSim.lean ====
/-
  The similarity tile. The body multiplies the row block by the transpose of the column block on the matrix unit, into a
  zero accumulator. Over the extended reals there is no rounding and no order of accumulation left: entry (r, c) of the
  tile is the dot product, over the 512 columns, of row r of the row block with row c of the column block.
-/
import proofs.«154950_j89077621719714_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.TileValue

open Idealize.ShloMosaic Idealize.ShloMosaic.ValueIdx Cert.KernelIdeal Cert.KernelIdeal.Gen

/-- The dimension numbers of the tile's product: rows × contraction against contraction × columns. -/
abbrev simDot : DotDims S1024x512 S512x1024 S1024x1024 := dot_S1024x512_S512x1024_S1024x1024_1_0_0_1_n_n

theorem simDot_lhs0 (i : S1024x1024.Idx) (q : simDot.contr.Idx) : (simDot.lhsIdx i q 0).val = (i 0).val := by
  unfold DotDims.lhsIdx
  rw [dif_neg (show ¬(0 : Fin S1024x512.rank) ∈ simDot.lhsBatch by decide),
    dif_pos (show (0 : Fin S1024x512.rank) ∈ simDot.lhsNonContracting by decide)]
  rfl
theorem simDot_lhs1 (i : S1024x1024.Idx) (q : simDot.contr.Idx) : (simDot.lhsIdx i q 1).val = (q ⟨0, by decide⟩).val :=
  simDot.lhsIdx_val_of_single rfl i q
theorem simDot_rhs0 (i : S1024x1024.Idx) (q : simDot.contr.Idx) : (simDot.rhsIdx i q 0).val = (q ⟨0, by decide⟩).val :=
  simDot.rhsIdx_val_of_single rfl i q
theorem simDot_rhs1 (i : S1024x1024.Idx) (q : simDot.contr.Idx) : (simDot.rhsIdx i q 1).val = (i 1).val := by
  unfold DotDims.rhsIdx
  rw [dif_neg (show ¬(1 : Fin S512x1024.rank) ∈ simDot.rhsBatch by decide),
    dif_pos (show (1 : Fin S512x1024.rank) ∈ simDot.rhsNonContracting by decide)]
  rfl

/-- The left operand's index at output (r, c) and contraction coordinate k is (r, k). -/
theorem simDot_lhs (r c : Fin 1024) (k : Fin 512) :
    simDot.lhsIdx (ix2 r c) ((contrEquiv1 simDot 512 rfl rfl).symm k) = ix2 r k := by
  have hk := contrEquiv1_symm_val simDot 512 rfl rfl k
  refine funext fun a => Fin.ext ?_
  match a with
  | ⟨0, _⟩ => exact simDot_lhs0 _ _
  | ⟨1, _⟩ => exact (simDot_lhs1 _ _).trans hk

/-- The right operand's index there is (k, c). -/
theorem simDot_rhs (r c : Fin 1024) (k : Fin 512) :
    simDot.rhsIdx (ix2 r c) ((contrEquiv1 simDot 512 rfl rfl).symm k) = ix2 k c := by
  have hk := contrEquiv1_symm_val simDot 512 rfl rfl k
  refine funext fun a => Fin.ext ?_
  match a with
  | ⟨0, _⟩ => exact (simDot_rhs0 _ _).trans hk
  | ⟨1, _⟩ => exact simDot_rhs1 _ _

/-- The transposed column block at (k, c) is the column block at (c, k). -/
theorem transpose_col (x1 : Vec Ideal S1024x512 .bf16) (h : S1024x512.Transposes [1, 0] S512x1024) (c : Fin 1024) (k : Fin 512) :
    transpose S512x1024 [1, 0] x1 h (ix2 k c) = x1 (ix2 c k) :=
  transpose_apply [1, 0] x1 h (ix2 k c) (ix2 c k) (fun b => match b with
    | ⟨0, _⟩ => rfl
    | ⟨1, _⟩ => rfl)

/-- Entry (r, c) of the similarity tile is the dot product of row r of the row block and row c of the column block. -/
theorem sim_apply (x0 x1 : Vec Ideal S1024x512 .bf16) (r c : Fin 1024) :
    k0_pay5 (F := Ideal) x0 x1 (ix2 r c) = ∑ k : Fin 512, x0 (ix2 r k) * x1 (ix2 c k) := by
  unfold k0_pay5
  simp only [shapeCast_self]
  refine (Ideal.matmul_constant_zero_apply simDot none _ _ (ix2 r c)).trans ?_
  rw [← Equiv.sum_comp (contrEquiv1 simDot 512 rfl rfl).symm]
  refine Finset.sum_congr rfl fun k _ => ?_
  rw [simDot_lhs, simDot_rhs, transpose_col]

end Cert.KernelIdeal.TileValue

end
-- ==== Proof.TileMask.lean ====
/-
  The two integer tiles. At grid point (i0, i1) the body numbers the rows of its tile i0·1024 + r and the columns
  i1·1024 + c: the GLOBAL row and column of entry (r, c) in the 8192 × 8192 similarity matrix. All these numbers are
  below 8192, far from the 32-bit wrap and from the sign bit, so the word comparisons "equal" and "signed less" say
  exactly that the global row equals, or is less than, the global column.
-/
import proofs.«154950_j89077621719714_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.TileValue

open Idealize.ShloMosaic Idealize.ShloMosaic.ValueIdx Cert.KernelIdeal Cert.KernelIdeal.Gen

/-- The word of the global row of entry (r, c). -/
theorem rowId_apply (i : grid0.Coords) (r c : Fin 1024) :
    k0_pay6 i (ix2 r c) = BitVec.ofNat 32 ((i 0).val * 1024 + r.val) := by
  unfold k0_pay6
  show IntOp.addi (Scalar.muli (BitVec.ofNat 32 (i 0).val) 1024#32) (iota .tc S1024x1024 32 [0] iota_S1024x1024_d0_w32 (ix2 r c)) = _
  rw [iota_single_apply]
  show BitVec.ofNat 32 (i 0).val * BitVec.ofNat 32 1024 + BitVec.ofNat 32 r.val = _
  rw [← BitVec.ofNat_mul, ← BitVec.ofNat_add]

/-- The word of the global column of entry (r, c). -/
theorem colId_apply (i : grid0.Coords) (r c : Fin 1024) :
    k0_pay7 i (ix2 r c) = BitVec.ofNat 32 ((i 1).val * 1024 + c.val) := by
  unfold k0_pay7
  show IntOp.addi (Scalar.muli (BitVec.ofNat 32 (i 1).val) 1024#32) (iota .tc S1024x1024 32 [1] iota_S1024x1024_d1_w32 (ix2 r c)) = _
  rw [iota_single_apply]
  show BitVec.ofNat 32 (i 1).val * BitVec.ofNat 32 1024 + BitVec.ofNat 32 c.val = _
  rw [← BitVec.ofNat_mul, ← BitVec.ofNat_add]

/-- A small number's word reads back as the number. -/
theorem toNat_small (n : Nat) (h : n < 8192) : (BitVec.ofNat 32 n).toNat = n := by
  rw [BitVec.toNat_ofNat]; omega

/-- The diagonal mask: the words are equal exactly when the global row is the global column. -/
theorem diag_iff (i : grid0.Coords) (r c : Fin 1024) :
    cmpi .eq (k0_pay6 i) (k0_pay7 i) (ix2 r c) = 1#1 ↔ (i 0).val * 1024 + r.val = (i 1).val * 1024 + c.val := by
  have h0 : (i 0).val < 8 := (i 0).isLt
  have h1 : (i 1).val < 8 := (i 1).isLt
  show IntOp.cmpi .eq (k0_pay6 i (ix2 r c)) (k0_pay7 i (ix2 r c)) = 1#1 ↔ _
  rw [IntOp.cmpi_eq, rowId_apply, colId_apply]
  constructor
  · intro h
    have := congrArg BitVec.toNat h
    rwa [toNat_small _ (by omega), toNat_small _ (by omega)] at this
  · intro h; rw [h]

/-- The upper-triangle mask: signed less exactly when the global row is less than the global column. -/
theorem upper_iff (i : grid0.Coords) (r c : Fin 1024) :
    cmpi .slt (k0_pay6 i) (k0_pay7 i) (ix2 r c) = 1#1 ↔ (i 0).val * 1024 + r.val < (i 1).val * 1024 + c.val := by
  have h0 : (i 0).val < 8 := (i 0).isLt
  have h1 : (i 1).val < 8 := (i 1).isLt
  show IntOp.cmpi .slt (k0_pay6 i (ix2 r c)) (k0_pay7 i (ix2 r c)) = 1#1 ↔ _
  rw [IntOp.cmpi_slt, rowId_apply, colId_apply,
    BitVec.toInt_eq_toNat_of_lt (by rw [toNat_small _ (by omega)]; omega),
    BitVec.toInt_eq_toNat_of_lt (by rw [toNat_small _ (by omega)]; omega),
    toNat_small _ (by omega), toNat_small _ (by omega)]
  omega

end Cert.KernelIdeal.TileValue

end
-- ==== Proof.TileMax.lean ====
/-
  The running row maximum. The body replaces the entries of the similarity tile on the GLOBAL diagonal by −∞, takes the
  maximum of each row of the tile (a maximum started from −∞, the bottom of the extended reals, which a maximum
  ignores), and folds it into the maximum carried from the earlier column tiles.
-/
import proofs.«154950_j89077621719714_1_alg».proof.Proof.Gen.KernelIdeal.Skeleton
import Idealize.ShloMosaic.Lib.ValueIdx
import Idealize.ShloMosaic.Lib.Pipeline.Value
import Idealize.ShloMosaic.PureOps.Ideal.Laws
import proofs.«154950_j89077621719714_1_alg».proof.Proof.TileSim
import proofs.«154950_j89077621719714_1_alg».proof.Proof.TileMask

noncomputable section

namespace Cert.KernelIdeal.TileValue

open Idealize.ShloMosaic Idealize.ShloMosaic.ValueIdx Cert.KernelIdeal Cert.KernelIdeal.Gen

/-- The word 0xFF800000 is −∞, the bottom of the extended reals. -/
theorem negInf_eq_bot : Ideal.ofBits .f32 0xFF800000#32 = (⊥ : EReal) := by simp [Ideal.ofBits, Ideal.ieee]

/-- Where the column tiles start, the running maximum is −∞ in every row. -/
theorem initMax_apply (r : Fin 1024) : k0_pay3 (F := Ideal) (ix2 r 0) = (⊥ : EReal) := by
  unfold k0_pay3
  simp only [shapeCast_self]
  exact negInf_eq_bot

/-- A maximum folded from the bottom over a finite set is the set's supremum. -/
theorem fold_max_bot {ι : Type} [DecidableEq ι] (s : Finset ι) (f : ι → EReal) : s.fold max (⊥ : EReal) f = s.sup f := by
  induction s using Finset.induction_on with
  | empty => simp
  | insert a s ha ih => rw [Finset.fold_insert ha, Finset.sup_insert, ih]

/-- The masked tile at (r, c): −∞ on the global diagonal, the similarity elsewhere. -/
theorem masked_apply (i : grid0.Coords) (x0 x1 : Vec Ideal S1024x512 .bf16) (r c : Fin 1024) :
    select (cmpi .eq (k0_pay6 i) (k0_pay7 i)) (broadcast S1024x1024 (Scalar.ofBits (F := Ideal) .f32 0xFF800000#32))
        (k0_pay5 (F := Ideal) x0 x1) (ix2 r c)
      = if (i 0).val * 1024 + r.val = (i 1).val * 1024 + c.val then (⊥ : EReal)
        else ∑ k : Fin 512, x0 (ix2 r k) * x1 (ix2 c k) := by
  rw [select_apply, broadcast_apply, sim_apply]
  by_cases h : (i 0).val * 1024 + r.val = (i 1).val * 1024 + c.val
  · rw [if_pos h, (diag_iff i r c).mpr h, select_one]; exact negInf_eq_bot
  · rw [if_neg h, eq_zero_of_ne_one (mt (diag_iff i r c).mp h), select_zero]

/-- The index the row reduction inserts: row r with the reduced coordinate c is (r, c). -/
theorem lift_row (h : S1024x1024.Reduces [1] S1024) (r c : Fin 1024) : h.lift (ix1 r) c = ix2 r c :=
  funext fun a => Fin.ext (by match a with | ⟨0, _⟩ => rfl | ⟨1, _⟩ => rfl)

/-- The maximum over the columns of a [1024, 1024] tile, started from −∞, at row r: the supremum of the row. -/
theorem rowMax_apply (v : FVec Ideal S1024x1024 .f32) (h : S1024x1024.Reduces [1] S1024) (hφ : FKind.Formats .f32)
    (hacc : (0xFF800000#32 : BitVec 32) = FKind.maximumf.neutral .f32 hφ) (r : Fin 1024) :
    multiReduction (F := Ideal) .maximumf [1] S1024 v 0xFF800000#32 h hφ hacc (ix1 r)
      = Finset.univ.sup fun c : Fin 1024 => v (ix2 r c) := by
  refine (Ideal.multiReduction_maximumf_single v 0xFF800000#32 h hφ hacc (ix1 r)).trans ?_
  show (Finset.univ : Finset (Fin 1024)).fold max (Ideal.ofBits .f32 0xFF800000#32) (fun c : Fin 1024 => v (h.lift (ix1 r) c)) = _
  rw [negInf_eq_bot, fold_max_bot]
  exact congrArg _ (funext fun c => by rw [lift_row])

/-- A column of 1024 entries cast to shape [1024, 1] reads entry r at (r, 0). -/
theorem colCast_apply {α : Type} (v : S1024.Idx → α) (h : S1024.ShapeCasts S1024x1) (r : Fin 1024) :
    shapeCast S1024x1 v h (ix2 r 0) = v (ix1 r) :=
  shapeCast_apply v h (ix2 r 0) (ix1 r) (by
    rw [Shape.rowMajor_val_one, Shape.rowMajor_val_two]
    show r.val = r.val * 1 + 0
    omega)

/-- The new running maximum of row r: the old one against the supremum, over the tile's columns, of the similarities
    off the global diagonal. -/
theorem runMax_apply (i : grid0.Coords) (x0 x1 : Vec Ideal S1024x512 .bf16) (mprev : Vec Ideal S1024x1 .f32) (r : Fin 1024) :
    k0_pay8 (F := Ideal) i x0 x1 mprev (ix2 r 0)
      = max (mprev (ix2 r 0)) (Finset.univ.sup fun c : Fin 1024 =>
          if (i 0).val * 1024 + r.val = (i 1).val * 1024 + c.val then (⊥ : EReal)
          else ∑ k : Fin 512, x0 (ix2 r k) * x1 (ix2 c k)) := by
  unfold k0_pay8
  simp only [shapeCast_self]
  refine (maximumf_apply _ _ (ix2 r 0)).trans ?_
  refine congrArg (max (mprev (ix2 r 0))) ?_
  refine (colCast_apply _ _ r).trans ?_
  refine (rowMax_apply _ _ _ _ r).trans ?_
  exact congrArg _ (funext fun c => masked_apply i x0 x1 r c)

end Cert.KernelIdeal.TileValue

end
-- ==== Proof.Spec.lean ====
/-
  The mathematics of the contrastive loss both programs compute, over the extended reals, with no program in sight.

  `reps` is the 8192 × 512 matrix of stacked, row-normalised embeddings. Every quantity below is a function of its
  entries alone:
  * `sim reps r c` — the similarity of rows `r` and `c`: the sum over the 512 columns of the products of their entries;
  * `hardNeg reps r` — the hardest negative of row `r`: the largest similarity of `r` with any OTHER row (the diagonal
    entry replaced by −∞, the bottom of the order, which a maximum ignores);
  * `pairWeight x` — the weight `exp(−2·(2 − 2·x))` a pair of similarity `x` contributes to the uniformity term (the
    constants are the binary values of 2 and −2, which are exact);
  * `uniformSum reps` — the sum of the pair weights over the strictly upper triangle `r < c`;
  * `posDot zi zj r` — the positive of row `r`: the dot product of row `r mod 4096` of the two halves.
  The two programs differ only in how they ARRANGE these: one walks the matrix tile by tile, folding row maxima and
  partial sums across the column tiles; the other builds the whole matrix and reduces it once.
-/
import Idealize.ShloMosaic.PureOps.Ideal
import Idealize.ShloMosaic.Lib.ValueIdx

noncomputable section

namespace Cert.NTXent

open Idealize.ShloMosaic Idealize.ShloMosaic.ValueIdx

/-- The stacked embeddings: 8192 rows of 512 entries. -/
abbrev SReps : Shape := ⟨2, ![8192, 512]⟩
/-- One half of them: 4096 rows of 512 entries. -/
abbrev SHalf : Shape := ⟨2, ![4096, 512]⟩

/-- The similarity of rows `r` and `c`: their dot product over the 512 columns. -/
def sim (reps : SReps.Idx → EReal) (r c : Fin 8192) : EReal :=
  ∑ k : Fin 512, reps (ix2 r k) * reps (ix2 c k)

/-- The hardest negative of row `r`: the largest similarity with another row; the row itself counts as −∞. -/
def hardNeg (reps : SReps.Idx → EReal) (r : Fin 8192) : EReal :=
  Finset.univ.sup fun c : Fin 8192 => if c = r then (⊥ : EReal) else sim reps r c

/-- The weight of a pair of similarity `x` in the uniformity term: `exp(−2·(2 − 2·x))`. -/
def pairWeight (x : EReal) : EReal :=
  Ideal.exp (Ideal.ofBits .f32 0xC0000000#32 * (Ideal.ofBits .f32 0x40000000#32 - Ideal.ofBits .f32 0x40000000#32 * x))

/-- The pair weights summed over the strictly upper triangle. -/
def uniformSum (reps : SReps.Idx → EReal) : EReal :=
  ∑ r : Fin 8192, ∑ c : Fin 8192, if r < c then pairWeight (sim reps r c) else 0

/-- Row `r` of the lower half is row `r − 4096` of the second matrix; the index of a row within its half. -/
def halfRow (r : Fin 8192) : Fin 4096 := ⟨r.val % 4096, Nat.mod_lt _ (by norm_num)⟩

/-- The positive of row `r`: the dot product of the two halves' rows `r mod 4096`. -/
def posDot (zi zj : SHalf.Idx → EReal) (r : Fin 8192) : EReal :=
  ∑ k : Fin 512, zi (ix2 (halfRow r) k) * zj (ix2 (halfRow r) k)

/-- The two halves stacked: rows 0 … 4095 are `zi`'s, rows 4096 … 8191 are `zj`'s. -/
def stack (zi zj : SHalf.Idx → EReal) : SReps.Idx → EReal := fun j =>
  if (j 0).val < 4096 then zi (ix2 (halfRow (j 0)) (j 1)) else zj (ix2 (halfRow (j 0)) (j 1))

end Cert.NTXent

end
-- ==== Proof.TileSum.lean ====
/-
  The running sum of pair weights. Where the GLOBAL row is strictly less than the global column the body keeps the weight
  exp(−2·(2 − 2·s)) of the similarity s of the pair, elsewhere 0; it adds up the whole tile (a sum started from 0) and
  adds the total to the sum carried from the earlier column tiles. Addition on the extended reals is commutative and
  associative, so the total is the double sum over the tile's rows and columns in any order.
-/
import proofs.«154950_j89077621719714_1_alg».proof.Proof.Gen.KernelIdeal.Skeleton
import Idealize.ShloMosaic.Lib.ValueIdx
import Idealize.ShloMosaic.Lib.Pipeline.Value
import Idealize.ShloMosaic.PureOps.Ideal.Laws
import proofs.«154950_j89077621719714_1_alg».proof.Proof.TileSim
import proofs.«154950_j89077621719714_1_alg».proof.Proof.TileMask
import proofs.«154950_j89077621719714_1_alg».proof.Proof.Spec

noncomputable section

namespace Cert.KernelIdeal.TileValue

open Idealize.ShloMosaic Idealize.ShloMosaic.ValueIdx Cert.KernelIdeal Cert.KernelIdeal.Gen

/-- The weighted tile at (r, c): the pair's weight strictly above the global diagonal, 0 elsewhere. -/
theorem weight_apply (i : grid0.Coords) (x0 x1 : Vec Ideal S1024x512 .bf16) (r c : Fin 1024) :
    k0_pay9 (F := Ideal) i x0 x1 (ix2 r c)
      = if (i 0).val * 1024 + r.val < (i 1).val * 1024 + c.val
        then Cert.NTXent.pairWeight (∑ k : Fin 512, x0 (ix2 r k) * x1 (ix2 c k)) else 0 := by
  unfold k0_pay9
  show Scalar.select (cmpi .slt (k0_pay6 i) (k0_pay7 i) (ix2 r c))
      (Ideal.exp (Ideal.ofBits .f32 0xC0000000#32
        * (Ideal.ofBits .f32 0x40000000#32 - Ideal.ofBits .f32 0x40000000#32 * k0_pay5 (F := Ideal) x0 x1 (ix2 r c))))
      (Ideal.ofBits .f32 0x00000000#32) = _
  rw [sim_apply, Ideal.ofBits_zero_f32]
  by_cases h : (i 0).val * 1024 + r.val < (i 1).val * 1024 + c.val
  · rw [if_pos h, (upper_iff i r c).mpr h, select_one]; rfl
  · rw [if_neg h, eq_zero_of_ne_one (mt (upper_iff i r c).mp h), select_zero]

/-- The sum of a whole [1024, 1024] tile, taken as a reduction of its [1, 1024, 1024] cast over the two tile axes and
    started from 0: the double sum over rows and columns. -/
theorem total_apply (v : FVec Ideal S1024x1024 .f32) (h1 : S1024x1024.ShapeCasts S1x1024x1024)
    (h2 : S1x1024x1024.Reduces [1, 2] S1) (hφ : FKind.Formats .f32)
    (hacc : (0x00000000#32 : BitVec 32) = FKind.add.neutral .f32 hφ) (j : S1.Idx) :
    multiReduction (F := Ideal) .add [1, 2] S1 (shapeCast S1x1024x1024 v h1) 0x00000000#32 h2 hφ hacc j
      = ∑ r : Fin 1024, ∑ c : Fin 1024, v (ix2 r c) := by
  refine (Ideal.multiReduction_add_total _ _ h2 (by decide) hφ hacc j).trans ?_
  show ∑ i : S1x1024x1024.Idx, v (Shape.reshapeEquiv h1 i) = _
  rw [Equiv.sum_comp (Shape.reshapeEquiv h1) v, sum_idx2]

/-- An extraction at a fixed position reads the vector there. -/
theorem extractAt_eq {s : Shape} {α : Type} (pos : Fin s.rank → Nat) (x : s.Idx → α) (h : ∀ a, pos a < s.size a) :
    extractAt pos x h = x (fun a => ⟨pos a, h a⟩) := rfl

/-- A shape cast reads its operand at the index of the same row-major position. -/
theorem shapeCast_eq {s t : Shape} {α : Type} (x : s.Idx → α) (h : s.ShapeCasts t) (j : t.Idx) :
    shapeCast t x h j = x (Shape.reshapeEquiv h j) := rfl

/-- The new running sum: the old one plus the total of the tile. -/
theorem runSum_apply (w : FVec Ideal S1024x1024 .f32) (uprev : Vec Ideal S1x1 .f32) :
    k0_pay1 (F := Ideal) w uprev (ix2 0 0) = uprev (ix2 0 0) + ∑ r : Fin 1024, ∑ c : Fin 1024, w (ix2 r c) := by
  unfold k0_pay1
  simp only [shapeCast_self]
  refine (addf_apply _ _ (ix2 0 0)).trans ?_
  refine congrArg (uprev (ix2 0 0) + ·) ?_
  rw [broadcast_apply, extractAt_eq, shapeCast_eq]
  exact total_apply w _ _ _ _ _

/-- The new running sum of pair weights: the old one plus the weights of the tile's pairs strictly above the global
    diagonal. -/
theorem runSum_weight_apply (i : grid0.Coords) (x0 x1 : Vec Ideal S1024x512 .bf16) (uprev : Vec Ideal S1x1 .f32) :
    k0_pay1 (F := Ideal) (k0_pay9 (F := Ideal) i x0 x1) uprev (ix2 0 0)
      = uprev (ix2 0 0) + ∑ r : Fin 1024, ∑ c : Fin 1024,
          if (i 0).val * 1024 + r.val < (i 1).val * 1024 + c.val
          then Cert.NTXent.pairWeight (∑ k : Fin 512, x0 (ix2 r k) * x1 (ix2 c k)) else 0 := by
  rw [runSum_apply]
  refine congrArg (uprev (ix2 0 0) + ·) ?_
  exact Finset.sum_congr rfl fun r _ => Finset.sum_congr rfl fun c _ => weight_apply i x0 x1 r c

/-- Where the column tiles start, the running sum is 0. -/
theorem initSum_apply : k0_pay4 (F := Ideal) (ix2 0 0) = (0 : EReal) := by
  unfold k0_pay4
  simp only [shapeCast_self]
  exact Ideal.ofBits_zero_f32

/-- The running sum goes out as the one entry of a [1, 1, 1] block. -/
theorem outSum_apply (v : Vec Ideal S1x1 .f32) : k0_pay2 (F := Ideal) v (ix3 0 0 0) = v (ix2 0 0) := by
  unfold k0_pay2
  exact shapeCast_apply v _ (ix3 0 0 0) (ix2 0 0) (by rw [Shape.rowMajor_val_two, Shape.rowMajor_val_three]; rfl)

end Cert.KernelIdeal.TileValue

end
-- ==== Proof.FoldLaw.lean ====
/-
  The law that joins a tile-by-tile walk of the similarity matrix to one pass over it. The 8192 rows (and columns) are
  8 tiles of 1024: row (or column) number g is entry g mod 1024 of tile g div 1024. A maximum over all 8192 columns is
  the maximum, over the 8 column tiles, of the tile maxima; a sum over all 8192 columns is the sum of the tile sums; and
  a sum over all 8192 rows is the sum over the row tiles. Only commutativity and associativity of max and + are used,
  so nothing here asks the entries to be finite.
-/
import proofs.«154950_j89077621719714_1_alg».proof.Proof.Spec
import Mathlib.Algebra.BigOperators.Fin
import Mathlib.Data.Fintype.BigOperators

noncomputable section

namespace Cert.NTXent.Tiled

open Idealize.ShloMosaic Idealize.ShloMosaic.ValueIdx Cert.NTXent

/-- The global number of entry p of tile b. -/
def glob (b : Fin 8) (p : Fin 1024) : Fin 8192 := ⟨b.val * 1024 + p.val, by omega⟩

theorem glob_val (b : Fin 8) (p : Fin 1024) : (glob b p).val = b.val * 1024 + p.val := rfl

/-- The 8192 numbers are the pairs (tile, entry within the tile). -/
def tileEquiv : Fin 8 × Fin 1024 ≃ Fin 8192 where
  toFun q := glob q.1 q.2
  invFun c := (⟨c.val / 1024, by omega⟩, ⟨c.val % 1024, Nat.mod_lt _ (by norm_num)⟩)
  left_inv q := by
    rcases q with ⟨b, p⟩
    refine Prod.ext (Fin.ext ?_) (Fin.ext ?_)
    · show (b.val * 1024 + p.val) / 1024 = b.val
      omega
    · show (b.val * 1024 + p.val) % 1024 = p.val
      omega
  right_inv c := Fin.ext (by
    show c.val / 1024 * 1024 + c.val % 1024 = c.val
    omega)

theorem tileEquiv_apply (b : Fin 8) (p : Fin 1024) : tileEquiv (b, p) = glob b p := rfl

/-- The largest similarity of row `row` with the rows of column tile b, the row itself counted as −∞. -/
def tileMax (reps : SReps.Idx → EReal) (row : Fin 8192) (b : Fin 8) : EReal :=
  Finset.univ.sup fun p : Fin 1024 => if glob b p = row then (⊥ : EReal) else sim reps row (glob b p)

/-- The hardest negative of a row is the largest of its eight tile maxima. -/
theorem hardNeg_eq_sup_tileMax (reps : SReps.Idx → EReal) (row : Fin 8192) :
    hardNeg reps row = Finset.univ.sup fun b : Fin 8 => tileMax reps row b := by
  have e : (Finset.univ : Finset (Fin 8192))
      = ((Finset.univ : Finset (Fin 8)) ×ˢ (Finset.univ : Finset (Fin 1024))).image tileEquiv := by
    rw [Finset.univ_product_univ, Finset.image_univ_equiv]
  unfold hardNeg tileMax
  rw [e, Finset.sup_image, Finset.sup_product_left]
  rfl

/-- The pair weights of row tile a against column tile b, strictly above the diagonal. -/
def tileSum (reps : SReps.Idx → EReal) (a b : Fin 8) : EReal :=
  ∑ r : Fin 1024, ∑ p : Fin 1024,
    if glob a r < glob b p then pairWeight (sim reps (glob a r) (glob b p)) else 0

/-- The pair weights of the rows of tile a against ALL columns, strictly above the diagonal. -/
def rowTileSum (reps : SReps.Idx → EReal) (a : Fin 8) : EReal :=
  ∑ r : Fin 1024, ∑ c : Fin 8192, if glob a r < c then pairWeight (sim reps (glob a r) c) else 0

/-- A row tile's sum over all columns is the sum of its eight tile sums. -/
theorem rowTileSum_eq_sum_tileSum (reps : SReps.Idx → EReal) (a : Fin 8) :
    rowTileSum reps a = ∑ b : Fin 8, tileSum reps a b := by
  have h : rowTileSum reps a = ∑ r : Fin 1024, ∑ b : Fin 8, ∑ p : Fin 1024,
      if glob a r < glob b p then pairWeight (sim reps (glob a r) (glob b p)) else 0 := by
    unfold rowTileSum
    refine Finset.sum_congr rfl fun r _ => ?_
    rw [← Equiv.sum_comp tileEquiv, Fintype.sum_prod_type]
    rfl
  rw [h]
  unfold tileSum
  exact Finset.sum_comm

/-- The whole uniformity sum is the sum of the eight row tiles' sums. -/
theorem uniformSum_eq_sum_rowTileSum (reps : SReps.Idx → EReal) :
    uniformSum reps = ∑ a : Fin 8, rowTileSum reps a := by
  unfold uniformSum rowTileSum
  rw [← Equiv.sum_comp tileEquiv, Fintype.sum_prod_type]
  rfl

end Cert.NTXent.Tiled

end
-- ==== Proof.TileFold.lean ====
/-
  The fold over the column tiles. Row tile a meets the eight column tiles j = 0 … 7 in turn. The running row maximum
  starts at −∞ and takes, at each tile, the maximum with that tile's row maxima (the global diagonal masked); the
  running sum starts at 0 and takes that tile's pair weights strictly above the global diagonal. After tile j the
  maximum is the largest of the first j + 1 tile maxima and the sum is the sum of the first j + 1 tile sums; after the
  last tile they are the row's hardest negative and the row tile's share of the uniformity sum, and the eight shares
  add up to the whole sum.
-/
import proofs.«154950_j89077621719714_1_alg».proof.Proof.Gen.KernelIdeal.Skeleton
import Idealize.ShloMosaic.Lib.ValueIdx
import Idealize.ShloMosaic.Lib.Pipeline.Value
import Idealize.ShloMosaic.PureOps.Ideal.Laws
import proofs.«154950_j89077621719714_1_alg».proof.Proof.TileMax
import proofs.«154950_j89077621719714_1_alg».proof.Proof.TileSum
import proofs.«154950_j89077621719714_1_alg».proof.Proof.FoldLaw

noncomputable section

namespace Cert.KernelIdeal.TileValue

open Idealize.ShloMosaic Idealize.ShloMosaic.ValueIdx Cert.KernelIdeal Cert.KernelIdeal.Gen

open Cert.NTXent Cert.NTXent.Tiled

/-- `X b` is tile b of the stacked embeddings: its row r is global row b·1024 + r. -/
def IsTiles (reps : SReps.Idx → EReal) (X : Fin 8 → Vec Ideal S1024x512 .bf16) : Prop :=
  ∀ (b : Fin 8) (r : Fin 1024) (k : Fin 512), X b (ix2 r k) = reps (ix2 (glob b r) k)

section
variable (reps : SReps.Idx → EReal) (X : Fin 8 → Vec Ideal S1024x512 .bf16)

/-- The dot product of a row of tile a with a row of tile b is the similarity of the two global rows. -/
theorem sim_tiles (hX : IsTiles reps X) (a b : Fin 8) (r p : Fin 1024) :
    ∑ k : Fin 512, X a (ix2 r k) * X b (ix2 p k) = sim reps (glob a r) (glob b p) := by
  unfold sim
  exact Finset.sum_congr rfl fun k _ => by rw [hX, hX]

/-- One step of the running maximum, at a grid point whose coordinates are (a, b): the old maximum of row r against the
    row's maximum over column tile b. -/
theorem maxStep (hX : IsTiles reps X) (i : grid0.Coords) (a b : Fin 8) (h0 : (i 0).val = a.val) (h1 : (i 1).val = b.val)
    (mprev : Vec Ideal S1024x1 .f32) (r : Fin 1024) :
    k0_pay8 (F := Ideal) i (X a) (X b) mprev (ix2 r 0) = max (mprev (ix2 r 0)) (tileMax reps (glob a r) b) := by
  rw [runMax_apply]
  refine congrArg (max (mprev (ix2 r 0))) ?_
  unfold tileMax
  refine congrArg _ (funext fun p => ?_)
  rw [h0, h1, sim_tiles reps X hX]
  by_cases h : a.val * 1024 + r.val = b.val * 1024 + p.val
  · rw [if_pos h, if_pos (Fin.ext h.symm)]
  · rw [if_neg h, if_neg (fun e => h (congrArg Fin.val e).symm)]

/-- One step of the running sum, at a grid point whose coordinates are (a, b): the old sum plus the pair weights of row
    tile a against column tile b. -/
theorem sumStep (hX : IsTiles reps X) (i : grid0.Coords) (a b : Fin 8) (h0 : (i 0).val = a.val) (h1 : (i 1).val = b.val)
    (uprev : Vec Ideal S1x1 .f32) :
    k0_pay1 (F := Ideal) (k0_pay9 (F := Ideal) i (X a) (X b)) uprev (ix2 0 0) = uprev (ix2 0 0) + tileSum reps a b := by
  rw [runSum_weight_apply]
  refine congrArg (uprev (ix2 0 0) + ·) ?_
  unfold tileSum
  refine Finset.sum_congr rfl fun r _ => Finset.sum_congr rfl fun p _ => ?_
  rw [h0, h1, sim_tiles reps X hX]
  by_cases h : a.val * 1024 + r.val < b.val * 1024 + p.val
  · rw [if_pos h, if_pos (show glob a r < glob b p from h)]
  · rw [if_neg h, if_neg (show ¬ glob a r < glob b p from h)]

end

/-! ## The grid points of one row tile, and the accumulators as the body steps them -/

theorem grid_N : grid0.N = 64 := by decide

/-- The grid point with coordinates (a, j): point number 8·a + j. -/
def point (a j : Fin 8) : grid0.Coords := grid0.coords ⟨8 * a.val + j.val, by rw [grid_N]; omega⟩

theorem point_row (a j : Fin 8) : (point a j 0).val = a.val := by
  have s : grid0.stride 0 = 8 := by decide
  show (8 * a.val + j.val) / grid0.stride 0 % 8 = a.val
  rw [s]; omega

theorem point_col (a j : Fin 8) : (point a j 1).val = j.val := by
  have s : grid0.stride 1 = 1 := by decide
  show (8 * a.val + j.val) / grid0.stride 1 % 8 = j.val
  rw [s]; omega

/-- The running maxima of row tile a after column tile j: reset to −∞ before tile 0, then stepped tile by tile. -/
def mAcc (X : Fin 8 → Vec Ideal S1024x512 .bf16) (a : Fin 8) : (j : Nat) → j < 8 → Vec Ideal S1024x1 .f32
  | 0, _ => k0_pay8 (F := Ideal) (point a 0) (X a) (X 0) (k0_pay3 (F := Ideal))
  | j + 1, h => k0_pay8 (F := Ideal) (point a ⟨j + 1, h⟩) (X a) (X ⟨j + 1, h⟩) (mAcc X a j (by omega))

/-- The running sum of row tile a after column tile j: reset to 0 before tile 0, then stepped tile by tile. -/
def uAcc (X : Fin 8 → Vec Ideal S1024x512 .bf16) (a : Fin 8) : (j : Nat) → j < 8 → Vec Ideal S1x1 .f32
  | 0, _ => k0_pay1 (F := Ideal) (k0_pay9 (F := Ideal) (point a 0) (X a) (X 0)) (k0_pay4 (F := Ideal))
  | j + 1, h => k0_pay1 (F := Ideal) (k0_pay9 (F := Ideal) (point a ⟨j + 1, h⟩) (X a) (X ⟨j + 1, h⟩)) (uAcc X a j (by omega))

/-! ## The tiles met so far -/

theorem tiles_zero : (Finset.univ.filter fun b : Fin 8 => b.val ≤ 0) = {(0 : Fin 8)} := by decide

theorem tiles_succ (j : Nat) (h : j + 1 < 8) :
    (Finset.univ.filter fun b : Fin 8 => b.val ≤ j + 1)
      = insert (⟨j + 1, h⟩ : Fin 8) (Finset.univ.filter fun b : Fin 8 => b.val ≤ j) := by
  ext b
  simp only [Finset.mem_filter, Finset.mem_univ, true_and, Finset.mem_insert, Fin.ext_iff]
  omega

theorem tiles_new (j : Nat) (h : j + 1 < 8) :
    (⟨j + 1, h⟩ : Fin 8) ∉ Finset.univ.filter fun b : Fin 8 => b.val ≤ j := by
  simp only [Finset.mem_filter, Finset.mem_univ, true_and]
  omega

theorem tiles_all : (Finset.univ.filter fun b : Fin 8 => b.val ≤ 7) = Finset.univ :=
  Finset.filter_true_of_mem fun b _ => by omega

section
variable (reps : SReps.Idx → EReal) (X : Fin 8 → Vec Ideal S1024x512 .bf16)

/-- After column tile j the running maximum of row r is the largest of the first j + 1 tile maxima. -/
theorem mAcc_apply (hX : IsTiles reps X) (a : Fin 8) (r : Fin 1024) : ∀ (j : Nat) (h : j < 8),
    mAcc X a j h (ix2 r 0)
      = (Finset.univ.filter fun b : Fin 8 => b.val ≤ j).sup fun b => tileMax reps (glob a r) b
  | 0, h => by
    show k0_pay8 (F := Ideal) (point a 0) (X a) (X 0) (k0_pay3 (F := Ideal)) (ix2 r 0) = _
    rw [maxStep reps X hX (point a 0) a 0 (point_row a 0) (point_col a 0), initMax_apply, tiles_zero,
      Finset.sup_singleton]
    exact max_eq_right bot_le
  | j + 1, h => by
    show k0_pay8 (F := Ideal) (point a ⟨j + 1, h⟩) (X a) (X ⟨j + 1, h⟩) (mAcc X a j (by omega)) (ix2 r 0) = _
    rw [maxStep reps X hX (point a ⟨j + 1, h⟩) a ⟨j + 1, h⟩ (point_row a _) (point_col a _),
      mAcc_apply hX a r j (by omega), tiles_succ j h, Finset.sup_insert]
    exact max_comm _ _

/-- After the last column tile the running maximum of row r of tile a is the hardest negative of global row a·1024 + r. -/
theorem mAcc_final (hX : IsTiles reps X) (a : Fin 8) (r : Fin 1024) :
    mAcc X a 7 (by norm_num) (ix2 r 0) = hardNeg reps (glob a r) := by
  rw [mAcc_apply reps X hX a r 7 (by norm_num), tiles_all, ← hardNeg_eq_sup_tileMax]

/-- After column tile j the running sum is the sum of the first j + 1 tile sums. -/
theorem uAcc_apply (hX : IsTiles reps X) (a : Fin 8) : ∀ (j : Nat) (h : j < 8),
    uAcc X a j h (ix2 0 0) = ∑ b ∈ Finset.univ.filter fun b : Fin 8 => b.val ≤ j, tileSum reps a b
  | 0, h => by
    show k0_pay1 (F := Ideal) (k0_pay9 (F := Ideal) (point a 0) (X a) (X 0)) (k0_pay4 (F := Ideal)) (ix2 0 0) = _
    rw [sumStep reps X hX (point a 0) a 0 (point_row a 0) (point_col a 0), initSum_apply, tiles_zero,
      Finset.sum_singleton, zero_add]
  | j + 1, h => by
    show k0_pay1 (F := Ideal) (k0_pay9 (F := Ideal) (point a ⟨j + 1, h⟩) (X a) (X ⟨j + 1, h⟩)) (uAcc X a j (by omega)) (ix2 0 0) = _
    rw [sumStep reps X hX (point a ⟨j + 1, h⟩) a ⟨j + 1, h⟩ (point_row a _) (point_col a _),
      uAcc_apply hX a j (by omega), tiles_succ j h, Finset.sum_insert (tiles_new j h)]
    exact add_comm _ _

/-- After the last column tile the running sum is row tile a's pair weights against ALL 8192 columns. -/
theorem uAcc_final (hX : IsTiles reps X) (a : Fin 8) :
    uAcc X a 7 (by norm_num) (ix2 0 0) = rowTileSum reps a := by
  rw [uAcc_apply reps X hX a 7 (by norm_num), tiles_all, ← rowTileSum_eq_sum_tileSum]

/-- The eight row tiles' final sums add up to the uniformity sum. -/
theorem sum_uAcc_final (hX : IsTiles reps X) :
    ∑ a : Fin 8, uAcc X a 7 (by norm_num) (ix2 0 0) = uniformSum reps := by
  rw [uniformSum_eq_sum_rowTileSum]
  exact Finset.sum_congr rfl fun a _ => uAcc_final reps X hX a

end

end Cert.KernelIdeal.TileValue

end
-- ==== Proof.TileBlocks.lean ====
/-
  The blocks the two input windows hold are tiles of ONE array: the stacked embeddings, 8192 rows of 512. At grid
  point t = 8·a + j the row window's index map gives block (a, 0) and the column window's gives block (j, 0); a block of
  1024 × 512 entries at block index (b, 0) is rows b·1024 … b·1024 + 1023 of the array, all 512 columns. So the row
  window holds tile a and the column window holds tile j of the array, entry by entry.
-/
import proofs.«154950_j89077621719714_1_alg».proof.Proof.KISetup
import proofs.«154950_j89077621719714_1_alg».proof.Proof.TileFold

noncomputable section

namespace Cert.KernelIdeal.TileValue

open Idealize.ShloMosaic Idealize.ShloMosaic.ValueIdx Idealize.ShloMosaic.TcCoe Idealize.SL.Sem
open Cert.KernelIdeal Cert.KernelIdeal.Gen Cert.KernelIdeal.Hand Cert.NTXent Cert.NTXent.Tiled

variable (m : (ℓ : Loc nD τ sig) → Buf (Elt Ideal) ℓ)

/-- The block indices of the two input windows at point t: (t div 8, 0) and (t mod 8, 0). -/
theorem index_facts : ∀ t : Fin cfg0.N,
    (win0_0.index t 0 = t.val / 8 ∧ win0_0.index t 1 = 0) ∧ (win0_1.index t 0 = t.val % 8 ∧ win0_1.index t 1 = 0) :=
  (by decide +kernel : ∀ t : Fin grid0.N,
    (win0_0.index t 0 = t.val / 8 ∧ win0_0.index t 1 = 0) ∧ (win0_1.index t 0 = t.val % 8 ∧ win0_1.index t 1 = 0))

/-- The stacked embeddings as the region finds them, as a function of (row, column). -/
abbrev stacked (c : Dev nD) : SReps.Idx → EReal := V m c main_v11

/-- Tile b of the stacked embeddings: rows b·1024 … b·1024 + 1023. -/
def tileOf (c : Dev nD) (b : Fin 8) : Vec Ideal S1024x512 .bf16 :=
  fun y => stacked m c (ix2 (glob b ⟨(y 0).val, idx2_lt0 y⟩) ⟨(y 1).val, idx2_lt1 y⟩)

/-- The tiles are tiles of the stacked embeddings. -/
theorem tileOf_isTiles (c : Dev nD) : IsTiles (stacked m c) (tileOf m c) := fun _ _ _ => rfl

/-- At point t = 8·a + j the row window holds tile a, entry by entry. -/
theorem rowBlock_apply (c : Dev nD) (t : Fin cfg0.N) (a j : Fin 8) (ht : t.val = 8 * a.val + j.val) (r : Fin 1024) (k : Fin 512) :
    iblk m c 0 t (ix2 r k) = stacked m c (ix2 (glob a r) k) := by
  have hi := (index_facts t).1
  unfold iblk
  rw [View.read_apply]
  show V m c main_v11 (((cfg0.win 0).blk t).view.emb (ix2 r k)) = V m c main_v11 (ix2 (glob a r) k)
  refine congrArg _ (funext fun x => Fin.ext ?_)
  match x with
  | ⟨0, _⟩ =>
    show win0_0.index t 0 * 1024 + 1 * r.val = a.val * 1024 + r.val
    rw [hi.1]; omega
  | ⟨1, _⟩ =>
    show win0_0.index t 1 * 512 + 1 * k.val = k.val
    rw [hi.2]; omega

/-- At point t = 8·a + j the column window holds tile j, entry by entry. -/
theorem colBlock_apply (c : Dev nD) (t : Fin cfg0.N) (a j : Fin 8) (ht : t.val = 8 * a.val + j.val) (r : Fin 1024) (k : Fin 512) :
    iblk m c 1 t (ix2 r k) = stacked m c (ix2 (glob j r) k) := by
  have hi := (index_facts t).2
  unfold iblk
  rw [View.read_apply]
  show V m c main_v11 (((cfg0.win 1).blk t).view.emb (ix2 r k)) = V m c main_v11 (ix2 (glob j r) k)
  refine congrArg _ (funext fun x => Fin.ext ?_)
  match x with
  | ⟨0, _⟩ =>
    show win0_1.index t 0 * 1024 + 1 * r.val = j.val * 1024 + r.val
    rw [hi.1]; omega
  | ⟨1, _⟩ =>
    show win0_1.index t 1 * 512 + 1 * k.val = k.val
    rw [hi.2]; omega

/-- The row window's block at point t = 8·a + j IS tile a. -/
theorem rowBlock_eq (c : Dev nD) (t : Fin cfg0.N) (a j : Fin 8) (ht : t.val = 8 * a.val + j.val) :
    (iblk m c 0 t : Vec Ideal S1024x512 .bf16) = tileOf m c a := by
  funext y
  obtain ⟨r, k, rfl⟩ : ∃ (r : Fin 1024) (k : Fin 512), y = ix2 r k := ⟨y 0, y 1, eq_ix2 y⟩
  exact rowBlock_apply m c t a j ht r k

/-- The column window's block at point t = 8·a + j IS tile j. -/
theorem colBlock_eq (c : Dev nD) (t : Fin cfg0.N) (a j : Fin 8) (ht : t.val = 8 * a.val + j.val) :
    (iblk m c 1 t : Vec Ideal S1024x512 .bf16) = tileOf m c j := by
  funext y
  obtain ⟨r, k, rfl⟩ : ∃ (r : Fin 1024) (k : Fin 512), y = ix2 r k := ⟨y 0, y 1, eq_ix2 y⟩
  exact colBlock_apply m c t a j ht r k

/-- The grid point number t = 8·a + j has coordinates (a, j). -/
theorem coords_of (t : Fin cfg0.N) (a j : Fin 8) (ht : t.val = 8 * a.val + j.val) :
    (grid0.coords t 0).val = a.val ∧ (grid0.coords t 1).val = j.val := by
  have s0 : grid0.stride 0 = 8 := by decide
  have s1 : grid0.stride 1 = 1 := by decide
  constructor
  · show t.val / grid0.stride 0 % 8 = a.val
    rw [s0, ht]; omega
  · show t.val / grid0.stride 1 % 8 = j.val
    rw [s1, ht]; omega

/-- One step of the running maximum AT grid point t = 8·a + j, over the blocks the two windows hold there: the old
    maximum of row r against the row's maximum over column tile j of the stacked embeddings. -/
theorem maxStep_at (c : Dev nD) (t : Fin cfg0.N) (a j : Fin 8) (ht : t.val = 8 * a.val + j.val)
    (mprev : Vec Ideal S1024x1 .f32) (r : Fin 1024) :
    k0_pay8 (F := Ideal) (grid0.coords t) (iblk m c 0 t) (iblk m c 1 t) mprev (ix2 r 0)
      = max (mprev (ix2 r 0)) (tileMax (stacked m c) (glob a r) j) := by
  have e0 : (iblk m c 0 t : Vec Ideal S1024x512 .bf16) = tileOf m c a := rowBlock_eq m c t a j ht
  have e1 : (iblk m c 1 t : Vec Ideal S1024x512 .bf16) = tileOf m c j := colBlock_eq m c t a j ht
  rw [e0, e1]
  exact maxStep (stacked m c) (tileOf m c) (tileOf_isTiles m c) (grid0.coords t) a j
    (coords_of t a j ht).1 (coords_of t a j ht).2 mprev r

/-- One step of the running sum AT grid point t = 8·a + j: the old sum plus the pair weights of row tile a against
    column tile j of the stacked embeddings. -/
theorem sumStep_at (c : Dev nD) (t : Fin cfg0.N) (a j : Fin 8) (ht : t.val = 8 * a.val + j.val)
    (uprev : Vec Ideal S1x1 .f32) :
    k0_pay1 (F := Ideal) (k0_pay9 (F := Ideal) (grid0.coords t) (iblk m c 0 t) (iblk m c 1 t)) uprev (ix2 0 0)
      = uprev (ix2 0 0) + tileSum (stacked m c) a j := by
  have e0 : (iblk m c 0 t : Vec Ideal S1024x512 .bf16) = tileOf m c a := rowBlock_eq m c t a j ht
  have e1 : (iblk m c 1 t : Vec Ideal S1024x512 .bf16) = tileOf m c j := colBlock_eq m c t a j ht
  rw [e0, e1]
  exact sumStep (stacked m c) (tileOf m c) (tileOf_isTiles m c) (grid0.coords t) a j
    (coords_of t a j ht).1 (coords_of t a j ht).2 uprev

end Cert.KernelIdeal.TileValue

end
-- ==== Proof.KIValue.lean ====
/-
  The two result arrays after the run. Read as mathematics, the fold over a row tile's eight column tiles gives the
  hardest negative of each of the tile's 1024 rows and the tile's share of the uniformity sum. The last point of each
  row tile writes these back to its block of the result arrays, and the eight blocks cover each array: the first result
  array holds every row's hardest negative, the second every row tile's share of the sum.
-/
import proofs.«154950_j89077621719714_1_alg».proof.Proof.KIPieces
import proofs.«154950_j89077621719714_1_alg».proof.Proof.TileBlocks

set_option maxRecDepth 16384

noncomputable section

namespace Cert.KernelIdeal.Hand

open Cert.KernelIdeal Cert.KernelIdeal.Gen Cert.KernelIdeal.TileValue Cert.NTXent Cert.NTXent.Tiled
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The folds, as mathematics

Within row tile `q` the maximum accumulator after column tile `j` holds, for each row, the largest of the first
`j + 1` tile maxima; the sum accumulator holds the sum of the first `j + 1` tile sums. -/

theorem accM_apply (c : Dev nD) (q : Fin 8) (r : Fin 1024) : ∀ (j : ℕ) (hj : j < 8) (h : 8 * q.val + j < cfg0.N),
    Pipeline.accAt (aM m c) (gM m c) (8 * q.val) j h (ix2 r 0)
      = (Finset.univ.filter fun b : Fin 8 => b.val ≤ j).sup fun b => tileMax (stacked m c) (glob q r) b
  | 0, hj, h => by
    rw [Pipeline.accAt_zero]
    unfold aM
    rw [maxStep_at m c ⟨8 * q.val, h⟩ q 0 rfl, initMax_apply, tiles_zero, Finset.sup_singleton]
    exact max_eq_right bot_le
  | j + 1, hj, h => by
    rw [Pipeline.accAt_succ]
    refine (maxStep_at m c ⟨8 * q.val + (j + 1), h⟩ q ⟨j + 1, hj⟩ rfl _ r).trans ?_
    rw [accM_apply c q r j (by omega) (Nat.lt_of_succ_lt h), tiles_succ j hj, Finset.sup_insert]
    exact max_comm _ _

theorem accU_apply (c : Dev nD) (q : Fin 8) : ∀ (j : ℕ) (hj : j < 8) (h : 8 * q.val + j < cfg0.N),
    Pipeline.accAt (aU m c) (gU m c) (8 * q.val) j h (ix2 0 0)
      = ∑ b ∈ Finset.univ.filter fun b : Fin 8 => b.val ≤ j, tileSum (stacked m c) q b
  | 0, hj, h => by
    rw [Pipeline.accAt_zero]
    unfold aU
    rw [sumStep_at m c ⟨8 * q.val, h⟩ q 0 rfl, initSum_apply, tiles_zero, Finset.sum_singleton, zero_add]
  | j + 1, hj, h => by
    rw [Pipeline.accAt_succ]
    refine (sumStep_at m c ⟨8 * q.val + (j + 1), h⟩ q ⟨j + 1, hj⟩ rfl _).trans ?_
    rw [accU_apply c q j (by omega) (Nat.lt_of_succ_lt h), tiles_succ j hj, Finset.sum_insert (tiles_new j hj)]
    exact add_comm _ _

/-- At the last point of row tile `q` output 2's buffer holds, in row `r`, the hardest negative of global row
    `q·1024 + r`. -/
theorem out2_value (c : Dev nD) (n : ℕ) (hn : n < cfg0.N) (q : Fin 8) (e : n = 8 * q.val + 7) (r : Fin 1024) :
    (outsAt0 m c n hn).1 (ix2 r 0) = hardNeg (stacked m c) (glob q r) := by
  subst e
  rw [out2_fold m c q.val hn, accM_apply m c q r 7 (by norm_num) hn, tiles_all, ← hardNeg_eq_sup_tileMax]

/-- At the last point of row tile `q` output 3's buffer holds the row tile's share of the uniformity sum. -/
theorem out3_value (c : Dev nD) (n : ℕ) (hn : n < cfg0.N) (q : Fin 8) (e : n = 8 * q.val + 7) :
    (outsAt0 m c n hn).2.1 (ix3 0 0 0) = rowTileSum (stacked m c) q := by
  subst e
  rw [out3_fold m c q.val hn, outSum_apply, accU_apply m c q 7 (by norm_num) hn, tiles_all, ← rowTileSum_eq_sum_tileSum]

/-! ## From the blocks to the two result arrays -/

/-- The block indices of the two output windows at point `t`: (t div 8, 0) and (t div 8, 0, 0). -/
theorem outIndex_facts : ∀ t : Fin cfg0.N,
    (win0_2.index t 0 = t.val / 8 ∧ win0_2.index t 1 = 0)
      ∧ (win0_3.index t 0 = t.val / 8 ∧ win0_3.index t 1 = 0 ∧ win0_3.index t 2 = 0) :=
  (by decide +kernel : ∀ t : Fin grid0.N,
    (win0_2.index t 0 = t.val / 8 ∧ win0_2.index t 1 = 0)
      ∧ (win0_3.index t 0 = t.val / 8 ∧ win0_3.index t 1 = 0 ∧ win0_3.index t 2 = 0))

/-- The hardest negatives of all 8192 rows, as contents of the first result array. -/
def hardNegArr (c : Dev nD) : S8192x1.Idx → EReal := fun i => hardNeg (stacked m c) ⟨(i 0).val, idx2_lt0 i⟩

/-- The eight row tiles' shares of the uniformity sum, as contents of the second result array. -/
def rowSumArr (c : Dev nD) : S8x1x1.Idx → EReal := fun i => rowTileSum (stacked m c) ⟨(i 0).val, (i 0).isLt⟩

/-- An index of the first result array is in point `t`'s block iff each coordinate is in the block's range. -/
theorem mem_blk2 (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v15_0).slice (win0_2.rect t)).set ↔ _
  rw [View.set_slice_whole, Rect.mem_set_unit]
  exact Iff.rfl

theorem mem_blk3 (t : Fin cfg0.N) (i : S8x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v15_1).slice (win0_3.rect t)).set ↔ _
  rw [View.set_slice_whole, Rect.mem_set_unit]
  exact Iff.rfl

/-- What a point that writes output 2 back writes: its block of the hardest negatives. -/
theorem flushed2_eq (c : Dev nD) (t : Fin cfg0.N) (hf : (cfg0.win 2).flush t = true) :
    (dats m 0 c).flushed 2 t = ((cfg0.win 2).blk t).view.read (Elt Ideal) (hardNegArr m c) := by
  have h7 : t.val % 8 = 7 := (flush0_2 t).mp hf
  have hN : t.val < 64 := lt_of_lt_of_eq t.isLt (show cfg0.N = 64 from N_0)
  obtain ⟨⟨e0, e1⟩, -⟩ := outIndex_facts t
  show (cfg0.win 2).cut (grid0.coords t) ((dats m 0 c).after 2 t) = _
  rw [after0_2]
  refine funext fun (y : S1024x1.Idx) => ?_
  rw [View.read_apply]
  obtain ⟨r, rfl⟩ : ∃ r : Fin 1024, y = ix2 r 0 :=
    ⟨y 0, (eq_ix2 y).trans (by rw [Fin.fin_one_eq_zero (y 1)]; rfl)⟩
  show (outsAt0 m c t.val t.isLt).1 (ix2 r 0) = hardNegArr m c (((cfg0.win 2).blk t).view.emb (ix2 r 0))
  rw [out2_value m c t.val t.isLt ⟨t.val / 8, by omega⟩ (by dsimp only; omega) r]
  unfold hardNegArr
  refine congrArg _ (Fin.ext ?_)
  show t.val / 8 * 1024 + r.val = win0_2.index t 0 * 1024 + 1 * r.val
  rw [e0]; omega

/-- What a point that writes output 3 back writes: its entry of the row tiles' sums. -/
theorem flushed3_eq (c : Dev nD) (t : Fin cfg0.N) (hf : (cfg0.win 3).flush t = true) :
    (dats m 0 c).flushed 3 t = ((cfg0.win 3).blk t).view.read (Elt Ideal) (rowSumArr m c) := by
  have h7 : t.val % 8 = 7 := (flush0_3 t).mp hf
  have hN : t.val < 64 := lt_of_lt_of_eq t.isLt (show cfg0.N = 64 from N_0)
  obtain ⟨-, e0, e1, e2⟩ := outIndex_facts t
  show (cfg0.win 3).cut (grid0.coords t) ((dats m 0 c).after 3 t) = _
  rw [after0_3]
  refine funext fun (y : S1x1x1.Idx) => ?_
  rw [View.read_apply]
  obtain rfl : y = ix3 0 0 0 :=
    (eq_ix3 y).trans (by rw [Fin.fin_one_eq_zero (y 0), Fin.fin_one_eq_zero (y 1), Fin.fin_one_eq_zero (y 2)]; rfl)
  show (outsAt0 m c t.val t.isLt).2.1 (ix3 0 0 0) = rowSumArr m c (((cfg0.win 3).blk t).view.emb (ix3 0 0 0))
  rw [out3_value m c t.val t.isLt ⟨t.val / 8, by omega⟩ (by dsimp only; omega)]
  unfold rowSumArr
  refine congrArg _ (Fin.ext ?_)
  show t.val / 8 = win0_3.index t 0 * 1 + 1 * 0
  rw [e0]; omega

/-- Every row of the first result array is in the block of the last point of its row tile. -/
theorem cover2 (i : S8192x1.Idx) :
    ∃ t : Fin cfg0.N, (cfg0.win 2).flush t = true ∧ i ∈ ((cfg0.win 2).blk t).view.set := by
  have h0 : (i 0).val < 8192 := idx2_lt0 i
  have h1 : (i 1).val < 1 := idx2_lt1 i
  obtain ⟨t, ht⟩ : ∃ t : Fin cfg0.N, t.val = 8 * ((i 0).val / 1024) + 7 :=
    ⟨⟨8 * ((i 0).val / 1024) + 7, by rw [show cfg0.N = 64 from N_0]; omega⟩, rfl⟩
  obtain ⟨⟨e0, e1⟩, -⟩ := outIndex_facts t
  refine ⟨t, (flush0_2 t).mpr (by omega), ?_⟩
  rw [mem_blk2]
  intro a
  match a with
  | ⟨0, _⟩ =>
    show win0_2.index t 0 * 1024 ≤ (i 0).val ∧ (i 0).val < win0_2.index t 0 * 1024 + 1024
    rw [e0]; omega
  | ⟨1, _⟩ =>
    show win0_2.index t 1 * 1 ≤ (i 1).val ∧ (i 1).val < win0_2.index t 1 * 1 + 1
    rw [e1]; omega

/-- Every entry of the second result array is the block of the last point of its row tile. -/
theorem cover3 (i : S8x1x1.Idx) :
    ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 1 := (i 2).isLt
  obtain ⟨t, ht⟩ : ∃ t : Fin cfg0.N, t.val = 8 * (i 0).val + 7 :=
    ⟨⟨8 * (i 0).val + 7, by rw [show cfg0.N = 64 from N_0]; omega⟩, rfl⟩
  obtain ⟨-, e0, e1, e2⟩ := outIndex_facts t
  refine ⟨t, (flush0_3 t).mpr (by omega), ?_⟩
  rw [mem_blk3]
  intro a
  match a with
  | ⟨0, _⟩ =>
    show win0_3.index t 0 * 1 ≤ (i 0).val ∧ (i 0).val < win0_3.index t 0 * 1 + 1
    rw [e0]; omega
  | ⟨1, _⟩ =>
    show win0_3.index t 1 * 1 ≤ (i 1).val ∧ (i 1).val < win0_3.index t 1 * 1 + 1
    rw [e1]; omega
  | ⟨2, _⟩ =>
    show win0_3.index t 2 * 1 ≤ (i 2).val ∧ (i 2).val < win0_3.index t 2 * 1 + 1
    rw [e2]; omega

/-- THE FIRST RESULT ARRAY after the run: every row's hardest negative. -/
theorem final2 (c : Dev nD) : (dats m 0 c).arrAt 2 cfg0.N = hardNegArr m c :=
  (dats m 0 c).arrAt_eq_of_cover 2 (hardNegArr m c) (flushed2_eq m c) cover2

/-- THE SECOND RESULT ARRAY after the run: every row tile's share of the uniformity sum. -/
theorem final3 (c : Dev nD) : (dats m 0 c).arrAt 3 cfg0.N = rowSumArr m c :=
  (dats m 0 c).arrAt_eq_of_cover 3 (rowSumArr m c) (flushed3_eq m c) cover3

end Cert.KernelIdeal.Hand

end
-- ==== Proof.RefNorm.lean ====
/-
  Row normalisation, as one function: every row of a 4096 × 512 matrix divided by the larger of its Euclidean norm and
  the constant 10⁻¹² (kept as its binary word). Both halves of the stacked embeddings are this function of an input
  matrix; nothing below ever opens it — the two sides of the comparison apply it to the same inputs.
-/
import proofs.«154950_j89077621719714_1_alg».proof.Proof.Spec

noncomputable section

namespace Cert.ReferenceIdeal.RefValue

open Idealize.ShloMosaic Cert.NTXent

/-- A column of 4096 entries. -/
abbrev SCol : Shape := ⟨2, ![4096, 1]⟩
/-- A vector of 4096 entries. -/
abbrev SVec : Shape := ⟨1, ![4096]⟩
/-- The scalar shape. -/
abbrev SScalar : Shape := ⟨0, ![]⟩

theorem normRows_reduces : SHalf.ReducesTo [1] SVec := by decide
theorem normRows_scalar : 0 < SScalar.numel := by decide
theorem normRows_bcast_vec_col : SVec.BroadcastsInDim SCol (![0] : Fin 1 → Fin SCol.rank) := by decide
theorem normRows_bcast_scalar_col : SScalar.BroadcastsInDim SCol (![] : Fin 0 → Fin SCol.rank) := by decide
theorem normRows_bcast_col_half : SCol.BroadcastsInDim SHalf (![0, 1] : Fin 2 → Fin SHalf.rank) := by decide

/-- `x` with every row divided by `max (sqrt (Σ_k x[r,k]²)) 10⁻¹²`. -/
def normRows (x : SHalf.Idx → EReal) : SHalf.Idx → EReal :=
  Host.divf (F := Ideal) (φ := .f32) x
    (broadcastInDim SHalf ![0, 1] normRows_bcast_col_half
      (maximumf (F := Ideal) (φ := .f32)
        (Host.sqrt (F := Ideal) (φ := .f32)
          (broadcastInDim SCol ![0] normRows_bcast_vec_col
            (Host.reduceAdd (F := Ideal) (φ := .f32) (mulf (F := Ideal) (φ := .f32) x x)
              (constant (F := Ideal) SScalar .f32 0x00000000#32) normRows_reduces normRows_scalar)))
        (broadcastInDim SCol ![] normRows_bcast_scalar_col (constant (F := Ideal) SScalar .f32 0x2B8CBCCC#32))))

end Cert.ReferenceIdeal.RefValue

end
-- ==== Proof.RefStack.lean ====
/-
  Stacking two 4096 × 512 matrices on top of each other, read entry by entry: rows 0 … 4095 of the result are the first
  matrix's, rows 4096 … 8191 are the second's rows 0 … 4095. Joining along the first axis is exactly the specification's
  `stack`.
-/
import proofs.«154950_j89077621719714_1_alg».proof.Proof.Spec
import Idealize.ShloMosaic.Lib.Pipeline.Value

noncomputable section

namespace Cert.ReferenceIdeal.RefValue

open Idealize.ShloMosaic Idealize.ShloMosaic.ValueIdx Cert.NTXent

/-- The join of two halves along the rows is `stack`: a row below 4096 comes from the first half at the same place,
    a row from 4096 on from the second half, 4096 rows up. -/
theorem concatenate_eq_stack (zi zj : SHalf.Idx → EReal) (h : Shape.Concatenates [SHalf, SHalf] SReps 0) :
    concatenate SReps 0 [⟨SHalf, zi⟩, ⟨SHalf, zj⟩] h = stack zi zj := by
  funext j
  have hlt := idx2_lt0 j
  unfold stack
  by_cases hj : (j 0).val < 4096
  · rw [if_pos hj]
    exact concatenate_pair_apply_left 0 zi zj h j rfl (ix2 (halfRow (j 0)) (j 1)) (fun b => by
      match b with
      | ⟨0, _⟩ => exact Nat.mod_eq_of_lt hj
      | ⟨1, _⟩ => rfl)
  · rw [if_neg hj]
    exact concatenate_pair_apply_right 0 zi zj h j rfl rfl (ix2 (halfRow (j 0)) (j 1))
      (fun b hb => by
        match b with
        | ⟨0, _⟩ => exact absurd rfl hb
        | ⟨1, _⟩ => rfl)
      (by show (j 0).val % 4096 + 4096 = (j 0).val; omega)

/-- Row `r < 4096` of the stack is row `r` of the first half. -/
theorem stack_upper (zi zj : SHalf.Idx → EReal) (r : Fin 8192) (hr : r.val < 4096) (k : Fin 512) :
    stack zi zj (ix2 r k) = zi (ix2 (halfRow r) k) := by
  unfold stack; exact if_pos hr

/-- Row `r ≥ 4096` of the stack is row `r − 4096` of the second half. -/
theorem stack_lower (zi zj : SHalf.Idx → EReal) (r : Fin 8192) (hr : ¬ r.val < 4096) (k : Fin 512) :
    stack zi zj (ix2 r k) = zj (ix2 (halfRow r) k) := by
  unfold stack; exact if_neg hr

/-- The similarity of a row of the upper half with its partner 4096 rows below is the positive of that row: the
    dot product of the two halves' rows of the same number. -/
theorem sim_stack_partner_upper (zi zj : SHalf.Idx → EReal) (r c : Fin 8192) (hr : r.val < 4096)
    (hc : c.val = r.val + 4096) : sim (stack zi zj) r c = posDot zi zj r := by
  unfold sim posDot
  refine Finset.sum_congr rfl fun k _ => ?_
  rw [stack_upper zi zj r hr, stack_lower zi zj c (by omega)]
  have e : halfRow c = halfRow r := Fin.ext (by show c.val % 4096 = r.val % 4096; omega)
  rw [e]

/-- The similarity of a row of the lower half with its partner 4096 rows above is the same dot product, the factors
    in the other order. -/
theorem sim_stack_partner_lower (zi zj : SHalf.Idx → EReal) (r c : Fin 8192) (hr : ¬ r.val < 4096)
    (hc : c.val + 4096 = r.val) : sim (stack zi zj) r c = posDot zi zj r := by
  unfold sim posDot
  refine Finset.sum_congr rfl fun k _ => ?_
  rw [stack_lower zi zj r hr, stack_upper zi zj c (by omega)]
  have e : halfRow c = halfRow r := Fin.ext (by show c.val % 4096 = r.val % 4096; omega)
  rw [e, mul_comm]

end Cert.ReferenceIdeal.RefValue

end
-- ==== Proof.RefSim.lean ====
/-
  The reference's stacked embeddings and its similarity matrix.

  The reference normalises the rows of its two inputs, stacks the results into `reps` (8192 × 512), and multiplies
  `reps` by its own transpose. Read entry by entry: `reps` is the specification's `stack` of the two normalised
  halves, and entry (r, c) of the product is the dot product of rows r and c of `reps`, the specification's `sim`.
-/
import proofs.«154950_j89077621719714_1_alg».proof.Proof.RefReadP
import proofs.«154950_j89077621719714_1_alg».proof.Proof.RefNorm
import proofs.«154950_j89077621719714_1_alg».proof.Proof.RefStack

noncomputable section

namespace Cert.ReferenceIdeal.RefValue

open Cert.ReferenceIdeal Cert.ReferenceIdeal.Gen Cert.ReferenceIdeal.ReadP Idealize.ShloMosaic Idealize.ShloMosaic.ValueIdx
open Cert.NTXent

/-- The first normalised half is `normRows` of the first input. -/
theorem main_v4_eq (x0 : SHalf.Idx → EReal) : val_main_v4 (F := Ideal) x0 = normRows x0 := rfl

/-- The second normalised half is `normRows` of the second input. -/
theorem main_v9_eq (x1 : SHalf.Idx → EReal) : val_main_v9 (F := Ideal) x1 = normRows x1 := rfl

/-- The stacked embeddings of the reference, as a function of the two inputs. -/
def reps (x0 x1 : SHalf.Idx → EReal) : SReps.Idx → EReal := stack (normRows x0) (normRows x1)

/-- The reference's stacked array is `reps`. -/
theorem main_v10_eq (x0 x1 : SHalf.Idx → EReal) : val_main_v10 (F := Ideal) x0 x1 = reps x0 x1 := by
  unfold val_main_v10 reps
  rw [main_v4_eq, main_v9_eq]
  exact concatenate_eq_stack (normRows x0) (normRows x1) _

/-- Entry (r, c) of the reference's product of `reps` with its transpose is the similarity of rows r and c. -/
theorem main_v12_apply (x0 x1 : SHalf.Idx → EReal) (r c : Fin 8192) :
    val_main_v12 (F := Ideal) x0 x1 (ix2 r c) = sim (reps x0 x1) r c := by
  rw [val_main_v12_apply]
  unfold sim
  refine Finset.sum_congr rfl fun k _ => ?_
  rw [val_main_v11_apply, main_v10_eq]
  have e1 : lidx_main_v12 (ix2 r c) k = ix2 r k :=
    funext fun a => Fin.ext (by match a with | ⟨0, _⟩ => rfl | ⟨1, _⟩ => rfl)
  have e2 : idx_main_v11 (ridx_main_v12 (ix2 r c) k) = ix2 c k :=
    funext fun a => Fin.ext (by match a with | ⟨0, _⟩ => rfl | ⟨1, _⟩ => rfl)
  rw [e1, e2]

end Cert.ReferenceIdeal.RefValue

end
-- ==== Proof.RefWords.lean ====
/-
  Two small tools for reading the reference's index arithmetic.

  Words: a row or column number below 2³¹, written as a 32-bit word, reads back as itself both unsigned and signed;
  so comparing two such words (equal, signed at-least, signed below zero) is comparing the numbers, and adding them as
  words is adding the numbers.

  A gather of single matrix entries: the index array has two columns, the row and the column of the entry wanted; entry
  `r` of the result is the matrix at (row word of line `r`, column word of line `r`), each read signed and clamped into
  the matrix.
-/
import Idealize.ShloMosaic.PureOps.Ideal
import Idealize.ShloMosaic.Lib.ValueIdx
import Idealize.ShloMosaic.Lib.WordArith

noncomputable section

namespace Cert.ReferenceIdeal.RefValue

open Idealize.ShloMosaic Idealize.ShloMosaic.ValueIdx

/-! ## Words -/

/-- A number below 2³¹ as a 32-bit word reads back unsigned as itself. -/
theorem toNat_ofNat_small (a : Nat) (h : a < 2 ^ 31) : (BitVec.ofNat 32 a).toNat = a := by
  simp; omega

/-- … and signed, then clamped at zero, as itself. -/
theorem toInt_toNat_ofNat_small (a : Nat) (h : a < 2 ^ 31) : (BitVec.ofNat 32 a).toInt.toNat = a := by
  rw [WordArith.toInt_ofNat_small a h]; simp

/-- Equality of two such words is equality of the numbers. -/
theorem cmpi_eq_ofNat (a b : Nat) (ha : a < 2 ^ 31) (hb : b < 2 ^ 31) :
    IntOp.cmpi .eq (BitVec.ofNat 32 a) (BitVec.ofNat 32 b) = if a = b then 1#1 else 0#1 := by
  unfold IntOp.cmpi
  by_cases h : a = b
  · subst h; simp
  · rw [if_neg h]
    have : (BitVec.ofNat 32 a == BitVec.ofNat 32 b) = false := by
      rw [beq_eq_false_iff_ne]
      intro e
      have := congrArg BitVec.toNat e
      rw [toNat_ofNat_small a ha, toNat_ofNat_small b hb] at this
      exact h this
    simp [this]

/-- Signed "at least" of two such words is "at least" of the numbers. -/
theorem cmpi_sge_ofNat (a b : Nat) (ha : a < 2 ^ 31) (hb : b < 2 ^ 31) :
    IntOp.cmpi .sge (BitVec.ofNat 32 a) (BitVec.ofNat 32 b) = if b ≤ a then 1#1 else 0#1 := by
  unfold IntOp.cmpi
  simp only [BitVec.sle, WordArith.toInt_ofNat_small a ha, WordArith.toInt_ofNat_small b hb]
  by_cases h : b ≤ a
  · rw [if_pos h]; simp [h]
  · rw [if_neg h]; simp [h]

/-- Such a word is never negative. -/
theorem cmpi_slt_ofNat_zero (a : Nat) (ha : a < 2 ^ 31) :
    IntOp.cmpi .slt (BitVec.ofNat 32 a) 0#32 = 0#1 := by
  unfold IntOp.cmpi
  simp only [BitVec.slt, WordArith.toInt_ofNat_small a ha]
  have h0 : ¬ ((a : Int) < 0) := by omega
  simp [h0]

/-- Adding the zero word changes nothing. -/
theorem addi_zero (x : BitVec 32) : IntOp.addi x 0#32 = x := by
  unfold IntOp.addi; simp

/-- The sum of two number words is the word of the sum. -/
theorem addi_ofNat (a b : Nat) : IntOp.addi (BitVec.ofNat 32 a) (BitVec.ofNat 32 b) = BitVec.ofNat 32 (a + b) := by
  unfold IntOp.addi; simp [BitVec.ofNat_add]

/-! ## A gather of single elements of a matrix: row and column read off a two-column index array -/

section Gather
variable {α : Type}

/-- The dimension numbers of "take entry (i, j)" for each line (i, j) of a two-column index array: both matrix axes are
    collapsed, both are indexed, the index vector lies along the second axis of the index array. -/
abbrev pairDims (N M R : Nat) (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The row the gather reads for result entry `r`: the first word of line `r`, signed, clamped into the rows. -/
theorem pair_operand_row {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    ((pairDims N M R wf).operandIdx (ix1 r) idx (0 : Fin 2)).val = min (idx (ix2 r (0 : Fin 2))).toInt.toNat (N - 1) := by
  show (pairDims N M R wf).start (ix1 r) idx (0 : Fin 2) + (pairDims N M R wf).batchCoord (ix1 r) (0 : Fin 2)
    + (pairDims N M R wf).offCoord (ix1 r) (0 : Fin 2) = _
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos (show (0 : Fin 2) ∈ (pairDims N M R wf).startIndexMap by simp)]
  have hsi : (pairDims N M R wf).siIdx (ix1 r) ⟨List.idxOf (0 : Fin 2) (pairDims N M R wf).startIndexMap,
      List.idxOf_lt_length_iff.2 (by simp)⟩ = ix2 r (0 : Fin 2) := by
    funext b; refine Fin.ext ?_
    match b with
    | ⟨0, _⟩ => rfl
    | ⟨1, _⟩ => rfl
  rw [hsi]
  rfl

/-- The column it reads: the second word of line `r`, signed, clamped into the columns. -/
theorem pair_operand_col {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    ((pairDims N M R wf).operandIdx (ix1 r) idx (1 : Fin 2)).val = min (idx (ix2 r (1 : Fin 2))).toInt.toNat (M - 1) := by
  show (pairDims N M R wf).start (ix1 r) idx (1 : Fin 2) + (pairDims N M R wf).batchCoord (ix1 r) (1 : Fin 2)
    + (pairDims N M R wf).offCoord (ix1 r) (1 : Fin 2) = _
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos (show (1 : Fin 2) ∈ (pairDims N M R wf).startIndexMap by simp)]
  have hsi : (pairDims N M R wf).siIdx (ix1 r) ⟨List.idxOf (1 : Fin 2) (pairDims N M R wf).startIndexMap,
      List.idxOf_lt_length_iff.2 (by simp)⟩ = ix2 r (1 : Fin 2) := by
    funext b; refine Fin.ext ?_
    match b with
    | ⟨0, _⟩ => rfl
    | ⟨1, _⟩ => rfl
  rw [hsi]
  rfl

/-- The gather at entry `r` is the matrix at that row and column. -/
theorem gather_pair_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pairDims N M R wf) x idx (ix1 r)
      = x (ix2 ⟨min (idx (ix2 r (0 : Fin 2))).toInt.toNat (N - 1), by omega⟩
               ⟨min (idx (ix2 r (1 : Fin 2))).toInt.toNat (M - 1), by omega⟩) := by
  unfold Host.gather
  congr 1
  funext a
  refine Fin.ext ?_
  match a with
  | ⟨0, _⟩ => exact pair_operand_row wf idx r
  | ⟨1, _⟩ => exact pair_operand_col wf idx r

end Gather

end Cert.ReferenceIdeal.RefValue

end
-- ==== Proof.RefPos.lean ====
/-
  The reference's positives.

  The reference picks two diagonals out of the similarity matrix with two gathers. Each gather's index array has a
  line (row, column) per entry, built from a counter 0 … 4095: the first gather's line `r` is (r, r + 4096), the second
  one's is (r + 4096, r); both are nonnegative, so the "negative index, add 8192" branch is never taken, and both are
  inside the matrix, so the clamping does nothing. The two results laid end to end give, at row `r` of 8192, the
  similarity of row `r` with its partner row 4096 away: the specification's `posDot`.
-/
import proofs.«154950_j89077621719714_1_alg».proof.Proof.RefSim
import proofs.«154950_j89077621719714_1_alg».proof.Proof.RefWords

noncomputable section

namespace Cert.ReferenceIdeal.RefValue

open Cert.ReferenceIdeal Cert.ReferenceIdeal.Gen Cert.ReferenceIdeal.ReadP Idealize.ShloMosaic Idealize.ShloMosaic.ValueIdx
open Cert.NTXent

/-- Row `r` of the upper half, as a row of the stack. -/
abbrev upRow (r : Fin 4096) : Fin 8192 := ⟨r.val, by omega⟩
/-- Its partner in the lower half. -/
abbrev loRow (r : Fin 4096) : Fin 8192 := ⟨r.val + 4096, by omega⟩

/-! ## The index words -/

/-- First gather, first column: the counter itself. -/
theorem call2_v8_at (r : Fin 4096) : val_main_call2_v8 (F := Ideal) (ix1 r) = BitVec.ofNat 32 r.val := by
  rw [val_main_call2_v8_apply, val_main_call2_v5_apply, val_main_call2_v4_apply, val_main_call2_c_0_apply,
    val_main_call2_v0_apply]
  show Scalar.select (IntOp.cmpi .slt (BitVec.ofNat 32 r.val) 0#32) _ _ = _
  rw [cmpi_slt_ofNat_zero _ (by omega), select_zero]

/-- First gather, second column: the counter plus 4096. -/
theorem call2_v13_at (r : Fin 4096) : val_main_call2_v13 (F := Ideal) (ix1 r) = BitVec.ofNat 32 (4096 + r.val) := by
  rw [val_main_call2_v13_apply, val_main_call2_v10_apply, val_main_call2_v9_apply, val_main_call2_c_2_apply,
    val_main_call2_v3_apply, val_main_call2_v2_apply, val_main_call2_c_apply, val_main_call2_v1_apply]
  show Scalar.select (IntOp.cmpi .slt (IntOp.addi (BitVec.ofNat 32 4096) (BitVec.ofNat 32 r.val)) 0#32) _
    (IntOp.addi (BitVec.ofNat 32 4096) (BitVec.ofNat 32 r.val)) = _
  rw [addi_ofNat, cmpi_slt_ofNat_zero _ (by omega), select_zero]

/-- Second gather, first column: the counter plus 4096. -/
theorem call3_v8_at (r : Fin 4096) : val_main_call3_v8 (F := Ideal) (ix1 r) = BitVec.ofNat 32 (4096 + r.val) := by
  rw [val_main_call3_v8_apply, val_main_call3_v5_apply, val_main_call3_v4_apply, val_main_call3_c_0_apply,
    val_main_call3_v3_apply, val_main_call3_v2_apply, val_main_call3_c_apply, val_main_call3_v1_apply]
  show Scalar.select (IntOp.cmpi .slt (IntOp.addi (BitVec.ofNat 32 4096) (BitVec.ofNat 32 r.val)) 0#32) _
    (IntOp.addi (BitVec.ofNat 32 4096) (BitVec.ofNat 32 r.val)) = _
  rw [addi_ofNat, cmpi_slt_ofNat_zero _ (by omega), select_zero]

/-- Second gather, second column: the counter itself. -/
theorem call3_v13_at (r : Fin 4096) : val_main_call3_v13 (F := Ideal) (ix1 r) = BitVec.ofNat 32 r.val := by
  rw [val_main_call3_v13_apply, val_main_call3_v10_apply, val_main_call3_v9_apply, val_main_call3_c_2_apply,
    val_main_call3_v0_apply]
  show Scalar.select (IntOp.cmpi .slt (BitVec.ofNat 32 r.val) 0#32) _ _ = _
  rw [cmpi_slt_ofNat_zero _ (by omega), select_zero]

/-- A column index read as an index of the vector it was broadcast from. -/
theorem col_idx (r : Fin 4096) : idx_main_call2_v14 (ix2 r (0 : Fin 1)) = ix1 r :=
  funext fun a => Fin.ext (by match a with | ⟨0, _⟩ => rfl)

/-- Line `r` of the first index array is (r, r + 4096). -/
theorem call2_v16_row (r : Fin 4096) : val_main_call2_v16 (F := Ideal) (ix2 r (0 : Fin 2)) = BitVec.ofNat 32 r.val := by
  unfold val_main_call2_v16
  refine (concatenate_pair_apply_left 1 _ _ concatenates_S4096x1_S4096x1_S4096x2_d1 _ rfl (ix2 r (0 : Fin 1)) (fun b => by
    match b with
    | ⟨0, _⟩ => rfl
    | ⟨1, _⟩ => rfl)).trans ?_
  rw [val_main_call2_v14_apply]
  exact (congrArg _ (col_idx r)).trans (call2_v8_at r)

theorem call2_v16_col (r : Fin 4096) :
    val_main_call2_v16 (F := Ideal) (ix2 r (1 : Fin 2)) = BitVec.ofNat 32 (4096 + r.val) := by
  unfold val_main_call2_v16
  refine (concatenate_pair_apply_right 1 _ _ concatenates_S4096x1_S4096x1_S4096x2_d1 _ rfl rfl (ix2 r (0 : Fin 1))
    (fun b hb => by
      match b with
      | ⟨0, _⟩ => rfl
      | ⟨1, _⟩ => exact absurd rfl hb)
    rfl).trans ?_
  rw [val_main_call2_v15_apply]
  exact (congrArg _ (col_idx r)).trans (call2_v13_at r)

/-- Line `r` of the second index array is (r + 4096, r). -/
theorem call3_v16_row (r : Fin 4096) :
    val_main_call3_v16 (F := Ideal) (ix2 r (0 : Fin 2)) = BitVec.ofNat 32 (4096 + r.val) := by
  unfold val_main_call3_v16
  refine (concatenate_pair_apply_left 1 _ _ concatenates_S4096x1_S4096x1_S4096x2_d1 _ rfl (ix2 r (0 : Fin 1)) (fun b => by
    match b with
    | ⟨0, _⟩ => rfl
    | ⟨1, _⟩ => rfl)).trans ?_
  rw [val_main_call3_v14_apply]
  exact (congrArg _ (col_idx r)).trans (call3_v8_at r)

theorem call3_v16_col (r : Fin 4096) : val_main_call3_v16 (F := Ideal) (ix2 r (1 : Fin 2)) = BitVec.ofNat 32 r.val := by
  unfold val_main_call3_v16
  refine (concatenate_pair_apply_right 1 _ _ concatenates_S4096x1_S4096x1_S4096x2_d1 _ rfl rfl (ix2 r (0 : Fin 1))
    (fun b hb => by
      match b with
      | ⟨0, _⟩ => rfl
      | ⟨1, _⟩ => exact absurd rfl hb)
    rfl).trans ?_
  rw [val_main_call3_v15_apply]
  exact (congrArg _ (col_idx r)).trans (call3_v13_at r)

/-! ## The two diagonals -/

/-- The generated dimension numbers are those of the two-column gather. -/
theorem gatherDims_eq : gather_S8192x8192_S4096x2_S4096_n_01_n_n_01_1_11
    = pairDims 8192 8192 4096 gather_S8192x8192_S4096x2_S4096_n_01_n_n_01_1_11_wf := rfl

/-- Entry `r` of the first diagonal is the similarity of row `r` with row `r + 4096`. -/
theorem main_v13_apply (x0 x1 : SHalf.Idx → EReal) (r : Fin 4096) :
    val_main_v13 (F := Ideal) x0 x1 (ix1 r) = sim (reps x0 x1) (upRow r) (loRow r) := by
  unfold val_main_v13
  rw [gatherDims_eq]
  refine (gather_pair_apply (by norm_num) (by norm_num) _ _ _ r).trans ?_
  refine (congrArg (val_main_v12 (F := Ideal) x0 x1) ?_).trans (main_v12_apply x0 x1 (upRow r) (loRow r))
  funext a
  refine Fin.ext ?_
  match a with
  | ⟨0, _⟩ =>
    show min (val_main_call2_v16 (F := Ideal) (ix2 r (0 : Fin 2))).toInt.toNat (8192 - 1) = r.val
    rw [call2_v16_row, toInt_toNat_ofNat_small _ (by omega)]; omega
  | ⟨1, _⟩ =>
    show min (val_main_call2_v16 (F := Ideal) (ix2 r (1 : Fin 2))).toInt.toNat (8192 - 1) = r.val + 4096
    rw [call2_v16_col, toInt_toNat_ofNat_small _ (by omega)]; omega

/-- Entry `r` of the second diagonal is the similarity of row `r + 4096` with row `r`. -/
theorem main_v14_apply (x0 x1 : SHalf.Idx → EReal) (r : Fin 4096) :
    val_main_v14 (F := Ideal) x0 x1 (ix1 r) = sim (reps x0 x1) (loRow r) (upRow r) := by
  unfold val_main_v14
  rw [gatherDims_eq]
  refine (gather_pair_apply (by norm_num) (by norm_num) _ _ _ r).trans ?_
  refine (congrArg (val_main_v12 (F := Ideal) x0 x1) ?_).trans (main_v12_apply x0 x1 (loRow r) (upRow r))
  funext a
  refine Fin.ext ?_
  match a with
  | ⟨0, _⟩ =>
    show min (val_main_call3_v16 (F := Ideal) (ix2 r (0 : Fin 2))).toInt.toNat (8192 - 1) = r.val + 4096
    rw [call3_v16_row, toInt_toNat_ofNat_small _ (by omega)]; omega
  | ⟨1, _⟩ =>
    show min (val_main_call3_v16 (F := Ideal) (ix2 r (1 : Fin 2))).toInt.toNat (8192 - 1) = r.val
    rw [call3_v16_col, toInt_toNat_ofNat_small _ (by omega)]; omega

/-! ## The positives -/

/-- Entry `r` of the reference's positives is the dot product of the two halves' rows `r mod 4096`. -/
theorem main_v15_apply (x0 x1 : SHalf.Idx → EReal) (r : Fin 8192) :
    val_main_v15 (F := Ideal) x0 x1 (ix1 r) = posDot (normRows x0) (normRows x1) r := by
  unfold val_main_v15
  by_cases hr : r.val < 4096
  · refine (concatenate_pair_apply_left 0 _ _ concatenates_S4096_S4096_S8192_d0 _ rfl (ix1 ⟨r.val, hr⟩) (fun b => by
      match b with
      | ⟨0, _⟩ => rfl)).trans ?_
    rw [main_v13_apply]
    exact sim_stack_partner_upper _ _ _ _ hr rfl
  · refine (concatenate_pair_apply_right 0 _ _ concatenates_S4096_S4096_S8192_d0 _ rfl rfl
      (ix1 ⟨r.val - 4096, by omega⟩) (fun b hb => by
        match b with
        | ⟨0, _⟩ => exact absurd rfl hb)
      (by show r.val - 4096 + 4096 = r.val; omega)).trans ?_
    have e : loRow ⟨r.val - 4096, by omega⟩ = r := Fin.ext (by show r.val - 4096 + 4096 = r.val; omega)
    rw [main_v14_apply, e]
    exact sim_stack_partner_lower _ _ r _ hr (by show r.val - 4096 + 4096 = r.val; omega)

end Cert.ReferenceIdeal.RefValue

end
-- ==== Proof.RefHard.lean ====
/-
  The reference's hardest negatives.

  The reference replaces the diagonal of the similarity matrix by −∞ (the mask is "row number = column number", an
  equality of two 32-bit counters below 8192) and takes the maximum of every row, starting from −∞. The maximum over a
  row does not depend on the order, −∞ is the bottom of the order and so neutral for it: row `r` of the result is the
  supremum over all columns `c` of "−∞ if c = r, else the similarity of r and c", the specification's `hardNeg`.
-/
import proofs.«154950_j89077621719714_1_alg».proof.Proof.RefSim
import proofs.«154950_j89077621719714_1_alg».proof.Proof.RefWords

noncomputable section

namespace Cert.ReferenceIdeal.RefValue

open Cert.ReferenceIdeal Cert.ReferenceIdeal.Gen Cert.ReferenceIdeal.ReadP Idealize.ShloMosaic Idealize.ShloMosaic.ValueIdx
open Cert.NTXent

/-- The word of −∞ is the bottom of the extended reals. -/
theorem ofBits_neg_inf : Ideal.ofBits .f32 0xFF800000#32 = (⊥ : EReal) := by simp [Ideal.ofBits, Ideal.ieee]

/-- A maximum folded from the bottom over a finite set is the supremum over it. -/
theorem fold_maximumf_bot_eq_sup {ι : Type} (s : Finset ι) (f : ι → EReal) :
    s.fold (FloatOps.maximumf (F := Ideal) (φ := .f32)) (⊥ : EReal) f = s.sup f := by
  classical
  induction s using Finset.induction_on with
  | empty => simp
  | insert a s ha ih => rw [Finset.fold_insert ha, Finset.sup_insert, ih]; rfl

/-- The diagonal mask at (r, c) is 1 exactly when r = c. -/
theorem main_v20_at (r c : Fin 8192) :
    val_main_v20 (F := Ideal) (ix2 r c) = if r.val = c.val then 1#1 else 0#1 := by
  rw [val_main_v20_apply, val_main_v19_apply, val_main_v16_apply, val_main_v18_apply, val_main_c_apply,
    val_main_v17_apply]
  show IntOp.cmpi .eq (IntOp.addi (BitVec.ofNat 32 r.val) 0#32) (BitVec.ofNat 32 c.val) = _
  rw [addi_zero, cmpi_eq_ofNat _ _ (by omega) (by omega)]

/-- The masked similarity at (r, c): −∞ on the diagonal, the similarity off it. -/
theorem main_v21_at (x0 x1 : SHalf.Idx → EReal) (r c : Fin 8192) :
    val_main_v21 (F := Ideal) x0 x1 (ix2 r c) = if c = r then (⊥ : EReal) else sim (reps x0 x1) r c := by
  rw [val_main_v21_apply, main_v20_at, val_main_call4_v1_apply, val_main_call4_v0_apply, val_main_cst_1_apply,
    main_v12_apply]
  by_cases h : c = r
  · subst h
    rw [if_pos rfl, if_pos rfl, select_one]
    exact ofBits_neg_inf
  · rw [if_neg (fun e => h (Fin.ext e.symm)), if_neg h, select_zero]

/-- The row reduction's shape fact in the form that names the inserted index. -/
theorem reduces_rows : S8192x8192.Reduces [1] S8192 := by decide

/-- Row `r` of the reference's row maxima is the hardest negative of row `r`. -/
theorem main_v22_apply (x0 x1 : SHalf.Idx → EReal) (r : Fin 8192) :
    val_main_v22 (F := Ideal) x0 x1 (ix1 r) = hardNeg (reps x0 x1) r := by
  unfold val_main_v22
  rw [Host.reduce_eq_fold_single FloatOps.maximumf _ _ reducesTo_S8192x8192_S8192_d1 reduces_rows h_S_ (ix1 r)]
  have hinit : val_main_cst_2 (F := Ideal) (Shape.Idx.first h_S_) = (⊥ : EReal) := ofBits_neg_inf
  rw [hinit, fold_maximumf_bot_eq_sup]
  unfold hardNeg
  have key : ∀ c : Fin 8192, val_main_v21 (F := Ideal) x0 x1 (reduces_rows.lift (ix1 r) c)
      = if c = r then (⊥ : EReal) else sim (reps x0 x1) r c := fun c => by
    have e : reduces_rows.lift (ix1 r) c = ix2 r c :=
      funext fun a => Fin.ext (by match a with | ⟨0, _⟩ => rfl | ⟨1, _⟩ => rfl)
    rw [e, main_v21_at]
  exact congrArg (Finset.sup Finset.univ) (funext key)

end Cert.ReferenceIdeal.RefValue

end
-- ==== Proof.RefUniform.lean ====
/-
  The reference's uniformity sum.

  Every entry of the similarity matrix is turned into its pair weight exp(−2·(2 − 2·x)), multiplied by an indicator of
  the strict upper triangle (built as "0 where row ≥ column, else 1" from two 32-bit counters below 8192), and all
  8192 × 8192 products are summed from 0. On the extended reals x · 1 = x and x · 0 = 0 for every x, infinite or not,
  so the total is the sum of the pair weights over the pairs r < c: the specification's `uniformSum`.
-/
import proofs.«154950_j89077621719714_1_alg».proof.Proof.RefSim
import proofs.«154950_j89077621719714_1_alg».proof.Proof.RefWords
import Idealize.ShloMosaic.Lib.IdealHost

noncomputable section

namespace Cert.ReferenceIdeal.RefValue

open Cert.ReferenceIdeal Cert.ReferenceIdeal.Gen Cert.ReferenceIdeal.ReadP Idealize.ShloMosaic Idealize.ShloMosaic.ValueIdx
open Cert.NTXent

/-- The weight array at (r, c) is the pair weight of the similarity of rows r and c. -/
theorem main_v44_at (x0 x1 : SHalf.Idx → EReal) (r c : Fin 8192) :
    val_main_v44 (F := Ideal) x0 x1 (ix2 r c) = pairWeight (sim (reps x0 x1) r c) := by
  rw [val_main_v44_apply, val_main_v43_apply, val_main_v42_apply, val_main_cst_10_apply, val_main_v39_apply,
    val_main_v38_apply, val_main_cst_8_apply, val_main_v37_apply, val_main_v36_apply, val_main_cst_7_apply,
    main_v12_apply]
  simp only [Ideal.hostUnary_exp_def, Ideal.mulf_def, Ideal.subf_def, Ideal.ofBits_def]
  rfl

/-- The triangle indicator at (r, c): 1 strictly above the diagonal, 0 elsewhere. -/
theorem main_v41_at (r c : Fin 8192) :
    val_main_v41 (F := Ideal) (ix2 r c) = if r < c then (1 : EReal) else 0 := by
  rw [val_main_v41_apply, val_main_call6_v4_apply, val_main_call6_v2_apply, val_main_call6_v0_apply,
    val_main_call6_v1_apply, val_main_call6_c_apply, val_main_call6_v3_apply, val_main_call6_v5_apply,
    val_main_call6_cst_apply, val_main_v40_apply, val_main_cst_9_apply]
  show Scalar.select (IntOp.cmpi .sge (IntOp.addi (BitVec.ofNat 32 r.val) 0#32) (BitVec.ofNat 32 c.val))
    (Ideal.ofBits .f32 0x00000000#32) (Ideal.ofBits .f32 0x3F800000#32) = _
  rw [addi_zero, cmpi_sge_ofNat _ _ (by omega) (by omega), Ideal.ofBits_zero_f32, Ideal.ofBits_one_f32]
  by_cases h : r < c
  · rw [if_pos h, if_neg (Nat.not_le.mpr (Fin.lt_def.mp h)), select_zero]
  · rw [if_neg h, if_pos (Nat.le_of_not_lt (fun h' => h (Fin.lt_def.mpr h'))), select_one]

/-- The reference's total is the uniformity sum. -/
theorem main_v46_apply (x0 x1 : SHalf.Idx → EReal) (i : S_.Idx) :
    val_main_v46 (F := Ideal) x0 x1 i = uniformSum (reps x0 x1) := by
  rw [val_main_v46_apply, val_main_cst_11_apply]
  show Ideal.ofBits .f32 0x00000000#32 + _ = _
  rw [Ideal.ofBits_zero_f32, zero_add, sum_idx2]
  unfold uniformSum
  refine Finset.sum_congr rfl fun r _ => Finset.sum_congr rfl fun c _ => ?_
  rw [val_main_v45_apply, main_v44_at, main_v41_at]
  show pairWeight _ * (if r < c then (1 : EReal) else 0) = _
  by_cases h : r < c
  · rw [if_pos h, if_pos h, mul_one]
  · rw [if_neg h, if_neg h, mul_zero]

end Cert.ReferenceIdeal.RefValue

end
-- ==== Proof.RefTail.lean ====
/-
  From the three reduced quantities to the loss, as one function.

  Given the positives `P` and the hardest negatives `H` (one entry per row, 8192 rows) and the uniformity sum `s`
  (a scalar), the loss is
    − mean over the rows of log-softmax([P / t, H / (t/2)])[0]  +  0.2 · log (s / number of pairs),
  the temperature, the number of rows, the number of pairs and 0.2 kept as their binary words, the log-softmax taken
  the numerically careful way (subtract the row maximum, then the log of the sum of exponentials). Nothing below ever
  opens this function: both sides of the comparison apply it to the same three arguments.
-/
import proofs.«154950_j89077621719714_1_alg».proof.Proof.RefNorm
import Idealize.ShloMosaic.Lib.Pipeline.Value

noncomputable section

namespace Cert.ReferenceIdeal.RefValue

open Idealize.ShloMosaic Cert.NTXent

/-- One entry per row of the stack. -/
abbrev SRows : Shape := ⟨1, ![8192]⟩
/-- The same as a column. -/
abbrev SRowsCol : Shape := ⟨2, ![8192, 1]⟩
/-- Two logits per row: the positive and the hardest negative. -/
abbrev SLogits : Shape := ⟨2, ![8192, 2]⟩

theorem tail_bcast_scalar_rows : SScalar.BroadcastsInDim SRows (![] : Fin 0 → Fin SRows.rank) := by decide
theorem tail_bcast_rows_col : SRows.BroadcastsInDim SRowsCol (![0] : Fin 1 → Fin SRowsCol.rank) := by decide
theorem tail_bcast_col_logits : SRowsCol.BroadcastsInDim SLogits (![0, 1] : Fin 2 → Fin SLogits.rank) := by decide
theorem tail_concat : Shape.Concatenates [SRowsCol, SRowsCol] SLogits 1 := by decide
theorem tail_reduces_logits : SLogits.ReducesTo [1] SRows := by decide
theorem tail_slices : SLogits.Slices ![0, 0] SRowsCol := by decide
theorem tail_casts : SRowsCol.ShapeCasts SRows := by decide
theorem tail_reduces_rows : SRows.ReducesTo [0] SScalar := by decide

/-- The two logits of every row: the positive over the temperature, the hardest negative over half of it. -/
def tailLogits (P H : SRows.Idx → EReal) : SLogits.Idx → EReal :=
  concatenate SLogits 1
    [⟨SRowsCol, broadcastInDim SRowsCol ![0] tail_bcast_rows_col
        (Host.divf (F := Ideal) (φ := .f32) P
          (broadcastInDim SRows ![] tail_bcast_scalar_rows (constant (F := Ideal) SScalar .f32 0x3D4CCCCD#32)))⟩,
     ⟨SRowsCol, broadcastInDim SRowsCol ![0] tail_bcast_rows_col
        (Host.divf (F := Ideal) (φ := .f32) H
          (broadcastInDim SRows ![] tail_bcast_scalar_rows (constant (F := Ideal) SScalar .f32 0x3CCCCCCD#32)))⟩]
    tail_concat

/-- The logits with their row maximum subtracted. -/
def tailShifted (L : SLogits.Idx → EReal) : SLogits.Idx → EReal :=
  subf (F := Ideal) (φ := .f32) L
    (broadcastInDim SLogits ![0, 1] tail_bcast_col_logits
      (broadcastInDim SRowsCol ![0] tail_bcast_rows_col
        (maximumf (F := Ideal) (φ := .f32)
          (broadcastInDim SRows ![] tail_bcast_scalar_rows (constant (F := Ideal) SScalar .f32 0xFF800000#32))
          (Host.reduce (FloatOps.maximumf (F := Ideal) (φ := .f32)) L (constant (F := Ideal) SScalar .f32 0xFF800000#32)
            tail_reduces_logits normRows_scalar))))

/-- The log-softmax of the shifted logits: minus the log of the row's sum of exponentials. -/
def tailLogSoftmax (D : SLogits.Idx → EReal) : SLogits.Idx → EReal :=
  subf (F := Ideal) (φ := .f32) D
    (broadcastInDim SLogits ![0, 1] tail_bcast_col_logits
      (Host.log (F := Ideal) (φ := .f32)
        (broadcastInDim SRowsCol ![0] tail_bcast_rows_col
          (Host.reduceAdd (F := Ideal) (φ := .f32) (Host.exp (F := Ideal) (φ := .f32) D)
            (constant (F := Ideal) SScalar .f32 0x00000000#32) tail_reduces_logits normRows_scalar))))

/-- The loss from the positives, the hardest negatives and the uniformity sum. -/
def refTail (P H : SRows.Idx → EReal) (s : SScalar.Idx → EReal) : SScalar.Idx → EReal :=
  addf (F := Ideal) (φ := .f32)
    (Host.negf (F := Ideal) (φ := .f32)
      (Host.divf (F := Ideal) (φ := .f32)
        (Host.reduceAdd (F := Ideal) (φ := .f32)
          (shapeCast SRows
            (extractStridedSlice SRowsCol ![0, 0] (tailLogSoftmax (tailShifted (tailLogits P H))) tail_slices) tail_casts)
          (constant (F := Ideal) SScalar .f32 0x00000000#32) tail_reduces_rows normRows_scalar)
        (constant (F := Ideal) SScalar .f32 0x46000000#32)))
    (mulf (F := Ideal) (φ := .f32) (constant (F := Ideal) SScalar .f32 0x3E4CCCCD#32)
      (Host.log (F := Ideal) (φ := .f32)
        (Host.divf (F := Ideal) (φ := .f32) s (constant (F := Ideal) SScalar .f32 0x4BFFF800#32))))

end Cert.ReferenceIdeal.RefValue

end
-- ==== Proof.RefResult.lean ====
/-
  The reference's loss, assembled.

  After the positives, the hardest negatives and the uniformity sum, the reference runs the fixed tail `refTail` on
  them; with the three stage readings (positives = `posDot`, row maxima = `hardNeg`, total = `uniformSum`) its result
  is `refTail` of the three specification quantities of the stacked normalised inputs.
-/
import proofs.«154950_j89077621719714_1_alg».proof.Proof.RefPos
import proofs.«154950_j89077621719714_1_alg».proof.Proof.RefHard
import proofs.«154950_j89077621719714_1_alg».proof.Proof.RefUniform
import proofs.«154950_j89077621719714_1_alg».proof.Proof.RefTail

noncomputable section

namespace Cert.ReferenceIdeal.RefValue

open Cert.ReferenceIdeal Cert.ReferenceIdeal.Gen Cert.ReferenceIdeal.ReadP Idealize.ShloMosaic Idealize.ShloMosaic.ValueIdx
open Cert.NTXent

/-- The reference's logits are `tailLogits` of its positives and row maxima. -/
theorem main_v29_eq (x0 x1 : SHalf.Idx → EReal) :
    val_main_v29 (F := Ideal) x0 x1 = tailLogits (val_main_v15 (F := Ideal) x0 x1) (val_main_v22 (F := Ideal) x0 x1) := rfl

/-- … shifted by the row maximum … -/
theorem main_call5_v5_eq (x0 x1 : SHalf.Idx → EReal) :
    val_main_call5_v5 (F := Ideal) x0 x1 = tailShifted (val_main_v29 (F := Ideal) x0 x1) := rfl

/-- … and their log-softmax. -/
theorem main_v30_eq (x0 x1 : SHalf.Idx → EReal) :
    val_main_v30 (F := Ideal) x0 x1 = tailLogSoftmax (val_main_call5_v5 (F := Ideal) x0 x1) := rfl

/-- The reference's result is the tail of its three reduced stages. -/
theorem main_v50_eq_tail (x0 x1 : SHalf.Idx → EReal) :
    val_main_v50 (F := Ideal) x0 x1
      = refTail (val_main_v15 (F := Ideal) x0 x1) (val_main_v22 (F := Ideal) x0 x1) (val_main_v46 (F := Ideal) x0 x1) := by
  unfold refTail
  rw [← main_v29_eq, ← main_call5_v5_eq, ← main_v30_eq]
  rfl

/-- The positives, as a function of the row index. -/
theorem main_v15_eq (x0 x1 : SHalf.Idx → EReal) :
    val_main_v15 (F := Ideal) x0 x1 = fun j : SRows.Idx => posDot (normRows x0) (normRows x1) (j 0) :=
  funext fun j => (congrArg (val_main_v15 (F := Ideal) x0 x1) (eq_ix1 j)).trans (main_v15_apply x0 x1 (j 0))

/-- The row maxima, as a function of the row index. -/
theorem main_v22_eq (x0 x1 : SHalf.Idx → EReal) :
    val_main_v22 (F := Ideal) x0 x1 = fun j : SRows.Idx => hardNeg (reps x0 x1) (j 0) :=
  funext fun j => (congrArg (val_main_v22 (F := Ideal) x0 x1) (eq_ix1 j)).trans (main_v22_apply x0 x1 (j 0))

/-- The total, as a constant function on the one scalar index. -/
theorem main_v46_eq (x0 x1 : SHalf.Idx → EReal) :
    val_main_v46 (F := Ideal) x0 x1 = fun _ : SScalar.Idx => uniformSum (reps x0 x1) :=
  funext fun i => main_v46_apply x0 x1 i

/-- THE REFERENCE'S VALUE: the tail of the positives, the hardest negatives and the uniformity sum of the stacked,
    row-normalised inputs. -/
theorem main_v50_eq (x0 x1 : SHalf.Idx → EReal) :
    val_main_v50 (F := Ideal) x0 x1
      = refTail (fun j : SRows.Idx => posDot (normRows x0) (normRows x1) (j 0))
          (fun j : SRows.Idx => hardNeg (reps x0 x1) (j 0)) (fun _ : SScalar.Idx => uniformSum (reps x0 x1)) := by
  rw [main_v50_eq_tail, main_v15_eq, main_v22_eq, main_v46_eq]

end Cert.ReferenceIdeal.RefValue

end
-- ==== Proof.KIHostPrefix.lean ====
/-
  What the host lines before the region leave. They normalise the rows of the two inputs, stack the two normalised
  halves into one 8192 × 512 array and convert it to the shorter float format (the identity on extended reals), and
  take the dot product of each row of the first half with the same row of the second (the positives), joined with
  itself to 8192 entries. The two inputs themselves are written by no line. So the array the region's two input windows
  read is the specification's `stack` of the two normalised inputs, and the positives' buffer holds `posDot`.
-/
import proofs.«154950_j89077621719714_1_alg».proof.Proof.KISetup
import proofs.«154950_j89077621719714_1_alg».proof.Proof.RefNorm
import proofs.«154950_j89077621719714_1_alg».proof.Proof.RefStack
import Idealize.ShloMosaic.PureOps.Ideal.Laws

noncomputable section

namespace Cert.KernelIdeal.HostValue

open Idealize.ShloMosaic Idealize.ShloMosaic.ValueIdx Idealize.ShloMosaic.TcCoe Idealize.SL.Sem Idealize.ShloMosaic.StableHlo
open Cert.KernelIdeal Cert.KernelIdeal.Gen Cert.KernelIdeal.Hand Cert.NTXent Cert.ReferenceIdeal.RefValue

variable (m : (ℓ : Loc nD τ sig) → Buf (Elt Ideal) ℓ)

/-- Row normalisation as the program before the region spells it: the same ten operations as `normRows`. -/
def hostNorm (x : (⟨S4096x512, .f32⟩ : BufTy).Contents (Elt Ideal)) : (⟨S4096x512, .f32⟩ : BufTy).Contents (Elt Ideal) :=
  Host.divf x (broadcastInDim S4096x512 ![0, 1] bcast_S4096x1_S4096x512_0_1
    (maximumf (Host.sqrt (broadcastInDim S4096x1 ![0] bcast_S4096_S4096x1_0
        (Host.reduceAdd (mulf x x) (constant (F := Ideal) S_ .f32 0x00000000#32) reducesTo_S4096x512_S4096_d1 h_S_)))
      (broadcastInDim S4096x1 ![] bcast_S_S4096x1 (constant (F := Ideal) S_ .f32 0x2B8CBCCC#32))))

/-- It is `normRows`: the two spellings differ only in the names of the shapes and of the shape facts. -/
theorem hostNorm_eq (x : SHalf.Idx → EReal) : hostNorm x = normRows x := rfl

/-- The stacked, converted embeddings as the program spells them. -/
def hostStack (x y : (⟨S4096x512, .f32⟩ : BufTy).Contents (Elt Ideal)) : (⟨S8192x512, .bf16⟩ : BufTy).Contents (Elt Ideal) :=
  truncf (F := Ideal) (φ := .f32) .bf16 (concatenate S8192x512 0 [⟨S4096x512, hostNorm x⟩, ⟨S4096x512, hostNorm y⟩]
    concatenates_S4096x512_S4096x512_S8192x512_d0) bitsLt_bf16_f32

/-- The positives as the program spells them: the row-wise dot products of the two normalised halves, twice. -/
def hostPos (x y : (⟨S4096x512, .f32⟩ : BufTy).Contents (Elt Ideal)) : (⟨S8192, .f32⟩ : BufTy).Contents (Elt Ideal) :=
  concatenate S8192 0
    [⟨S4096, Host.reduceAdd (mulf (hostNorm x) (hostNorm y)) (constant (F := Ideal) S_ .f32 0x00000000#32) reducesTo_S4096x512_S4096_d1 h_S_⟩,
     ⟨S4096, Host.reduceAdd (mulf (hostNorm x) (hostNorm y)) (constant (F := Ideal) S_ .f32 0x00000000#32) reducesTo_S4096x512_S4096_d1 h_S_⟩]
    concatenates_S4096_S4096_S8192_d0

/-- No operation before the region writes the first input. -/
theorem arg0_unchanged (c : Dev nD) : V m c main_arg0 = m ((c : Thread nD τ).loc main_arg0) := by
  dsimp only [V, V0]
  simp only [hostOps0, hostOps0_1, hostOps0_2, hostOps0_3, List.flatten_cons, List.flatten_nil, List.append_nil, List.cons_append, List.nil_append]
  after_results_simp

/-- Nor the second. -/
theorem arg1_unchanged (c : Dev nD) : V m c main_arg1 = m ((c : Thread nD τ).loc main_arg1) := by
  dsimp only [V, V0]
  simp only [hostOps0, hostOps0_1, hostOps0_2, hostOps0_3, List.flatten_cons, List.flatten_nil, List.append_nil, List.cons_append, List.nil_append]
  after_results_simp

/-- What the stacked embeddings' buffer holds when the region is entered. -/
theorem v11_eq (c : Dev nD) :
    V m c main_v11 = hostStack (m ((c : Thread nD τ).loc main_arg0)) (m ((c : Thread nD τ).loc main_arg1)) := by
  dsimp only [V, V0]
  simp only [hostOps0, hostOps0_1, hostOps0_2, hostOps0_3, List.flatten_cons, List.flatten_nil, List.append_nil, List.cons_append, List.nil_append]
  after_results_simp
  rfl

/-- What the positives' buffer holds when the region is entered. -/
theorem v14_eq (c : Dev nD) :
    V m c main_v14 = hostPos (m ((c : Thread nD τ).loc main_arg0)) (m ((c : Thread nD τ).loc main_arg1)) := by
  dsimp only [V, V0]
  simp only [hostOps0, hostOps0_1, hostOps0_2, hostOps0_3, List.flatten_cons, List.flatten_nil, List.append_nil, List.cons_append, List.nil_append]
  after_results_simp
  rfl

/-! ## The two buffers as the specification names them -/

/-- The stacked, converted embeddings are `stack` of the two normalised halves: the conversion to the shorter format
    is the identity on extended reals, and joining along the rows is `stack`. -/
theorem hostStack_eq (x y : SHalf.Idx → EReal) :
    (hostStack x y : SReps.Idx → EReal) = stack (normRows x) (normRows y) := by
  rw [← concatenate_eq_stack (normRows x) (normRows y) concatenates_S4096x512_S4096x512_S8192x512_d0]
  rfl

/-- The index the row sum inserts: row q with the summed coordinate k is (q, k). -/
theorem lift_half (h : S4096x512.Reduces [1] S4096) (q : Fin 4096) (k : Fin 512) : h.lift (ix1 q) k = ix2 q k :=
  funext fun a => Fin.ext (by match a with | ⟨0, _⟩ => rfl | ⟨1, _⟩ => rfl)

/-- The host's row sum of the products of two 4096 × 512 matrices, started from 0, at row q: the dot product of the
    two rows. -/
theorem rowDots_apply (zi zj : SHalf.Idx → EReal) (q : Fin 4096) :
    Host.reduceAdd (F := Ideal) (φ := .f32) (mulf (F := Ideal) (φ := .f32) zi zj)
        (constant (F := Ideal) S_ .f32 0x00000000#32) reducesTo_S4096x512_S4096_d1 h_S_ (ix1 q)
      = ∑ k : Fin 512, zi (ix2 q k) * zj (ix2 q k) := by
  have hr : S4096x512.Reduces [1] S4096 := by decide
  show Ideal.hostReduceAdd reducesTo_S4096x512_S4096_d1 (mulf (F := Ideal) (φ := .f32) zi zj)
      (Ideal.ofBits .f32 0x00000000#32) (ix1 q) = _
  rw [Ideal.hostReduceAdd_single reducesTo_S4096x512_S4096_d1 hr, Ideal.ofBits_zero_f32, zero_add]
  show ∑ k : Fin 512, zi (hr.lift (ix1 q) k) * zj (hr.lift (ix1 q) k) = _
  exact Finset.sum_congr rfl fun k _ => by rw [lift_half]

/-- The positives' buffer holds, at row j of 8192, the dot product of rows j mod 4096 of the two normalised halves:
    the 4096 dot products, joined with themselves. -/
theorem hostPos_eq (x y : SHalf.Idx → EReal) :
    (hostPos x y : (⟨1, ![8192]⟩ : Shape).Idx → EReal)
      = fun j => posDot (normRows x) (normRows y) ⟨(j 0).val, (j 0).isLt⟩ := by
  funext j
  have hlt : (j 0).val < 8192 := (j 0).isLt
  have hx : hostNorm x = normRows x := rfl
  have hy : hostNorm y = normRows y := rfl
  unfold hostPos posDot
  rw [hx, hy]
  by_cases hj : (j 0).val < 4096
  · refine (concatenate_pair_apply_left 0 _ _ concatenates_S4096_S4096_S8192_d0 j rfl (ix1 ⟨(j 0).val, hj⟩)
      (fun b => by match b with | ⟨0, _⟩ => rfl)).trans ?_
    refine (rowDots_apply (normRows x) (normRows y) ⟨(j 0).val, hj⟩).trans ?_
    have e : halfRow ⟨(j 0).val, hlt⟩ = ⟨(j 0).val, hj⟩ := Fin.ext (Nat.mod_eq_of_lt hj)
    rw [e]
  · have hq : (j 0).val - 4096 < 4096 := by omega
    refine (concatenate_pair_apply_right 0 _ _ concatenates_S4096_S4096_S8192_d0 j rfl rfl (ix1 ⟨(j 0).val - 4096, hq⟩)
      (fun b hb => by
        have h1 : b.val < 1 := b.isLt
        exact absurd (Fin.ext (by show b.val = 0; omega)) hb)
      (by show (j 0).val - 4096 + 4096 = (j 0).val; omega)).trans ?_
    refine (rowDots_apply (normRows x) (normRows y) ⟨(j 0).val - 4096, hq⟩).trans ?_
    have e : halfRow ⟨(j 0).val, hlt⟩ = ⟨(j 0).val - 4096, hq⟩ := Fin.ext (by show (j 0).val % 4096 = (j 0).val - 4096; omega)
    rw [e]

/-! ## What the region finds -/

/-- The array both input windows read is the specification's stack of the two normalised inputs. -/
theorem stacked_eq (c : Dev nD) :
    (V m c main_v11 : SReps.Idx → EReal)
      = stack (normRows (m ((c : Thread nD τ).loc main_arg0))) (normRows (m ((c : Thread nD τ).loc main_arg1))) :=
  (v11_eq m c).trans (hostStack_eq _ _)

/-- The positives the lines after the region read. -/
theorem positives_eq (c : Dev nD) :
    (V m c main_v14 : (⟨1, ![8192]⟩ : Shape).Idx → EReal)
      = fun j => posDot (normRows (m ((c : Thread nD τ).loc main_arg0))) (normRows (m ((c : Thread nD τ).loc main_arg1)))
          ⟨(j 0).val, (j 0).isLt⟩ :=
  (v14_eq m c).trans (hostPos_eq _ _)

end Cert.KernelIdeal.HostValue

end
-- ==== Proof.KIResult.lean ====
import proofs.«154950_j89077621719714_1_alg».proof.Proof.KIValue
import proofs.«154950_j89077621719714_1_alg».proof.Proof.RefResult
import proofs.«154950_j89077621719714_1_alg».proof.Proof.KIHostPrefix
import Idealize.ShloMosaic.Lib.StableHlo.Run

set_option maxRecDepth 16384

noncomputable section

namespace Cert.KernelIdeal.Hand

open Cert.KernelIdeal Cert.KernelIdeal.Gen Cert.KernelIdeal.TileValue Cert.NTXent Cert.NTXent.Tiled
open Cert.ReferenceIdeal.RefValue Cert.KernelIdeal.HostValue
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ)

/-! ## The host lines after the region, as one function

Whatever the buffers hold when the region is left, the lines after it compute the loss from three of them: the
positives, the first result array (reshaped to one entry per row) and the second (summed). -/

set_option maxRecDepth 100000 in
set_option maxHeartbeats 2000000 in
theorem tail_eq (W : Valuation τ sig (Elt Ideal)) :
    StableHlo.after (List.flatten ([hostOps1, hostOps1_1, hostOps1_2] : List (List (HloOp τ sig (Elt Ideal))))) W (Proc.devRef .tc main_v34)
      = refTail (W (Proc.devRef .tc main_v14))
          (shapeCast S8192 (W (Proc.devRef .tc main_v15_0)) shapeCasts_S8192x1_S8192)
          (Host.reduceAdd (W (Proc.devRef .tc main_v15_1)) (constant (F := Ideal) S_ .f32 0x00000000#32) reducesTo_S8x1x1_S_d0_1_2 h_S_) := by
  simp only [hostOps1, hostOps1_1, hostOps1_2, List.flatten_cons, List.flatten_nil, List.append_nil, List.cons_append, List.nil_append]
  after_results_simp
  unfold refTail tailLogSoftmax tailShifted tailLogits
  rfl

/-- The first result array, reshaped from a column to a vector: entry `j` is row `j`'s hardest negative. -/
theorem hardNegArr_cast (c : Dev nD) :
    shapeCast S8192 (hardNegArr m c) shapeCasts_S8192x1_S8192 = fun j : S8192.Idx => hardNeg (stacked m c) (j 0) := by
  funext j
  rw [shapeCast_apply (hardNegArr m c) shapeCasts_S8192x1_S8192 j (ix2 (j 0) 0)
    (by rw [Shape.rowMajor_val_two, Shape.rowMajor_val_one]; show (j 0).val * 1 + 0 = (j 0).val; omega)]
  rfl

/-- The eight entries of the second result array, one per row tile. -/
def rowTileEquiv : S8x1x1.Idx ≃ Fin 8 where
  toFun i := ⟨(i 0).val, (i 0).isLt⟩
  invFun a := ix3 a 0 0
  left_inv i := by
    refine ((eq_ix3 i).trans ?_).symm
    rw [Fin.fin_one_eq_zero (i 1), Fin.fin_one_eq_zero (i 2)]
    rfl
  right_inv a := rfl

/-- The second result array, summed: the eight row tiles' shares add up to the whole uniformity sum. -/
theorem rowSumArr_total (c : Dev nD) :
    Host.reduceAdd (F := Ideal) (φ := .f32) (rowSumArr m c) (constant (F := Ideal) S_ .f32 0x00000000#32) reducesTo_S8x1x1_S_d0_1_2 h_S_
      = fun _ : S_.Idx => uniformSum (stacked m c) := by
  funext j
  show Ideal.hostReduceAdd reducesTo_S8x1x1_S_d0_1_2 (rowSumArr m c) (Ideal.ofBits .f32 0x00000000#32) j = _
  rw [Ideal.hostReduceAdd_total reducesTo_S8x1x1_S_d0_1_2 (fun b => b.elim0), Ideal.ofBits_zero_f32, zero_add,
    uniformSum_eq_sum_rowTileSum]
  exact Fintype.sum_equiv rowTileEquiv _ _ (fun i => rfl)

/-- THE KERNEL'S VALUE. From any buffers that hold, when the region is left, the positives as the region found them
    and the two result arrays as the run leaves them, the lines after the region compute the reference's loss of the
    two inputs. -/
theorem kernel_value (c : Dev nD) (W : Valuation τ sig (Elt Ideal))
    (hW14 : W (Proc.devRef .tc main_v14) = V m c main_v14)
    (hW2 : W (Proc.devRef .tc main_v15_0) = (dats m 0 c).arrAt 2 cfg0.N)
    (hW3 : W (Proc.devRef .tc main_v15_1) = (dats m 0 c).arrAt 3 cfg0.N) :
    StableHlo.after (List.flatten ([hostOps1, hostOps1_1, hostOps1_2] : List (List (HloOp τ sig (Elt Ideal))))) W (Proc.devRef .tc main_v34)
      = Cert.ReferenceIdeal.ReadP.val_main_v50 (F := Ideal) (m ((c : Thread nD τ).loc main_arg0)) (m ((c : Thread nD τ).loc main_arg1)) := by
  rw [tail_eq, hW14, hW2, hW3, final2, final3, hardNegArr_cast, rowSumArr_total, main_v50_eq]
  have k1 : stacked m c = reps (m ((c : Thread nD τ).loc main_arg0)) (m ((c : Thread nD τ).loc main_arg1)) := stacked_eq m c
  rw [k1, positives_eq m c]
  rfl

end Cert.KernelIdeal.Hand

end
-- ==== Proof.RefRun.lean ====
/-
  The reference program's run, read in stages.

  The reference is a straight line of 143 host operations. Its final contents are the fold of the operations' results
  over the launch contents; read all at once the composed term repeats the similarity matrix (used four times) and the
  logits (used twice) inside each other and becomes too deep to compare. Here the line is cut at the values that are
  used more than once — the similarity matrix, the positives, the row maxima, the logits, their log-softmax, the
  cross-entropy term, the uniformity sum — and each piece is read from ANY contents in which the values it consumes are
  already the stage functions of the two inputs. Chaining the pieces gives the last value as the last stage function.
-/
import proofs.«154950_j89077621719714_1_alg».proof.Proof.RefReadP
import proofs.«154950_j89077621719714_1_alg».proof.Proof.RefOpsP

noncomputable section

namespace Cert.ReferenceIdeal.RefRun

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

/-! ## The line, cut at the shared values -/

abbrev opsA : List (HloOp τ sig (Elt F)) :=
  [ TRef.binary (TRef.of (T := ⟨S4096x512, .f32⟩) main_arg0) (TRef.of (T := ⟨S4096x512, .f32⟩) main_arg0) (TRef.of (T := ⟨S4096x512, .f32⟩) main_call0_v0) mulf,
    TRef.nullary (TRef.of (T := ⟨S_, .f32⟩) main_call0_cst) (constant S_ .f32 0x00000000#32),
    TRef.binary (TRef.of (T := ⟨S4096x512, .f32⟩) main_call0_v0) (TRef.of (T := ⟨S_, .f32⟩) main_call0_cst) (TRef.of (T := ⟨S4096, .f32⟩) main_call0_v1) (fun x v => Host.reduceAdd x v reducesTo_S4096x512_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    nullary main_cst (constant S_ .f32 0x2B8CBCCC#32),
    unary main_cst main_v1 (broadcastInDim S4096x1 ![] bcast_S_S4096x1 : (⟨S_, .f32⟩ : BufTy).Contents (Elt F) → (⟨S4096x1, .f32⟩ : BufTy).Contents (Elt F)),
    binary main_v0 main_v1 main_v2 (maximumf : (⟨S4096x1, .f32⟩ : BufTy).Contents (Elt F) → (⟨S4096x1, .f32⟩ : BufTy).Contents (Elt F) → (⟨S4096x1, .f32⟩ : BufTy).Contents (Elt F)),
    unary main_v2 main_v3 (broadcastInDim S4096x512 ![0, 1] bcast_S4096x1_S4096x512_0_1 : (⟨S4096x1, .f32⟩ : BufTy).Contents (Elt F) → (⟨S4096x512, .f32⟩ : BufTy).Contents (Elt F)),
    binary main_arg0 main_v3 main_v4 (Host.divf : (⟨S4096x512, .f32⟩ : BufTy).Contents (Elt F) → (⟨S4096x512, .f32⟩ : BufTy).Contents (Elt F) → (⟨S4096x512, .f32⟩ : BufTy).Contents (Elt F)),
    TRef.binary (TRef.of (T := ⟨S4096x512, .f32⟩) main_arg1) (TRef.of (T := ⟨S4096x512, .f32⟩) main_arg1) (TRef.of (T := ⟨S4096x512, .f32⟩) main_call1_v0) mulf,
    TRef.nullary (TRef.of (T := ⟨S_, .f32⟩) main_call1_cst) (constant S_ .f32 0x00000000#32),
    TRef.binary (TRef.of (T := ⟨S4096x512, .f32⟩) main_call1_v0) (TRef.of (T := ⟨S_, .f32⟩) main_call1_cst) (TRef.of (T := ⟨S4096, .f32⟩) main_call1_v1) (fun x v => Host.reduceAdd x v reducesTo_S4096x512_S4096_d1 h_S_),
    TRef.unary (TRef.of (T := ⟨S4096, .f32⟩) main_call1_v1) (TRef.of (T := ⟨S4096x1, .f32⟩) main_call1_v2) (broadcastInDim S4096x1 ![0] bcast_S4096_S4096x1_0),
    TRef.unary (TRef.of (T := ⟨S4096x1, .f32⟩) main_call1_v2) (TRef.of (T := ⟨S4096x1, .f32⟩) main_v5) Host.sqrt,
    nullary main_cst_0 (constant S_ .f32 0x2B8CBCCC#32),
    unary main_cst_0 main_v6 (broadcastInDim S4096x1 ![] bcast_S_S4096x1 : (⟨S_, .f32⟩ : BufTy).Contents (Elt F) → (⟨S4096x1, .f32⟩ : BufTy).Contents (Elt F)),
    binary main_v5 main_v6 main_v7 (maximumf : (⟨S4096x1, .f32⟩ : BufTy).Contents (Elt F) → (⟨S4096x1, .f32⟩ : BufTy).Contents (Elt F) → (⟨S4096x1, .f32⟩ : BufTy).Contents (Elt F)),
    unary main_v7 main_v8 (broadcastInDim S4096x512 ![0, 1] bcast_S4096x1_S4096x512_0_1 : (⟨S4096x1, .f32⟩ : BufTy).Contents (Elt F) → (⟨S4096x512, .f32⟩ : BufTy).Contents (Elt F)),
    binary main_arg1 main_v8 main_v9 (Host.divf : (⟨S4096x512, .f32⟩ : BufTy).Contents (Elt F) → (⟨S4096x512, .f32⟩ : BufTy).Contents (Elt F) → (⟨S4096x512, .f32⟩ : BufTy).Contents (Elt F)),
    binary main_v4 main_v9 main_v10 ((fun a b => concatenate S8192x512 0 [⟨S4096x512, a⟩, ⟨S4096x512, b⟩] concatenates_S4096x512_S4096x512_S8192x512_d0) : (⟨S4096x512, .f32⟩ : BufTy).Contents (Elt F) → (⟨S4096x512, .f32⟩ : BufTy).Contents (Elt F) → (⟨S8192x512, .f32⟩ : BufTy).Contents (Elt F)),
    unary main_v10 main_v11 ((transpose S512x8192 [1, 0] · transposes_S8192x512_S512x8192_1_0) : (⟨S8192x512, .f32⟩ : BufTy).Contents (Elt F) → (⟨S512x8192, .f32⟩ : BufTy).Contents (Elt F)),
    binary main_v10 main_v11 main_v12 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)) ]

abbrev opsB1a : List (HloOp τ sig (Elt F)) :=
  [ TRef.nullary (TRef.of (T := ⟨S4096, .i32⟩) main_call2_v0) (iotaInDim S4096 32 0),
    TRef.nullary (TRef.of (T := ⟨S4096, .i32⟩) main_call2_v1) (iotaInDim S4096 32 0),
    TRef.nullary (TRef.of (T := ⟨S_, .i32⟩) main_call2_c) (constantI S_ 32 4096#32),
    TRef.unary (TRef.of (T := ⟨S_, .i32⟩) main_call2_c) (TRef.of (T := ⟨S4096, .i32⟩) main_call2_v2) (broadcastInDim S4096 ![] bcast_S_S4096),
    TRef.binary (TRef.of (T := ⟨S4096, .i32⟩) main_call2_v2) (TRef.of (T := ⟨S4096, .i32⟩) main_call2_v1) (TRef.of (T := ⟨S4096, .i32⟩) main_call2_v3) addi,
    TRef.nullary (TRef.of (T := ⟨S_, .i32⟩) main_call2_c_0) (constantI S_ 32 0#32),
    TRef.unary (TRef.of (T := ⟨S_, .i32⟩) main_call2_c_0) (TRef.of (T := ⟨S4096, .i32⟩) main_call2_v4) (broadcastInDim S4096 ![] bcast_S_S4096),
    TRef.binary (TRef.of (T := ⟨S4096, .i32⟩) main_call2_v0) (TRef.of (T := ⟨S4096, .i32⟩) main_call2_v4) (TRef.of (T := ⟨S4096, .i1⟩) main_call2_v5) (cmpi .slt),
    TRef.nullary (TRef.of (T := ⟨S_, .i32⟩) main_call2_c_1) (constantI S_ 32 8192#32),
    TRef.unary (TRef.of (T := ⟨S_, .i32⟩) main_call2_c_1) (TRef.of (T := ⟨S4096, .i32⟩) main_call2_v6) (broadcastInDim S4096 ![] bcast_S_S4096),
    TRef.binary (TRef.of (T := ⟨S4096, .i32⟩) main_call2_v0) (TRef.of (T := ⟨S4096, .i32⟩) main_call2_v6) (TRef.of (T := ⟨S4096, .i32⟩) main_call2_v7) addi,
    TRef.ternary (TRef.of (T := ⟨S4096, .i1⟩) main_call2_v5) (TRef.of (T := ⟨S4096, .i32⟩) main_call2_v7) (TRef.of (T := ⟨S4096, .i32⟩) main_call2_v0) (TRef.of (T := ⟨S4096, .i32⟩) main_call2_v8) select,
    TRef.nullary (TRef.of (T := ⟨S_, .i32⟩) main_call2_c_2) (constantI S_ 32 0#32),
    TRef.unary (TRef.of (T := ⟨S_, .i32⟩) main_call2_c_2) (TRef.of (T := ⟨S4096, .i32⟩) main_call2_v9) (broadcastInDim S4096 ![] bcast_S_S4096),
    TRef.binary (TRef.of (T := ⟨S4096, .i32⟩) main_call2_v3) (TRef.of (T := ⟨S4096, .i32⟩) main_call2_v9) (TRef.of (T := ⟨S4096, .i1⟩) main_call2_v10) (cmpi .slt),
    TRef.nullary (TRef.of (T := ⟨S_, .i32⟩) main_call2_c_3) (constantI S_ 32 8192#32),
    TRef.unary (TRef.of (T := ⟨S_, .i32⟩) main_call2_c_3) (TRef.of (T := ⟨S4096, .i32⟩) main_call2_v11) (broadcastInDim S4096 ![] bcast_S_S4096),
    TRef.binary (TRef.of (T := ⟨S4096, .i32⟩) main_call2_v3) (TRef.of (T := ⟨S4096, .i32⟩) main_call2_v11) (TRef.of (T := ⟨S4096, .i32⟩) main_call2_v12) addi,
    TRef.ternary (TRef.of (T := ⟨S4096, .i1⟩) main_call2_v10) (TRef.of (T := ⟨S4096, .i32⟩) main_call2_v12) (TRef.of (T := ⟨S4096, .i32⟩) main_call2_v3) (TRef.of (T := ⟨S4096, .i32⟩) main_call2_v13) select,
    TRef.unary (TRef.of (T := ⟨S4096, .i32⟩) main_call2_v8) (TRef.of (T := ⟨S4096x1, .i32⟩) main_call2_v14) (broadcastInDim S4096x1 ![0] bcast_S4096_S4096x1_0),
    TRef.unary (TRef.of (T := ⟨S4096, .i32⟩) main_call2_v13) (TRef.of (T := ⟨S4096x1, .i32⟩) main_call2_v15) (broadcastInDim S4096x1 ![0] bcast_S4096_S4096x1_0) ]

abbrev opsB1b : List (HloOp τ sig (Elt F)) :=
  [ TRef.binary (TRef.of (T := ⟨S4096x1, .i32⟩) main_call2_v14) (TRef.of (T := ⟨S4096x1, .i32⟩) main_call2_v15) (TRef.of (T := ⟨S4096x2, .i32⟩) main_call2_v16) (fun a b => concatenate S4096x2 1 [⟨S4096x1, a⟩, ⟨S4096x1, b⟩] concatenates_S4096x1_S4096x1_S4096x2_d1) ]

abbrev opsB1c : List (HloOp τ sig (Elt F)) :=
  [ TRef.binary (TRef.of (T := ⟨S8192x8192, .f32⟩) main_v12) (TRef.of (T := ⟨S4096x2, .i32⟩) main_call2_v16) (TRef.of (T := ⟨S4096, .f32⟩) main_v13) (fun x i => Host.gather gather_S8192x8192_S4096x2_S4096_n_01_n_n_01_1_11 x i) ]

abbrev opsB2a : List (HloOp τ sig (Elt F)) :=
  [ TRef.nullary (TRef.of (T := ⟨S4096, .i32⟩) main_call3_v0) (iotaInDim S4096 32 0),
    TRef.nullary (TRef.of (T := ⟨S4096, .i32⟩) main_call3_v1) (iotaInDim S4096 32 0),
    TRef.nullary (TRef.of (T := ⟨S_, .i32⟩) main_call3_c) (constantI S_ 32 4096#32),
    TRef.unary (TRef.of (T := ⟨S_, .i32⟩) main_call3_c) (TRef.of (T := ⟨S4096, .i32⟩) main_call3_v2) (broadcastInDim S4096 ![] bcast_S_S4096),
    TRef.binary (TRef.of (T := ⟨S4096, .i32⟩) main_call3_v2) (TRef.of (T := ⟨S4096, .i32⟩) main_call3_v1) (TRef.of (T := ⟨S4096, .i32⟩) main_call3_v3) addi,
    TRef.nullary (TRef.of (T := ⟨S_, .i32⟩) main_call3_c_0) (constantI S_ 32 0#32),
    TRef.unary (TRef.of (T := ⟨S_, .i32⟩) main_call3_c_0) (TRef.of (T := ⟨S4096, .i32⟩) main_call3_v4) (broadcastInDim S4096 ![] bcast_S_S4096),
    TRef.binary (TRef.of (T := ⟨S4096, .i32⟩) main_call3_v3) (TRef.of (T := ⟨S4096, .i32⟩) main_call3_v4) (TRef.of (T := ⟨S4096, .i1⟩) main_call3_v5) (cmpi .slt),
    TRef.nullary (TRef.of (T := ⟨S_, .i32⟩) main_call3_c_1) (constantI S_ 32 8192#32),
    TRef.unary (TRef.of (T := ⟨S_, .i32⟩) main_call3_c_1) (TRef.of (T := ⟨S4096, .i32⟩) main_call3_v6) (broadcastInDim S4096 ![] bcast_S_S4096),
    TRef.binary (TRef.of (T := ⟨S4096, .i32⟩) main_call3_v3) (TRef.of (T := ⟨S4096, .i32⟩) main_call3_v6) (TRef.of (T := ⟨S4096, .i32⟩) main_call3_v7) addi,
    TRef.ternary (TRef.of (T := ⟨S4096, .i1⟩) main_call3_v5) (TRef.of (T := ⟨S4096, .i32⟩) main_call3_v7) (TRef.of (T := ⟨S4096, .i32⟩) main_call3_v3) (TRef.of (T := ⟨S4096, .i32⟩) main_call3_v8) select,
    TRef.nullary (TRef.of (T := ⟨S_, .i32⟩) main_call3_c_2) (constantI S_ 32 0#32),
    TRef.unary (TRef.of (T := ⟨S_, .i32⟩) main_call3_c_2) (TRef.of (T := ⟨S4096, .i32⟩) main_call3_v9) (broadcastInDim S4096 ![] bcast_S_S4096),
    TRef.binary (TRef.of (T := ⟨S4096, .i32⟩) main_call3_v0) (TRef.of (T := ⟨S4096, .i32⟩) main_call3_v9) (TRef.of (T := ⟨S4096, .i1⟩) main_call3_v10) (cmpi .slt),
    TRef.nullary (TRef.of (T := ⟨S_, .i32⟩) main_call3_c_3) (constantI S_ 32 8192#32),
    TRef.unary (TRef.of (T := ⟨S_, .i32⟩) main_call3_c_3) (TRef.of (T := ⟨S4096, .i32⟩) main_call3_v11) (broadcastInDim S4096 ![] bcast_S_S4096),
    TRef.binary (TRef.of (T := ⟨S4096, .i32⟩) main_call3_v0) (TRef.of (T := ⟨S4096, .i32⟩) main_call3_v11) (TRef.of (T := ⟨S4096, .i32⟩) main_call3_v12) addi,
    TRef.ternary (TRef.of (T := ⟨S4096, .i1⟩) main_call3_v10) (TRef.of (T := ⟨S4096, .i32⟩) main_call3_v12) (TRef.of (T := ⟨S4096, .i32⟩) main_call3_v0) (TRef.of (T := ⟨S4096, .i32⟩) main_call3_v13) select,
    TRef.unary (TRef.of (T := ⟨S4096, .i32⟩) main_call3_v8) (TRef.of (T := ⟨S4096x1, .i32⟩) main_call3_v14) (broadcastInDim S4096x1 ![0] bcast_S4096_S4096x1_0),
    TRef.unary (TRef.of (T := ⟨S4096, .i32⟩) main_call3_v13) (TRef.of (T := ⟨S4096x1, .i32⟩) main_call3_v15) (broadcastInDim S4096x1 ![0] bcast_S4096_S4096x1_0) ]

abbrev opsB2b : List (HloOp τ sig (Elt F)) :=
  [ TRef.binary (TRef.of (T := ⟨S4096x1, .i32⟩) main_call3_v14) (TRef.of (T := ⟨S4096x1, .i32⟩) main_call3_v15) (TRef.of (T := ⟨S4096x2, .i32⟩) main_call3_v16) (fun a b => concatenate S4096x2 1 [⟨S4096x1, a⟩, ⟨S4096x1, b⟩] concatenates_S4096x1_S4096x1_S4096x2_d1) ]

abbrev opsB2c : List (HloOp τ sig (Elt F)) :=
  [ TRef.binary (TRef.of (T := ⟨S8192x8192, .f32⟩) main_v12) (TRef.of (T := ⟨S4096x2, .i32⟩) main_call3_v16) (TRef.of (T := ⟨S4096, .f32⟩) main_v14) (fun x i => Host.gather gather_S8192x8192_S4096x2_S4096_n_01_n_n_01_1_11 x i) ]

abbrev opsB3 : List (HloOp τ sig (Elt F)) :=
  [ binary main_v13 main_v14 main_v15 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)) ]

abbrev opsC : List (HloOp τ sig (Elt F)) :=
  [ nullary main_v16 (iotaInDim S8192x8192 32 0),
    nullary main_v17 (iotaInDim S8192x8192 32 1),
    nullary main_c (constantI S_ 32 0#32),
    unary main_c main_v18 (broadcastInDim S8192x8192 ![] bcast_S_S8192x8192 : (⟨S_, .i32⟩ : BufTy).Contents (Elt F) → (⟨S8192x8192, .i32⟩ : BufTy).Contents (Elt F)),
    binary main_v16 main_v18 main_v19 (addi : (⟨S8192x8192, .i32⟩ : BufTy).Contents (Elt F) → (⟨S8192x8192, .i32⟩ : BufTy).Contents (Elt F) → (⟨S8192x8192, .i32⟩ : BufTy).Contents (Elt F)),
    binary main_v19 main_v17 main_v20 (cmpi .eq : (⟨S8192x8192, .i32⟩ : BufTy).Contents (Elt F) → (⟨S8192x8192, .i32⟩ : BufTy).Contents (Elt F) → (⟨S8192x8192, .i1⟩ : BufTy).Contents (Elt F)),
    nullary main_cst_1 (constant S_ .f32 0xFF800000#32),
    TRef.unary (TRef.of (T := ⟨S_, .f32⟩) main_cst_1) (TRef.of (T := ⟨S_, .f32⟩) main_call4_v0) id,
    TRef.unary (TRef.of (T := ⟨S_, .f32⟩) main_call4_v0) (TRef.of (T := ⟨S8192x8192, .f32⟩) main_call4_v1) (broadcastInDim S8192x8192 ![] bcast_S_S8192x8192),
    TRef.ternary (TRef.of (T := ⟨S8192x8192, .i1⟩) main_v20) (TRef.of (T := ⟨S8192x8192, .f32⟩) main_call4_v1) (TRef.of (T := ⟨S8192x8192, .f32⟩) main_v12) (TRef.of (T := ⟨S8192x8192, .f32⟩) main_v21) select,
    nullary main_cst_2 (constant S_ .f32 0xFF800000#32),
    binary main_v21 main_cst_2 main_v22 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

abbrev opsD1 : List (HloOp τ sig (Elt F)) :=
  [ nullary main_cst_3 (constant S_ .f32 0x3D4CCCCD#32),
    unary main_cst_3 main_v23 (broadcastInDim S8192 ![] bcast_S_S8192 : (⟨S_, .f32⟩ : BufTy).Contents (Elt F) → (⟨S8192, .f32⟩ : BufTy).Contents (Elt F)),
    binary main_v15 main_v23 main_v24 (Host.divf : (⟨S8192, .f32⟩ : BufTy).Contents (Elt F) → (⟨S8192, .f32⟩ : BufTy).Contents (Elt F) → (⟨S8192, .f32⟩ : BufTy).Contents (Elt F)),
    nullary main_cst_4 (constant S_ .f32 0x3CCCCCCD#32),
    unary main_cst_4 main_v25 (broadcastInDim S8192 ![] bcast_S_S8192 : (⟨S_, .f32⟩ : BufTy).Contents (Elt F) → (⟨S8192, .f32⟩ : BufTy).Contents (Elt F)),
    binary main_v22 main_v25 main_v26 (Host.divf : (⟨S8192, .f32⟩ : BufTy).Contents (Elt F) → (⟨S8192, .f32⟩ : BufTy).Contents (Elt F) → (⟨S8192, .f32⟩ : BufTy).Contents (Elt F)),
    unary main_v24 main_v27 (broadcastInDim S8192x1 ![0] bcast_S8192_S8192x1_0 : (⟨S8192, .f32⟩ : BufTy).Contents (Elt F) → (⟨S8192x1, .f32⟩ : BufTy).Contents (Elt F)),
    unary main_v26 main_v28 (broadcastInDim S8192x1 ![0] bcast_S8192_S8192x1_0 : (⟨S8192, .f32⟩ : BufTy).Contents (Elt F) → (⟨S8192x1, .f32⟩ : BufTy).Contents (Elt F)) ]

abbrev opsD2 : List (HloOp τ sig (Elt F)) :=
  [ binary main_v27 main_v28 main_v29 ((fun a b => concatenate S8192x2 1 [⟨S8192x1, a⟩, ⟨S8192x1, b⟩] concatenates_S8192x1_S8192x1_S8192x2_d1) : (⟨S8192x1, .f32⟩ : BufTy).Contents (Elt F) → (⟨S8192x1, .f32⟩ : BufTy).Contents (Elt F) → (⟨S8192x2, .f32⟩ : BufTy).Contents (Elt F)) ]

abbrev opsE : List (HloOp τ sig (Elt F)) :=
  [ TRef.nullary (TRef.of (T := ⟨S_, .f32⟩) main_call5_cst) (constant S_ .f32 0xFF800000#32),
    TRef.binary (TRef.of (T := ⟨S8192x2, .f32⟩) main_v29) (TRef.of (T := ⟨S_, .f32⟩) main_call5_cst) (TRef.of (T := ⟨S8192, .f32⟩) main_call5_v0) (fun x v => Host.reduce FloatOps.maximumf x v reducesTo_S8192x2_S8192_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S8192, .f32⟩) main_call5_v1) (broadcastInDim S8192 ![] bcast_S_S8192),
    TRef.binary (TRef.of (T := ⟨S8192, .f32⟩) main_call5_v1) (TRef.of (T := ⟨S8192, .f32⟩) main_call5_v0) (TRef.of (T := ⟨S8192, .f32⟩) main_call5_v2) maximumf,
    TRef.unary (TRef.of (T := ⟨S8192, .f32⟩) main_call5_v2) (TRef.of (T := ⟨S8192x1, .f32⟩) main_call5_v3) (broadcastInDim S8192x1 ![0] bcast_S8192_S8192x1_0),
    TRef.unary (TRef.of (T := ⟨S8192x1, .f32⟩) main_call5_v3) (TRef.of (T := ⟨S8192x2, .f32⟩) main_call5_v4) (broadcastInDim S8192x2 ![0, 1] bcast_S8192x1_S8192x2_0_1),
    TRef.binary (TRef.of (T := ⟨S8192x2, .f32⟩) main_v29) (TRef.of (T := ⟨S8192x2, .f32⟩) main_call5_v4) (TRef.of (T := ⟨S8192x2, .f32⟩) main_call5_v5) subf,
    TRef.unary (TRef.of (T := ⟨S8192x2, .f32⟩) main_call5_v5) (TRef.of (T := ⟨S8192x2, .f32⟩) main_call5_v6) Host.exp,
    TRef.nullary (TRef.of (T := ⟨S_, .f32⟩) main_call5_cst_1) (constant S_ .f32 0x00000000#32),
    TRef.binary (TRef.of (T := ⟨S8192x2, .f32⟩) main_call5_v6) (TRef.of (T := ⟨S_, .f32⟩) main_call5_cst_1) (TRef.of (T := ⟨S8192, .f32⟩) main_call5_v7) (fun x v => Host.reduceAdd x v reducesTo_S8192x2_S8192_d1 h_S_),
    TRef.unary (TRef.of (T := ⟨S8192, .f32⟩) main_call5_v7) (TRef.of (T := ⟨S8192x1, .f32⟩) main_call5_v8) (broadcastInDim S8192x1 ![0] bcast_S8192_S8192x1_0),
    TRef.unary (TRef.of (T := ⟨S8192x1, .f32⟩) main_call5_v8) (TRef.of (T := ⟨S8192x1, .f32⟩) main_call5_v9) Host.log,
    TRef.unary (TRef.of (T := ⟨S8192x1, .f32⟩) main_call5_v9) (TRef.of (T := ⟨S8192x2, .f32⟩) main_call5_v10) (broadcastInDim S8192x2 ![0, 1] bcast_S8192x1_S8192x2_0_1),
    TRef.binary (TRef.of (T := ⟨S8192x2, .f32⟩) main_call5_v5) (TRef.of (T := ⟨S8192x2, .f32⟩) main_call5_v10) (TRef.of (T := ⟨S8192x2, .f32⟩) main_v30) subf ]

abbrev opsFc : List (HloOp τ sig (Elt F)) :=
  [ unary main_v30 main_v31 ((extractStridedSlice S8192x1 ![0, 0] · slices_S8192x2_S8192x1_0_0) : (⟨S8192x2, .f32⟩ : BufTy).Contents (Elt F) → (⟨S8192x1, .f32⟩ : BufTy).Contents (Elt F)),
    reshape main_v31 main_v32 rfl shapeCasts_S8192x1_S8192,
    nullary main_cst_5 (constant S_ .f32 0x00000000#32),
    binary main_v32 main_cst_5 main_v33 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_6 (constant S_ .f32 0x46000000#32),
    binary main_v33 main_cst_6 main_v34 (Host.divf : (⟨S_, .f32⟩ : BufTy).Contents (Elt F) → (⟨S_, .f32⟩ : BufTy).Contents (Elt F) → (⟨S_, .f32⟩ : BufTy).Contents (Elt F)),
    unary main_v34 main_v35 (Host.negf : (⟨S_, .f32⟩ : BufTy).Contents (Elt F) → (⟨S_, .f32⟩ : BufTy).Contents (Elt F)) ]

abbrev opsG : List (HloOp τ sig (Elt F)) :=
  [ nullary main_cst_7 (constant S_ .f32 0x40000000#32),
    unary main_cst_7 main_v36 (broadcastInDim S8192x8192 ![] bcast_S_S8192x8192 : (⟨S_, .f32⟩ : BufTy).Contents (Elt F) → (⟨S8192x8192, .f32⟩ : BufTy).Contents (Elt F)),
    binary main_v36 main_v12 main_v37 (mulf : (⟨S8192x8192, .f32⟩ : BufTy).Contents (Elt F) → (⟨S8192x8192, .f32⟩ : BufTy).Contents (Elt F) → (⟨S8192x8192, .f32⟩ : BufTy).Contents (Elt F)),
    nullary main_cst_8 (constant S_ .f32 0x40000000#32),
    unary main_cst_8 main_v38 (broadcastInDim S8192x8192 ![] bcast_S_S8192x8192 : (⟨S_, .f32⟩ : BufTy).Contents (Elt F) → (⟨S8192x8192, .f32⟩ : BufTy).Contents (Elt F)),
    binary main_v38 main_v37 main_v39 (subf : (⟨S8192x8192, .f32⟩ : BufTy).Contents (Elt F) → (⟨S8192x8192, .f32⟩ : BufTy).Contents (Elt F) → (⟨S8192x8192, .f32⟩ : BufTy).Contents (Elt F)),
    nullary main_cst_9 (constant S_ .f32 0x3F800000#32),
    unary main_cst_9 main_v40 (broadcastInDim S8192x8192 ![] bcast_S_S8192x8192 : (⟨S_, .f32⟩ : BufTy).Contents (Elt F) → (⟨S8192x8192, .f32⟩ : BufTy).Contents (Elt F)),
    TRef.nullary (TRef.of (T := ⟨S8192x8192, .i32⟩) main_call6_v0) (iotaInDim S8192x8192 32 0),
    TRef.nullary (TRef.of (T := ⟨S_, .i32⟩) main_call6_c) (constantI S_ 32 0#32),
    TRef.unary (TRef.of (T := ⟨S_, .i32⟩) main_call6_c) (TRef.of (T := ⟨S8192x8192, .i32⟩) main_call6_v1) (broadcastInDim S8192x8192 ![] bcast_S_S8192x8192),
    TRef.binary (TRef.of (T := ⟨S8192x8192, .i32⟩) main_call6_v0) (TRef.of (T := ⟨S8192x8192, .i32⟩) main_call6_v1) (TRef.of (T := ⟨S8192x8192, .i32⟩) main_call6_v2) addi,
    TRef.nullary (TRef.of (T := ⟨S8192x8192, .i32⟩) main_call6_v3) (iotaInDim S8192x8192 32 1),
    TRef.binary (TRef.of (T := ⟨S8192x8192, .i32⟩) main_call6_v2) (TRef.of (T := ⟨S8192x8192, .i32⟩) main_call6_v3) (TRef.of (T := ⟨S8192x8192, .i1⟩) main_call6_v4) (cmpi .sge),
    TRef.nullary (TRef.of (T := ⟨S_, .f32⟩) main_call6_cst) (constant S_ .f32 0x00000000#32),
    TRef.unary (TRef.of (T := ⟨S_, .f32⟩) main_call6_cst) (TRef.of (T := ⟨S8192x8192, .f32⟩) main_call6_v5) (broadcastInDim S8192x8192 ![] bcast_S_S8192x8192),
    TRef.ternary (TRef.of (T := ⟨S8192x8192, .i1⟩) main_call6_v4) (TRef.of (T := ⟨S8192x8192, .f32⟩) main_call6_v5) (TRef.of (T := ⟨S8192x8192, .f32⟩) main_v40) (TRef.of (T := ⟨S8192x8192, .f32⟩) main_v41) select,
    nullary main_cst_10 (constant S_ .f32 0xC0000000#32),
    unary main_cst_10 main_v42 (broadcastInDim S8192x8192 ![] bcast_S_S8192x8192 : (⟨S_, .f32⟩ : BufTy).Contents (Elt F) → (⟨S8192x8192, .f32⟩ : BufTy).Contents (Elt F)),
    binary main_v42 main_v39 main_v43 (mulf : (⟨S8192x8192, .f32⟩ : BufTy).Contents (Elt F) → (⟨S8192x8192, .f32⟩ : BufTy).Contents (Elt F) → (⟨S8192x8192, .f32⟩ : BufTy).Contents (Elt F)),
    unary main_v43 main_v44 (Host.exp : (⟨S8192x8192, .f32⟩ : BufTy).Contents (Elt F) → (⟨S8192x8192, .f32⟩ : BufTy).Contents (Elt F)),
    binary main_v44 main_v41 main_v45 (mulf : (⟨S8192x8192, .f32⟩ : BufTy).Contents (Elt F) → (⟨S8192x8192, .f32⟩ : BufTy).Contents (Elt F) → (⟨S8192x8192, .f32⟩ : BufTy).Contents (Elt F)),
    nullary main_cst_11 (constant S_ .f32 0x00000000#32),
    binary main_v45 main_cst_11 main_v46 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)) ]

abbrev opsH : List (HloOp τ sig (Elt F)) :=
  [ nullary main_cst_12 (constant S_ .f32 0x4BFFF800#32),
    binary main_v46 main_cst_12 main_v47 (Host.divf : (⟨S_, .f32⟩ : BufTy).Contents (Elt F) → (⟨S_, .f32⟩ : BufTy).Contents (Elt F) → (⟨S_, .f32⟩ : BufTy).Contents (Elt F)),
    unary main_v47 main_v48 (Host.log : (⟨S_, .f32⟩ : BufTy).Contents (Elt F) → (⟨S_, .f32⟩ : BufTy).Contents (Elt F)),
    nullary main_cst_13 (constant S_ .f32 0x3E4CCCCD#32),
    binary main_cst_13 main_v48 main_v49 (mulf : (⟨S_, .f32⟩ : BufTy).Contents (Elt F) → (⟨S_, .f32⟩ : BufTy).Contents (Elt F) → (⟨S_, .f32⟩ : BufTy).Contents (Elt F)),
    binary main_v35 main_v49 main_v50 (addf : (⟨S_, .f32⟩ : BufTy).Contents (Elt F) → (⟨S_, .f32⟩ : BufTy).Contents (Elt F) → (⟨S_, .f32⟩ : BufTy).Contents (Elt F)) ]

set_option maxRecDepth 8192 in
/-- The pieces laid end to end are the whole line. -/
theorem ops_split : (ops : List (HloOp τ sig (Elt F)))
    = opsA ++ (opsB1a ++ (opsB1b ++ (opsB1c ++ (opsB2a ++ (opsB2b ++ (opsB2c ++ (opsB3 ++ (opsC ++ (opsD1 ++ (opsD2 ++ (opsE ++ (opsFc ++ (opsG ++ (opsH)))))))))))))) := rfl

/-- Running two lines one after the other is running their concatenation. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-! ## Each piece, from any contents -/

/-- The first piece leaves the similarity matrix of the two inputs. -/
theorem stageA (W : Valuation τ sig (Elt F)) :
    after (opsA (F := F)) W (Proc.devRef .tc main_v12)
      = val_main_v12 (F := F) (W (Proc.devRef .tc main_arg0)) (W (Proc.devRef .tc main_arg1)) := by
  after_results_simp
  try simp only [cast_cast, cast_eq]
  rfl

/-- The first gather's row numbers: the counter, as a column … -/
theorem stageB1a_call2_v14 (W : Valuation τ sig (Elt F)) :
    after (opsB1a (F := F)) W (Proc.devRef .tc main_call2_v14) = val_main_call2_v14 (F := F) := by
  after_results_simp
  try simp only [cast_cast, cast_eq]
  rfl

/-- … and its column numbers: the counter plus 4096, as a column. -/
theorem stageB1a_call2_v15 (W : Valuation τ sig (Elt F)) :
    after (opsB1a (F := F)) W (Proc.devRef .tc main_call2_v15) = val_main_call2_v15 (F := F) := by
  after_results_simp
  try simp only [cast_cast, cast_eq]
  rfl

/-- Side by side they are the first gather's index array. -/
theorem stageB1b_call2_v16 (W : Valuation τ sig (Elt F))
    (h_call2_v14 : W (Proc.devRef .tc main_call2_v14) = val_main_call2_v14 (F := F))
    (h_call2_v15 : W (Proc.devRef .tc main_call2_v15) = val_main_call2_v15 (F := F)) :
    after (opsB1b (F := F)) W (Proc.devRef .tc main_call2_v16) = val_main_call2_v16 (F := F) := by
  after_results_simp
  try simp only [cast_cast, cast_eq]
  rw [h_call2_v14, h_call2_v15]
  try simp only [cast_cast, cast_eq]
  rfl

/-- The first gather reads one diagonal out of the similarity matrix. -/
theorem stageB1c_v13 (W : Valuation τ sig (Elt F)) (x0 x1 : (⟨S4096x512, .f32⟩ : BufTy).Contents (Elt F))
    (h_v12 : W (Proc.devRef .tc main_v12) = val_main_v12 (F := F) x0 x1)
    (h_call2_v16 : W (Proc.devRef .tc main_call2_v16) = val_main_call2_v16 (F := F)) :
    after (opsB1c (F := F)) W (Proc.devRef .tc main_v13) = val_main_v13 (F := F) x0 x1 := by
  after_results_simp
  try simp only [cast_cast, cast_eq]
  rw [h_v12, h_call2_v16]
  try simp only [cast_cast, cast_eq]
  rfl

/-- The second gather's row numbers: the counter plus 4096 … -/
theorem stageB2a_call3_v14 (W : Valuation τ sig (Elt F)) :
    after (opsB2a (F := F)) W (Proc.devRef .tc main_call3_v14) = val_main_call3_v14 (F := F) := by
  after_results_simp
  try simp only [cast_cast, cast_eq]
  rfl

/-- … and its column numbers: the counter. -/
theorem stageB2a_call3_v15 (W : Valuation τ sig (Elt F)) :
    after (opsB2a (F := F)) W (Proc.devRef .tc main_call3_v15) = val_main_call3_v15 (F := F) := by
  after_results_simp
  try simp only [cast_cast, cast_eq]
  rfl

/-- Side by side they are the second gather's index array. -/
theorem stageB2b_call3_v16 (W : Valuation τ sig (Elt F))
    (h_call3_v14 : W (Proc.devRef .tc main_call3_v14) = val_main_call3_v14 (F := F))
    (h_call3_v15 : W (Proc.devRef .tc main_call3_v15) = val_main_call3_v15 (F := F)) :
    after (opsB2b (F := F)) W (Proc.devRef .tc main_call3_v16) = val_main_call3_v16 (F := F) := by
  after_results_simp
  try simp only [cast_cast, cast_eq]
  rw [h_call3_v14, h_call3_v15]
  try simp only [cast_cast, cast_eq]
  rfl

/-- The second gather reads the other diagonal. -/
theorem stageB2c_v14 (W : Valuation τ sig (Elt F)) (x0 x1 : (⟨S4096x512, .f32⟩ : BufTy).Contents (Elt F))
    (h_v12 : W (Proc.devRef .tc main_v12) = val_main_v12 (F := F) x0 x1)
    (h_call3_v16 : W (Proc.devRef .tc main_call3_v16) = val_main_call3_v16 (F := F)) :
    after (opsB2c (F := F)) W (Proc.devRef .tc main_v14) = val_main_v14 (F := F) x0 x1 := by
  after_results_simp
  try simp only [cast_cast, cast_eq]
  rw [h_v12, h_call3_v16]
  try simp only [cast_cast, cast_eq]
  rfl

/-- The two diagonals end to end are the positives. -/
theorem stageB3_v15 (W : Valuation τ sig (Elt F)) (x0 x1 : (⟨S4096x512, .f32⟩ : BufTy).Contents (Elt F))
    (h_v13 : W (Proc.devRef .tc main_v13) = val_main_v13 (F := F) x0 x1)
    (h_v14 : W (Proc.devRef .tc main_v14) = val_main_v14 (F := F) x0 x1) :
    after (opsB3 (F := F)) W (Proc.devRef .tc main_v15) = val_main_v15 (F := F) x0 x1 := by
  after_results_simp
  try simp only [cast_cast, cast_eq]
  rw [h_v13, h_v14]
  try simp only [cast_cast, cast_eq]
  rfl

/-- The diagonal mask and the row maximum turn the similarity matrix into the row maxima. -/
theorem stageC_v22 (W : Valuation τ sig (Elt F)) (x0 x1 : (⟨S4096x512, .f32⟩ : BufTy).Contents (Elt F))
    (h_v12 : W (Proc.devRef .tc main_v12) = val_main_v12 (F := F) x0 x1) :
    after (opsC (F := F)) W (Proc.devRef .tc main_v22) = val_main_v22 (F := F) x0 x1 := by
  after_results_simp
  try simp only [cast_cast, cast_eq]
  rw [h_v12]
  try simp only [cast_cast, cast_eq]
  rfl

/-- The positives over the temperature, as a column … -/
theorem stageD1_v27 (W : Valuation τ sig (Elt F)) (x0 x1 : (⟨S4096x512, .f32⟩ : BufTy).Contents (Elt F))
    (h_v15 : W (Proc.devRef .tc main_v15) = val_main_v15 (F := F) x0 x1) :
    after (opsD1 (F := F)) W (Proc.devRef .tc main_v27) = val_main_v27 (F := F) x0 x1 := by
  after_results_simp
  try simp only [cast_cast, cast_eq]
  rw [h_v15]
  try simp only [cast_cast, cast_eq]
  rfl

/-- … the row maxima over half the temperature, as a column. -/
theorem stageD1_v28 (W : Valuation τ sig (Elt F)) (x0 x1 : (⟨S4096x512, .f32⟩ : BufTy).Contents (Elt F))
    (h_v22 : W (Proc.devRef .tc main_v22) = val_main_v22 (F := F) x0 x1) :
    after (opsD1 (F := F)) W (Proc.devRef .tc main_v28) = val_main_v28 (F := F) x0 x1 := by
  after_results_simp
  try simp only [cast_cast, cast_eq]
  rw [h_v22]
  try simp only [cast_cast, cast_eq]
  rfl

/-- The two columns side by side are the logits. -/
theorem stageD2_v29 (W : Valuation τ sig (Elt F)) (x0 x1 : (⟨S4096x512, .f32⟩ : BufTy).Contents (Elt F))
    (h_v27 : W (Proc.devRef .tc main_v27) = val_main_v27 (F := F) x0 x1)
    (h_v28 : W (Proc.devRef .tc main_v28) = val_main_v28 (F := F) x0 x1) :
    after (opsD2 (F := F)) W (Proc.devRef .tc main_v29) = val_main_v29 (F := F) x0 x1 := by
  after_results_simp
  try simp only [cast_cast, cast_eq]
  rw [h_v27, h_v28]
  try simp only [cast_cast, cast_eq]
  rfl

set_option maxRecDepth 8192 in
/-- The log-softmax of the logits. -/
theorem stageE_v30 (W : Valuation τ sig (Elt F)) (x0 x1 : (⟨S4096x512, .f32⟩ : BufTy).Contents (Elt F))
    (h_v29 : W (Proc.devRef .tc main_v29) = val_main_v29 (F := F) x0 x1) :
    after (opsE (F := F)) W (Proc.devRef .tc main_v30) = val_main_v30 (F := F) x0 x1 := by
  after_results_simp
  try simp only [cast_cast, cast_eq]
  rw [h_v29]
  try simp only [cast_cast, cast_eq]
  rfl

/-- The first column, averaged and negated: the cross-entropy term. -/
theorem stageFc_v35 (W : Valuation τ sig (Elt F)) (x0 x1 : (⟨S4096x512, .f32⟩ : BufTy).Contents (Elt F))
    (h_v30 : W (Proc.devRef .tc main_v30) = val_main_v30 (F := F) x0 x1) :
    after (opsFc (F := F)) W (Proc.devRef .tc main_v35) = val_main_v35 (F := F) x0 x1 := by
  after_results_simp
  try simp only [cast_cast, cast_eq]
  rw [h_v30]
  try simp only [cast_cast, cast_eq]
  rfl

/-- The similarity matrix weighed, masked to the triangle and summed: the uniformity sum. -/
theorem stageG_v46 (W : Valuation τ sig (Elt F)) (x0 x1 : (⟨S4096x512, .f32⟩ : BufTy).Contents (Elt F))
    (h_v12 : W (Proc.devRef .tc main_v12) = val_main_v12 (F := F) x0 x1) :
    after (opsG (F := F)) W (Proc.devRef .tc main_v46) = val_main_v46 (F := F) x0 x1 := by
  after_results_simp
  try simp only [cast_cast, cast_eq]
  rw [h_v12]
  try simp only [cast_cast, cast_eq]
  rfl

/-- The cross-entropy term plus the scaled log of the normalised uniformity sum. -/
theorem stageH_v50 (W : Valuation τ sig (Elt F)) (x0 x1 : (⟨S4096x512, .f32⟩ : BufTy).Contents (Elt F))
    (h_v35 : W (Proc.devRef .tc main_v35) = val_main_v35 (F := F) x0 x1)
    (h_v46 : W (Proc.devRef .tc main_v46) = val_main_v46 (F := F) x0 x1) :
    after (opsH (F := F)) W (Proc.devRef .tc main_v50) = val_main_v50 (F := F) x0 x1 := by
  after_results_simp
  try simp only [cast_cast, cast_eq]
  rw [h_v35, h_v46]
  try simp only [cast_cast, cast_eq]
  rfl

/-! ## What each piece leaves alone -/

/-- The piece writes another buffer. -/
theorem carryB1a_v12 (W : Valuation τ sig (Elt F)) :
    after (opsB1a (F := F)) W (Proc.devRef .tc main_v12) = W (Proc.devRef .tc main_v12) := by
  after_results_simp

/-- The piece writes another buffer. -/
theorem carryB1b_v12 (W : Valuation τ sig (Elt F)) :
    after (opsB1b (F := F)) W (Proc.devRef .tc main_v12) = W (Proc.devRef .tc main_v12) := by
  after_results_simp

/-- The piece writes another buffer. -/
theorem carryB1c_v12 (W : Valuation τ sig (Elt F)) :
    after (opsB1c (F := F)) W (Proc.devRef .tc main_v12) = W (Proc.devRef .tc main_v12) := by
  after_results_simp

/-- The piece writes another buffer. -/
theorem carryB2a_v12 (W : Valuation τ sig (Elt F)) :
    after (opsB2a (F := F)) W (Proc.devRef .tc main_v12) = W (Proc.devRef .tc main_v12) := by
  after_results_simp

/-- The piece writes another buffer. -/
theorem carryB2b_v12 (W : Valuation τ sig (Elt F)) :
    after (opsB2b (F := F)) W (Proc.devRef .tc main_v12) = W (Proc.devRef .tc main_v12) := by
  after_results_simp

/-- The piece writes another buffer. -/
theorem carryB2c_v12 (W : Valuation τ sig (Elt F)) :
    after (opsB2c (F := F)) W (Proc.devRef .tc main_v12) = W (Proc.devRef .tc main_v12) := by
  after_results_simp

/-- The piece writes another buffer. -/
theorem carryB3_v12 (W : Valuation τ sig (Elt F)) :
    after (opsB3 (F := F)) W (Proc.devRef .tc main_v12) = W (Proc.devRef .tc main_v12) := by
  after_results_simp

/-- The piece writes another buffer. -/
theorem carryC_v12 (W : Valuation τ sig (Elt F)) :
    after (opsC (F := F)) W (Proc.devRef .tc main_v12) = W (Proc.devRef .tc main_v12) := by
  after_results_simp

/-- The piece writes another buffer. -/
theorem carryD1_v12 (W : Valuation τ sig (Elt F)) :
    after (opsD1 (F := F)) W (Proc.devRef .tc main_v12) = W (Proc.devRef .tc main_v12) := by
  after_results_simp

/-- The piece writes another buffer. -/
theorem carryD2_v12 (W : Valuation τ sig (Elt F)) :
    after (opsD2 (F := F)) W (Proc.devRef .tc main_v12) = W (Proc.devRef .tc main_v12) := by
  after_results_simp

/-- The piece writes another buffer. -/
theorem carryE_v12 (W : Valuation τ sig (Elt F)) :
    after (opsE (F := F)) W (Proc.devRef .tc main_v12) = W (Proc.devRef .tc main_v12) := by
  after_results_simp

/-- The piece writes another buffer. -/
theorem carryFc_v12 (W : Valuation τ sig (Elt F)) :
    after (opsFc (F := F)) W (Proc.devRef .tc main_v12) = W (Proc.devRef .tc main_v12) := by
  after_results_simp

/-- The piece writes another buffer. -/
theorem carryB2a_v13 (W : Valuation τ sig (Elt F)) :
    after (opsB2a (F := F)) W (Proc.devRef .tc main_v13) = W (Proc.devRef .tc main_v13) := by
  after_results_simp

/-- The piece writes another buffer. -/
theorem carryB2b_v13 (W : Valuation τ sig (Elt F)) :
    after (opsB2b (F := F)) W (Proc.devRef .tc main_v13) = W (Proc.devRef .tc main_v13) := by
  after_results_simp

/-- The piece writes another buffer. -/
theorem carryB2c_v13 (W : Valuation τ sig (Elt F)) :
    after (opsB2c (F := F)) W (Proc.devRef .tc main_v13) = W (Proc.devRef .tc main_v13) := by
  after_results_simp

/-- The piece writes another buffer. -/
theorem carryC_v15 (W : Valuation τ sig (Elt F)) :
    after (opsC (F := F)) W (Proc.devRef .tc main_v15) = W (Proc.devRef .tc main_v15) := by
  after_results_simp

/-- The piece writes another buffer. -/
theorem carryG_v35 (W : Valuation τ sig (Elt F)) :
    after (opsG (F := F)) W (Proc.devRef .tc main_v35) = W (Proc.devRef .tc main_v35) := by
  after_results_simp

/-! ## The whole line -/

/-- From any contents, the line leaves its result at the last stage function of the two inputs. -/
theorem after_ops_main_v50 (W : Valuation τ sig (Elt F)) :
    after (ops (F := F)) W (Proc.devRef .tc main_v50)
      = val_main_v50 (F := F) (W (Proc.devRef .tc main_arg0)) (W (Proc.devRef .tc main_arg1)) := by
  rw [ops_split, after_append', after_append', after_append', after_append', after_append', after_append', after_append', after_append', after_append', after_append', after_append', after_append', after_append', after_append']
  have f0_v12 := stageA (F := F) W
  have f1_call2_v14 := stageB1a_call2_v14 (F := F) (after opsA W)
  have f1_call2_v15 := stageB1a_call2_v15 (F := F) (after opsA W)
  have f1_v12 := (carryB1a_v12 (F := F) (after opsA W)).trans f0_v12
  have f2_call2_v16 := stageB1b_call2_v16 (F := F) (after opsB1a (after opsA W)) f1_call2_v14 f1_call2_v15
  have f2_v12 := (carryB1b_v12 (F := F) (after opsB1a (after opsA W))).trans f1_v12
  have f3_v13 := stageB1c_v13 (F := F) (after opsB1b (after opsB1a (after opsA W))) _ _ f2_v12 f2_call2_v16
  have f3_v12 := (carryB1c_v12 (F := F) (after opsB1b (after opsB1a (after opsA W)))).trans f2_v12
  have f4_call3_v14 := stageB2a_call3_v14 (F := F) (after opsB1c (after opsB1b (after opsB1a (after opsA W))))
  have f4_call3_v15 := stageB2a_call3_v15 (F := F) (after opsB1c (after opsB1b (after opsB1a (after opsA W))))
  have f4_v12 := (carryB2a_v12 (F := F) (after opsB1c (after opsB1b (after opsB1a (after opsA W))))).trans f3_v12
  have f4_v13 := (carryB2a_v13 (F := F) (after opsB1c (after opsB1b (after opsB1a (after opsA W))))).trans f3_v13
  have f5_call3_v16 := stageB2b_call3_v16 (F := F) (after opsB2a (after opsB1c (after opsB1b (after opsB1a (after opsA W))))) f4_call3_v14 f4_call3_v15
  have f5_v12 := (carryB2b_v12 (F := F) (after opsB2a (after opsB1c (after opsB1b (after opsB1a (after opsA W)))))).trans f4_v12
  have f5_v13 := (carryB2b_v13 (F := F) (after opsB2a (after opsB1c (after opsB1b (after opsB1a (after opsA W)))))).trans f4_v13
  have f6_v14 := stageB2c_v14 (F := F) (after opsB2b (after opsB2a (after opsB1c (after opsB1b (after opsB1a (after opsA W)))))) _ _ f5_v12 f5_call3_v16
  have f6_v12 := (carryB2c_v12 (F := F) (after opsB2b (after opsB2a (after opsB1c (after opsB1b (after opsB1a (after opsA W))))))).trans f5_v12
  have f6_v13 := (carryB2c_v13 (F := F) (after opsB2b (after opsB2a (after opsB1c (after opsB1b (after opsB1a (after opsA W))))))).trans f5_v13
  have f7_v15 := stageB3_v15 (F := F) (after opsB2c (after opsB2b (after opsB2a (after opsB1c (after opsB1b (after opsB1a (after opsA W))))))) _ _ f6_v13 f6_v14
  have f7_v12 := (carryB3_v12 (F := F) (after opsB2c (after opsB2b (after opsB2a (after opsB1c (after opsB1b (after opsB1a (after opsA W)))))))).trans f6_v12
  have f8_v22 := stageC_v22 (F := F) (after opsB3 (after opsB2c (after opsB2b (after opsB2a (after opsB1c (after opsB1b (after opsB1a (after opsA W)))))))) _ _ f7_v12
  have f8_v12 := (carryC_v12 (F := F) (after opsB3 (after opsB2c (after opsB2b (after opsB2a (after opsB1c (after opsB1b (after opsB1a (after opsA W))))))))).trans f7_v12
  have f8_v15 := (carryC_v15 (F := F) (after opsB3 (after opsB2c (after opsB2b (after opsB2a (after opsB1c (after opsB1b (after opsB1a (after opsA W))))))))).trans f7_v15
  have f9_v27 := stageD1_v27 (F := F) (after opsC (after opsB3 (after opsB2c (after opsB2b (after opsB2a (after opsB1c (after opsB1b (after opsB1a (after opsA W))))))))) _ _ f8_v15
  have f9_v28 := stageD1_v28 (F := F) (after opsC (after opsB3 (after opsB2c (after opsB2b (after opsB2a (after opsB1c (after opsB1b (after opsB1a (after opsA W))))))))) _ _ f8_v22
  have f9_v12 := (carryD1_v12 (F := F) (after opsC (after opsB3 (after opsB2c (after opsB2b (after opsB2a (after opsB1c (after opsB1b (after opsB1a (after opsA W)))))))))).trans f8_v12
  have f10_v29 := stageD2_v29 (F := F) (after opsD1 (after opsC (after opsB3 (after opsB2c (after opsB2b (after opsB2a (after opsB1c (after opsB1b (after opsB1a (after opsA W)))))))))) _ _ f9_v27 f9_v28
  have f10_v12 := (carryD2_v12 (F := F) (after opsD1 (after opsC (after opsB3 (after opsB2c (after opsB2b (after opsB2a (after opsB1c (after opsB1b (after opsB1a (after opsA W))))))))))).trans f9_v12
  have f11_v30 := stageE_v30 (F := F) (after opsD2 (after opsD1 (after opsC (after opsB3 (after opsB2c (after opsB2b (after opsB2a (after opsB1c (after opsB1b (after opsB1a (after opsA W))))))))))) _ _ f10_v29
  have f11_v12 := (carryE_v12 (F := F) (after opsD2 (after opsD1 (after opsC (after opsB3 (after opsB2c (after opsB2b (after opsB2a (after opsB1c (after opsB1b (after opsB1a (after opsA W)))))))))))).trans f10_v12
  have f12_v35 := stageFc_v35 (F := F) (after opsE (after opsD2 (after opsD1 (after opsC (after opsB3 (after opsB2c (after opsB2b (after opsB2a (after opsB1c (after opsB1b (after opsB1a (after opsA W)))))))))))) _ _ f11_v30
  have f12_v12 := (carryFc_v12 (F := F) (after opsE (after opsD2 (after opsD1 (after opsC (after opsB3 (after opsB2c (after opsB2b (after opsB2a (after opsB1c (after opsB1b (after opsB1a (after opsA W))))))))))))).trans f11_v12
  have f13_v46 := stageG_v46 (F := F) (after opsFc (after opsE (after opsD2 (after opsD1 (after opsC (after opsB3 (after opsB2c (after opsB2b (after opsB2a (after opsB1c (after opsB1b (after opsB1a (after opsA W))))))))))))) _ _ f12_v12
  have f13_v35 := (carryG_v35 (F := F) (after opsFc (after opsE (after opsD2 (after opsD1 (after opsC (after opsB3 (after opsB2c (after opsB2b (after opsB2a (after opsB1c (after opsB1b (after opsB1a (after opsA W)))))))))))))).trans f12_v35
  exact stageH_v50 (F := F) (after opsG (after opsFc (after opsE (after opsD2 (after opsD1 (after opsC (after opsB3 (after opsB2c (after opsB2b (after opsB2a (after opsB1c (after opsB1b (after opsB1a (after opsA W)))))))))))))) _ _ f13_v35 f13_v46

set_option maxRecDepth 8192 in
/-- No operation writes the first input … -/
theorem after_ops_main_arg0 (W : Valuation τ sig (Elt F)) :
    after (ops (F := F)) W (Proc.devRef .tc main_arg0) = W (Proc.devRef .tc main_arg0) := by
  after_results_simp

set_option maxRecDepth 8192 in
/-- … nor the second. -/
theorem after_ops_main_arg1 (W : Valuation τ sig (Elt F)) :
    after (ops (F := F)) W (Proc.devRef .tc main_arg1) = W (Proc.devRef .tc main_arg1) := by
  after_results_simp

/-! ## The run -/

set_option maxRecDepth 8192 in
/-- On every device, for any float values, from any memory with zero counters: every weakly fair execution of the
    reference terminates with its result at the last stage function of the two inputs' launch contents, the inputs
    unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
        = val_main_v50 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v50).trans (after_ops_main_v50 (F := F) (launchContents m c)),
      (h c main_arg0).trans (after_ops_main_arg0 (F := F) (launchContents m c)),
      (h c main_arg1).trans (after_ops_main_arg1 (F := F) (launchContents m c))⟩)
    (run_seq scopedRefs_eq scopedSems_eq defs main (fun _ => ops) main_eq (fun _ => ops_sub) m ρ)

end Cert.ReferenceIdeal.RefRun

end
-- ==== Proof.lean ====
/-
  The contrastive (NT-Xent) loss computed two ways, and why they agree over the extended reals.

  Both programs normalise the rows of the two embedding matrices, stack them into 8192 rows `reps`, and need three things of
  the 8192 × 8192 matrix of similarities `sim r c = ∑ k, reps[r,k] · reps[c,k]`: each row's positive (its similarity with
  the partner row 4096 away — the dot product of the two halves' rows, whichever way round, since the product commutes),
  each row's hardest negative (the largest similarity off the diagonal), and the sum over the strict upper triangle of
  `exp(−2·(2 − 2·sim))`. The reference builds the whole matrix and reduces it once. The kernel never builds it: on an 8 × 8
  grid of 1024 × 1024 tiles it folds, across the column tiles of a row tile, the running row maximum (started at −∞, the
  diagonal masked by −∞) and the running sum of the tile's upper-triangle weights (started at 0), and writes both back at
  the last column tile; the host then sums the eight partial sums. A maximum over eight tile maxima is the maximum over
  all columns (−∞ is neutral), a sum of tile sums is the whole sum (addition on the extended reals is commutative and
  associative), and a weight times the 0/1 triangle mask is the weight selected by the mask (x·1 = x and x·0 = 0 for every
  extended real): so the three quantities agree and the same closing host arithmetic is applied to them on both sides.
  No step needs finiteness: the precondition is never opened.

  The kernel's two input windows read ONE array (the stacked embeddings, as row block and as column block), so its frame
  is proved through a frame run for windows that share an array; the word-level program and its idealization have the
  same body and the same proof text. The idealization rewrote nothing, so there is nothing to preserve.
-/
import proofs.«154950_j89077621719714_1_alg».proof.Defs
import proofs.«154950_j89077621719714_1_alg».proof.Proof.Gen.Kernel
import proofs.«154950_j89077621719714_1_alg».proof.Proof.Gen.KernelIdeal
import proofs.«154950_j89077621719714_1_alg».proof.Proof.Gen.ReferenceIdeal
import proofs.«154950_j89077621719714_1_alg».proof.Proof.Gen.Pre_finite_inputs
import proofs.«154950_j89077621719714_1_alg».proof.Proof.KRun
import proofs.«154950_j89077621719714_1_alg».proof.Proof.KIExit
import proofs.«154950_j89077621719714_1_alg».proof.Proof.KIResult
import proofs.«154950_j89077621719714_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.ref_run (F := Ideal) m ρ)

/-- Both idealized programs end with the loss the reference's operations compute from the arguments: the kernel's tiled
    folds and the reference's whole-matrix reductions are the same three quantities. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v50 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c =>
      ⟨(h c).1.trans (Cert.KernelIdeal.Hand.kernel_value m c (Cert.KernelIdeal.Hand.Vexit m c)
          (Cert.KernelIdeal.Hand.Vexit_positives m c) (Cert.KernelIdeal.Hand.Vexit_hardNeg m c) (Cert.KernelIdeal.Hand.Vexit_partials m c)),
        (h c).2⟩) (Cert.KernelIdeal.Hand.run_result (F := Ideal) m ρ)
  · exact (θ_run Cert.ReferenceIdeal.defs _ _).mono (fun _ h c =>
      ⟨by rw [(h c).1, (hagree c).1, (hagree c).2], (h c).2⟩) (Cert.ReferenceIdeal.RefRun.ref_run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
